-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256 : Shape := ⟨3, ![32, 64, 256]⟩
abbrev S32x64x4 : Shape := ⟨3, ![32, 64, 4]⟩
abbrev S32x64 : Shape := ⟨2, ![32, 64]⟩
abbrev S516x256 : Shape := ⟨2, ![516, 256]⟩
abbrev S256 : Shape := ⟨1, ![256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S128x1 : Shape := ⟨2, ![128, 1]⟩
abbrev S1 : Shape := ⟨1, ![1]⟩
abbrev S_ : Shape := ⟨0, ![]⟩

class Facts : Prop where
  bcast_S_S32x64x256 : S_.BroadcastsInDim S32x64x256 (![] : Fin 0 → Fin S32x64x256.rank)
  reducesTo_S32x64x256_S_d0_1_2 : S32x64x256.ReducesTo [0, 1, 2] S_
  h_S_ : 0 < S_.numel
  bcast_S_S32x64x4 : S_.BroadcastsInDim S32x64x4 (![] : Fin 0 → Fin S32x64x4.rank)
  reducesTo_S32x64x4_S_d0_1_2 : S32x64x4.ReducesTo [0, 1, 2] S_
  bcast_S_S32x64 : S_.BroadcastsInDim S32x64 (![] : Fin 0 → Fin S32x64.rank)
  reducesTo_S32x64_S_d0_1 : S32x64.ReducesTo [0, 1] S_
  bcast_S_S516x256 : S_.BroadcastsInDim S516x256 (![] : Fin 0 → Fin S516x256.rank)
  reducesTo_S516x256_S_d0_1 : S516x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S128x8 .f32) (main_arg8 : FVec F S8 .f32) (main_arg9 : FVec F S128x1 .f32) (main_arg10 : FVec F S1 .f32) (main_v33 : IVec S_ 1) : IVec S_ 1 :=
  let main_v34 : FVec F S128x8 .f32 := Host.absf main_arg7
  let main_cst_12 : FVec F S_ .f32 := constant S_ .f32 0x7F800000#32
  let main_v35 : FVec F S128x8 .f32 := broadcastInDim S128x8 ![] bcast_S_S128x8 main_cst_12
  let main_v36 : IVec S128x8 1 := cmpf .olt main_v34 main_v35
  let main_c_13 : IVec S_ 1 := constantI S_ 1 1#1
  let main_v37 : IVec S_ 1 := (fun x v => Host.reduce IntOp.andi x v reducesTo_S128x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S256 .f32) (main_arg5 : FVec F S256x128 .f32) (main_arg6 : FVec F S128 .f32) (main_arg7 : FVec F S128x8 .f32) (main_arg8 : FVec F S8 .f32) (main_arg9 : FVec F S128x1 .f32) (main_arg10 : FVec F S1 .f32) (main_v13 : IVec S_ 1) (main_v16 : IVec S516x256 1) : IVec S_ 1 :=
  let main_c_5 : IVec S_ 1 := constantI S_ 1 1#1
  let main_v17 : IVec S_ 1 := (fun x v => Host.reduce IntOp.andi x v reducesTo_S516x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x64x256 .f32) (main_arg1 : FVec F S32x64x4 .f32) (main_arg2 : FVec F S32x64 .f32) (main_arg3 : FVec F S516x256 .f32) (main_arg4 : FVec F S256 .f32) (main_arg5 : FVec F S256x128 .f32) (main_arg6 : FVec F S128 .f32) (main_arg7 : FVec F S128x8 .f32) (main_arg8 : FVec F S8 .f32) (main_arg9 : FVec F S128x1 .f32) (main_arg10 : FVec F S1 .f32) : IVec S_ 1 :=
  let main_v0 : FVec F S32x64x256 .f32 := Host.absf main_arg0
  let main_cst : FVec F S_ .f32 := constant S_ .f32 0x7F800000#32
  let main_v1 : FVec F S32x64x256 .f32 := broadcastInDim S32x64x256 ![] bcast_S_S32x64x256 main_cst
  let main_v2 : IVec S32x64x256 1 := cmpf .olt main_v0 main_v1
  let main_c : IVec S_ 1 := constantI S_ 1 1#1
  let main_v3 : IVec S_ 1 := (fun x v => Host.reduce IntOp.andi x v reducesTo_S32x64x256_S_d0_1_2 h_S_) main_v2 main_c
  let main_v4 : FVec F S32x64x4 .f32 := Host.absf main_arg1
  let main_cst_0 : FVec F S_ .f32 := constant S_ .f32 0x7F800000#32
  let main_v5 : FVec F S32x64x4 .f32 := broadcastInDim S32x64x4 ![] bcast_S_S32x64x4 main_cst_0
  let main_v6 : IVec S32x64x4 1 := cmpf .olt main_v4 main_v5
  let main_c_1 : IVec S_ 1 := constantI S_ 1 1#1
  let main_v7 : IVec S_ 1 := (fun x v => Host.reduce IntOp.andi x v reducesTo_S32x64x4_S_d0_1_2 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S516x256 .f32 := Host.absf main_arg3
  let main_cst_4 : FVec F S_ .f32 := constant S_ .f32 0x7F800000#32
  let main_v15 : FVec F S516x256 .f32 := broadcastInDim S516x256 ![] bcast_S_S516x256 main_cst_4
  let main_v16 : IVec S516x256 1 := cmpf .olt main_v14 main_v15
  fn_part1 (F := F) main_arg4 main_arg5 main_arg6 main_arg7 main_arg8 main_arg9 main_arg10 main_v13 main_v16
-- ==== Kernel.lean ====
abbrev S32x64x256 : Shape := ⟨3, ![32, 64, 256]⟩
abbrev S32x64x4 : Shape := ⟨3, ![32, 64, 4]⟩
abbrev S32x64 : Shape := ⟨2, ![32, 64]⟩
abbrev S516x256 : Shape := ⟨2, ![516, 256]⟩
abbrev S256 : Shape := ⟨1, ![256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S128x1 : Shape := ⟨2, ![128, 1]⟩
abbrev S1 : Shape := ⟨1, ![1]⟩
abbrev S256x256 : Shape := ⟨2, ![256, 256]⟩
abbrev S4x256 : Shape := ⟨2, ![4, 256]⟩
abbrev S32x64x1 : Shape := ⟨3, ![32, 64, 1]⟩
abbrev S32x64x64x128 : Shape := ⟨4, ![32, 64, 64, 128]⟩
abbrev S32x64x64x8 : Shape := ⟨4, ![32, 64, 64, 8]⟩
abbrev S32x64x64 : Shape := ⟨3, ![32, 64, 64]⟩
abbrev S1x32x256 : Shape := ⟨3, ![1, 32, 256]⟩
abbrev S1x64x256 : Shape := ⟨3, ![1, 64, 256]⟩
abbrev S1x32x4 : Shape := ⟨3, ![1, 32, 4]⟩
abbrev S1x64x4 : Shape := ⟨3, ![1, 64, 4]⟩
abbrev S1x32x1 : Shape := ⟨3, ![1, 32, 1]⟩
abbrev S1x64x1 : Shape := ⟨3, ![1, 64, 1]⟩
abbrev S1x32x64x128 : Shape := ⟨4, ![1, 32, 64, 128]⟩
abbrev S1x32x64x8 : Shape := ⟨4, ![1, 32, 64, 8]⟩
abbrev S1x32x64 : Shape := ⟨3, ![1, 32, 64]⟩
abbrev S32x256 : Shape := ⟨2, ![32, 256]⟩
abbrev S64x256 : Shape := ⟨2, ![64, 256]⟩
abbrev S32x4 : Shape := ⟨2, ![32, 4]⟩
abbrev S64x4 : Shape := ⟨2, ![64, 4]⟩
abbrev S32x1 : Shape := ⟨2, ![32, 1]⟩
abbrev S64x1 : Shape := ⟨2, ![64, 1]⟩
abbrev S32x2 : Shape := ⟨2, ![32, 2]⟩
abbrev S64x2 : Shape := ⟨2, ![64, 2]⟩
abbrev S32x1x2 : Shape := ⟨3, ![32, 1, 2]⟩
abbrev S1x64x2 : Shape := ⟨3, ![1, 64, 2]⟩
abbrev S32x64x2 : Shape := ⟨3, ![32, 64, 2]⟩
abbrev S2048x4 : Shape := ⟨2, ![2048, 4]⟩
abbrev S2048x256 : Shape := ⟨2, ![2048, 256]⟩
abbrev S32x1x256 : Shape := ⟨3, ![32, 1, 256]⟩
abbrev S1x1x256 : Shape := ⟨3, ![1, 1, 256]⟩
abbrev S2048x128 : Shape := ⟨2, ![2048, 128]⟩
abbrev S32x64x128 : Shape := ⟨3, ![32, 64, 128]⟩
abbrev S1x1x128 : Shape := ⟨3, ![1, 1, 128]⟩
abbrev S32 : Shape := ⟨1, ![32]⟩
abbrev S64 : Shape := ⟨1, ![64]⟩
abbrev S1x64 : Shape := ⟨2, ![1, 64]⟩
abbrev S2048x8 : Shape := ⟨2, ![2048, 8]⟩
abbrev S32x64x8 : Shape := ⟨3, ![32, 64, 8]⟩
abbrev S1x1x8 : Shape := ⟨3, ![1, 1, 8]⟩
abbrev S2048x1 : Shape := ⟨2, ![2048, 1]⟩

abbrev nBuf : Space → Nat
  | .hbm => 18
  | .vmem => 28
  | .smem => 0
  | _ => 0

abbrev bufTy : (tb : Table) → Fin (tcTables nBuf tb) → BufTy
  | .hbm, ⟨0, _⟩ => ⟨S32x64x256, .f32⟩
  | .hbm, ⟨1, _⟩ => ⟨S32x64x4, .f32⟩
  | .hbm, ⟨2, _⟩ => ⟨S32x64, .f32⟩
  | .hbm, ⟨3, _⟩ => ⟨S516x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S128x1, .f32⟩
  | .hbm, ⟨10, _⟩ => ⟨S1, .f32⟩
  | .hbm, ⟨11, _⟩ => ⟨S256x256, .f32⟩
  | .hbm, ⟨12, _⟩ => ⟨S256x256, .f32⟩
  | .hbm, ⟨13, _⟩ => ⟨S4x256, .f32⟩
  | .hbm, ⟨14, _⟩ => ⟨S32x64x1, .f32⟩
  | .hbm, ⟨15, _⟩ => ⟨S32x64x64x128, .f32⟩
  | .hbm, ⟨16, _⟩ => ⟨S32x64x64x8, .f32⟩
  | .hbm, ⟨17, _⟩ => ⟨S32x64x64, .f32⟩
  | .local _ .vmem, ⟨0, _⟩ => ⟨S1x32x256, .f32⟩
  | .local _ .vmem, ⟨1, _⟩ => ⟨S1x32x256, .f32⟩
  | .local _ .vmem, ⟨2, _⟩ => ⟨S1x64x256, .f32⟩
  | .local _ .vmem, ⟨3, _⟩ => ⟨S1x64x256, .f32⟩
  | .local _ .vmem, ⟨4, _⟩ => ⟨S1x32x4, .f32⟩
  | .local _ .vmem, ⟨5, _⟩ => ⟨S1x32x4, .f32⟩
  | .local _ .vmem, ⟨6, _⟩ => ⟨S1x64x4, .f32⟩
  | .local _ .vmem, ⟨7, _⟩ => ⟨S1x64x4, .f32⟩
  | .local _ .vmem, ⟨8, _⟩ => ⟨S1x32x1, .f32⟩
  | .local _ .vmem, ⟨9, _⟩ => ⟨S1x32x1, .f32⟩
  | .local _ .vmem, ⟨10, _⟩ => ⟨S1x64x1, .f32⟩
  | .local _ .vmem, ⟨11, _⟩ => ⟨S1x64x1, .f32⟩
  | .local _ .vmem, ⟨12, _⟩ => ⟨S256x256, .f32⟩
  | .local _ .vmem, ⟨13, _⟩ => ⟨S256x256, .f32⟩
  | .local _ .vmem, ⟨14, _⟩ => ⟨S4x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S128x8, .f32⟩
  | .local _ .vmem, ⟨19, _⟩ => ⟨S8, .f32⟩
  | .local _ .vmem, ⟨20, _⟩ => ⟨S128x1, .f32⟩
  | .local _ .vmem, ⟨21, _⟩ => ⟨S1, .f32⟩
  | .local _ .vmem, ⟨22, _⟩ => ⟨S1x32x64x128, .f32⟩
  | .local _ .vmem, ⟨23, _⟩ => ⟨S1x32x64x128, .f32⟩
  | .local _ .vmem, ⟨24, _⟩ => ⟨S1x32x64x8, .f32⟩
  | .local _ .vmem, ⟨25, _⟩ => ⟨S1x32x64x8, .f32⟩
  | .local _ .vmem, ⟨26, _⟩ => ⟨S1x32x64, .f32⟩
  | .local _ .vmem, ⟨27, _⟩ => ⟨S1x32x64, .f32⟩
  | _, _ => ⟨S32x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x32x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x64x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x32x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

class Facts₀ : Prop where
  slices_S516x256_S256x256_0_0 : S516x256.Slices ![0, 0] S256x256
  slices_S516x256_S256x256_256_0 : S516x256.Slices ![256, 0] S256x256
  slices_S516x256_S4x256_512_0 : S516x256.Slices ![512, 0] S4x256
  bcast_S32x64_S32x64x1_0_1 : S32x64.BroadcastsInDim S32x64x1 (![0, 1] : Fin 2 → Fin S32x64x1.rank)
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x32x4_S1x32x4_0_0_0 : ∀ a, (![0, 0, 0] : Fin 3 → Nat) a + S1x32x4.size a ≤ S1x32x4.size a
  h_S1x32x4 : 0 < S1x32x4.numel
  shapeCasts_S1x32x4_S32x4 : S1x32x4.ShapeCasts S32x4
  inb_S1x64x4_S1x64x4_0_0_0 : ∀ a, (![0, 0, 0] : Fin 3 → Nat) a + S1x64x4.size a ≤ S1x64x4.size a
  h_S1x64x4 : 0 < S1x64x4.numel
  shapeCasts_S1x64x4_S64x4 : S1x64x4.ShapeCasts S64x4
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S256_S256_0 : ∀ a, (![0] : Fin 1 → Nat) a + S256.size a ≤ S256.size a
  h_S256 : 0 < S256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  inb_S128x8_S128x8_0_0 : ∀ a, (![0, 0] : Fin 2 → Nat) a + S128x8.size a ≤ S128x8.size a
  h_S128x8 : 0 < S128x8.numel
  inb_S8_S8_0 : ∀ a, (![0] : Fin 1 → Nat) a + S8.size a ≤ S8.size a
  h_S8 : 0 < S8.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  slices_S32x4_o0_0_S32x2 : S32x4.Slices ![0, 0] S32x2
  slices_S64x4_o0_0_S64x2 : S64x4.Slices ![0, 0] S64x2
  shapeCasts_S32x2_S32x1x2 : S32x2.ShapeCasts S32x1x2
  shapeCasts_S64x2_S1x64x2 : S64x2.ShapeCasts S1x64x2
  broadcasts_S32x1x2_S32x64x2 : S32x1x2.Broadcasts S32x64x2
  broadcasts_S1x64x2_S32x64x2 : S1x64x2.Broadcasts S32x64x2
  reduces_S32x64x2_S32x64 : S32x64x2.Reduces [2] S32x64
  shapeCasts_S32x64_S32x64x1 : S32x64.ShapeCasts S32x64x1
  concatenates_S32x64x2_S32x64x1_S32x64x1_S32x64x4_d2 : Shape.Concatenates [S32x64x2, S32x64x1, S32x64x1] S32x64x4 2
  shapeCasts_S32x64x4_S2048x4 : S32x64x4.ShapeCasts S2048x4
  shapeCasts_S2048x256_S32x64x256 : S2048x256.ShapeCasts S32x64x256
  shapeCasts_S32x256_S32x1x256 : S32x256.ShapeCasts S32x1x256
  shapeCasts_S64x256_S1x64x256 : S64x256.ShapeCasts S1x64x256
  broadcasts_S32x1x256_S32x64x256 : S32x1x256.Broadcasts S32x64x256
  broadcasts_S1x64x256_S32x64x256 : S1x64x256.Broadcasts S32x64x256
  shapeCasts_S256_S1x1x256 : S256.ShapeCasts S1x1x256
  broadcasts_S1x1x256_S32x64x256 : S1x1x256.Broadcasts S32x64x256
  shapeCasts_S32x64x256_S2048x256 : S32x64x256.ShapeCasts S2048x256
  shapeCasts_S2048x128_S32x64x128 : S2048x128.ShapeCasts S32x64x128
  shapeCasts_S128_S1x1x128 : S128.ShapeCasts S1x1x128
  broadcasts_S1x1x128_S32x64x128 : S1x1x128.Broadcasts S32x64x128
  shapeCasts_S32x1_S32 : S32x1.ShapeCasts S32
  shapeCasts_S64x1_S64 : S64x1.ShapeCasts S64
  shapeCasts_S32_S32x1 : S32.ShapeCasts S32x1
  shapeCasts_S64_S1x64 : S64.ShapeCasts S1x64
  broadcasts_S32x1_S32x64 : S32x1.Broadcasts S32x64
  broadcasts_S1x64_S32x64 : S1x64.Broadcasts S32x64
  broadcasts_S32x64x1_S32x64x128 : S32x64x1.Broadcasts S32x64x128
  shapeCasts_S32x64x128_S2048x128 : S32x64x128.ShapeCasts S2048x128
  shapeCasts_S2048x8_S32x64x8 : S2048x8.ShapeCasts S32x64x8
  shapeCasts_S8_S1x1x8 : S8.ShapeCasts S1x1x8
  broadcasts_S1x1x8_S32x64x8 : S1x1x8.Broadcasts S32x64x8
  shapeCasts_S2048x1_S32x64x1 : S2048x1.ShapeCasts S32x64x1
  shapeCasts_S32x64x1_S32x64 : S32x64x1.ShapeCasts S32x64
  inpos_S1_p0 : ∀ a, (![0] : Fin 1 → Nat) a < S1.size a
  inb_S1x32x64x128_S1x32x64x128_0_0_0_0 : ∀ a, (![0, 0, 0, 0] : Fin 4 → Nat) a + S1x32x64x128.size a ≤ S1x32x64x128.size a
  h_S1x32x64x128 : 0 < S1x32x64x128.numel
  shapeCasts_S1x32x64x128_S32x64x128 : S1x32x64x128.ShapeCasts S32x64x128
  shapeCasts_S32x64x128_S1x32x64x128 : S32x64x128.ShapeCasts S1x32x64x128
  inb_S1x32x64x8_S1x32x64x8_0_0_0_0 : ∀ a, (![0, 0, 0, 0] : Fin 4 → Nat) a + S1x32x64x8.size a ≤ S1x32x64x8.size a
  h_S1x32x64x8 : 0 < S1x32x64x8.numel
  shapeCasts_S1x32x64x8_S32x64x8 : S1x32x64x8.ShapeCasts S32x64x8
  shapeCasts_S32x64x8_S1x32x64x8 : S32x64x8.ShapeCasts S1x32x64x8
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  shapeCasts_S32x64_S1x32x64 : S32x64.ShapeCasts S1x32x64
  dot_S32x256_S256x256_S32x256_1_0_0_1_n_n_wf : DotDims.WF S32x256 S256x256 S32x256 [1] [0] [0] [1] [] []
  dot_S64x256_S256x256_S64x256_1_0_0_1_n_n_wf : DotDims.WF S64x256 S256x256 S64x256 [1] [0] [0] [1] [] []
  dot_S2048x4_S4x256_S2048x256_1_0_0_1_n_n_wf : DotDims.WF S2048x4 S4x256 S2048x256 [1] [0] [0] [1] [] []
  dot_S2048x256_S256x128_S2048x128_1_0_0_1_n_n_wf : DotDims.WF S2048x256 S256x128 S2048x128 [1] [0] [0] [1] [] []
  dot_S2048x128_S128x8_S2048x8_1_0_0_1_n_n_wf : DotDims.WF S2048x128 S128x8 S2048x8 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S32x64x256.size a
  hwx0_0 : ∀ i : grid0.Coords, EltTy.bits .f32 = 32 ∨ (Rect.block (s := S32x64x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S32x64x256.size a
  hwx0_1 : ∀ i : grid0.Coords, EltTy.bits .f32 = 32 ∨ (Rect.block (s := S32x64x256) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x4.size a ≤ S32x64x4.size a
  hwx0_2 : ∀ i : grid0.Coords, EltTy.bits .f32 = 32 ∨ (Rect.block (s := S32x64x4) S1x32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x4.size a ≤ S32x64x4.size a
  hwx0_3 : ∀ i : grid0.Coords, EltTy.bits .f32 = 32 ∨ (Rect.block (s := S32x64x4) S1x64x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1.size a ≤ S32x64x1.size a
  hwx0_4 : ∀ i : grid0.Coords, EltTy.bits .f32 = 32 ∨ (Rect.block (s := S32x64x1) S1x32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S32x64x1.size a
  hwx0_5 : ∀ i : grid0.Coords, EltTy.bits .f32 = 32 ∨ (Rect.block (s := S32x64x1) S1x64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x8.size a ≤ S128x8.size a
  hwx0_12 : ∀ i : grid0.Coords, EltTy.bits .f32 = 32 ∨ (Rect.block (s := S128x8) S128x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8.size a ≤ S8.size a
  hwx0_13 : ∀ i : grid0.Coords, EltTy.bits .f32 = 32 ∨ (Rect.block (s := S8) S8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x32x64x128.size a ≤ S32x64x64x128.size a
  hwx0_16 : ∀ i : grid0.Coords, EltTy.bits .f32 = 32 ∨ (Rect.block (s := S32x64x64x128) S1x32x64x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x32x64x8.size a ≤ S32x64x64x8.size a
  hwx0_17 : ∀ i : grid0.Coords, EltTy.bits .f32 = 32 ∨ (Rect.block (s := S32x64x64x8) S1x32x64x8.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x32x64.size a ≤ S32x64x64.size a
  hwx0_18 : ∀ i : grid0.Coords, EltTy.bits .f32 = 32 ∨ (Rect.block (s := S32x64x64) S1x32x64.size (cc0_transform_18 i) (hinb0_18 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S2048x4_S4x256_S2048x256_1_0_0_1_n_n : DotDims S2048x4 S4x256 S2048x256 where
  lhsContracting := [1]
  rhsContracting := [0]
  lhsNonContracting := [0]
  rhsNonContracting := [1]
  lhsBatch := []
  rhsBatch := []
  wf := dot_S2048x4_S4x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x64x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg7) S128x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg9) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg10) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v4_0) S1x32x64x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v4_1) S1x32x64x8.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v4_2) S1x32x64.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32x64x256 : Shape := ⟨3, ![32, 64, 256]⟩
abbrev S32x64x4 : Shape := ⟨3, ![32, 64, 4]⟩
abbrev S32x64 : Shape := ⟨2, ![32, 64]⟩
abbrev S516x256 : Shape := ⟨2, ![516, 256]⟩
abbrev S256 : Shape := ⟨1, ![256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S128x1 : Shape := ⟨2, ![128, 1]⟩
abbrev S1 : Shape := ⟨1, ![1]⟩
abbrev S32x64x1x256 : Shape := ⟨4, ![32, 64, 1, 256]⟩
abbrev S32x64x64x256 : Shape := ⟨4, ![32, 64, 64, 256]⟩
abbrev S32x1x64x256 : Shape := ⟨4, ![32, 1, 64, 256]⟩
abbrev S32x64x2 : Shape := ⟨3, ![32, 64, 2]⟩
abbrev S32x64x1x2 : Shape := ⟨4, ![32, 64, 1, 2]⟩
abbrev S32x1x64x2 : Shape := ⟨4, ![32, 1, 64, 2]⟩
abbrev S32x64x64x2 : Shape := ⟨4, ![32, 64, 64, 2]⟩
abbrev S_ : Shape := ⟨0, ![]⟩
abbrev S32x64x64 : Shape := ⟨3, ![32, 64, 64]⟩
abbrev S32x64x64x1 : Shape := ⟨4, ![32, 64, 64, 1]⟩
abbrev S32x64x64x516 : Shape := ⟨4, ![32, 64, 64, 516]⟩
abbrev S1x1x1x256 : Shape := ⟨4, ![1, 1, 1, 256]⟩
abbrev S32x64x64x128 : Shape := ⟨4, ![32, 64, 64, 128]⟩
abbrev S1x1x1x128 : Shape := ⟨4, ![1, 1, 1, 128]⟩
abbrev S32x64x1 : Shape := ⟨3, ![32, 64, 1]⟩
abbrev S32x1x64 : Shape := ⟨3, ![32, 1, 64]⟩
abbrev S32x64x64x8 : Shape := ⟨4, ![32, 64, 64, 8]⟩
abbrev S1x1x1x8 : Shape := ⟨4, ![1, 1, 1, 8]⟩
abbrev S1x1x1x1 : Shape := ⟨4, ![1, 1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S32x64x256, .f32⟩
  | .hbm, ⟨1, _⟩ => ⟨S32x64x4, .f32⟩
  | .hbm, ⟨2, _⟩ => ⟨S32x64, .f32⟩
  | .hbm, ⟨3, _⟩ => ⟨S516x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S128x1, .f32⟩
  | .hbm, ⟨10, _⟩ => ⟨S1, .f32⟩
  | .hbm, ⟨11, _⟩ => ⟨S32x64x1x256, .f32⟩
  | .hbm, ⟨12, _⟩ => ⟨S32x64x64x256, .f32⟩
  | .hbm, ⟨13, _⟩ => ⟨S32x1x64x256, .f32⟩
  | .hbm, ⟨14, _⟩ => ⟨S32x64x64x256, .f32⟩
  | .hbm, ⟨15, _⟩ => ⟨S32x64x2, .f32⟩
  | .hbm, ⟨16, _⟩ => ⟨S32x64x1x2, .f32⟩
  | .hbm, ⟨17, _⟩ => ⟨S32x64x2, .f32⟩
  | .hbm, ⟨18, _⟩ => ⟨S32x1x64x2, .f32⟩
  | .hbm, ⟨19, _⟩ => ⟨S32x64x64x2, .f32⟩
  | .hbm, ⟨20, _⟩ => ⟨S32x64x64x2, .f32⟩
  | .hbm, ⟨21, _⟩ => ⟨S32x64x64x2, .f32⟩
  | .hbm, ⟨22, _⟩ => ⟨S32x64x64x2, .f32⟩
  | .hbm, ⟨23, _⟩ => ⟨S_, .f32⟩
  | .hbm, ⟨24, _⟩ => ⟨S32x64x64, .f32⟩
  | .hbm, ⟨25, _⟩ => ⟨S32x64x64x1, .f32⟩
  | .hbm, ⟨26, _⟩ => ⟨S_, .f32⟩
  | .hbm, ⟨27, _⟩ => ⟨S32x64x64x1, .f32⟩
  | .hbm, ⟨28, _⟩ => ⟨S32x64x64x1, .i1⟩
  | .hbm, ⟨29, _⟩ => ⟨S_, .f32⟩
  | .hbm, ⟨30, _⟩ => ⟨S_, .f32⟩
  | .hbm, ⟨31, _⟩ => ⟨S32x64x64x1, .f32⟩
  | .hbm, ⟨32, _⟩ => ⟨S32x64x64x1, .f32⟩
  | .hbm, ⟨33, _⟩ => ⟨S_, .f32⟩
  | .hbm, ⟨34, _⟩ => ⟨S32x64x64x1, .f32⟩
  | .hbm, ⟨35, _⟩ => ⟨S32x64x64x1, .i1⟩
  | .hbm, ⟨36, _⟩ => ⟨S32x64x64x1, .f32⟩
  | .hbm, ⟨37, _⟩ => ⟨S_, .f32⟩
  | .hbm, ⟨38, _⟩ => ⟨S_, .f32⟩
  | .hbm, ⟨39, _⟩ => ⟨S32x64x64x1, .f32⟩
  | .hbm, ⟨40, _⟩ => ⟨S32x64x64x1, .f32⟩
  | .hbm, ⟨41, _⟩ => ⟨S_, .f32⟩
  | .hbm, ⟨42, _⟩ => ⟨S32x64x64x1, .f32⟩
  | .hbm, ⟨43, _⟩ => ⟨S32x64x64x1, .f32⟩
  | .hbm, ⟨44, _⟩ => ⟨S_, .f32⟩
  | .hbm, ⟨45, _⟩ => ⟨S32x64x64x1, .f32⟩
  | .hbm, ⟨46, _⟩ => ⟨S32x64x64x1, .f32⟩
  | .hbm, ⟨47, _⟩ => ⟨S32x64x64x516, .f32⟩
  | .hbm, ⟨48, _⟩ => ⟨S32x64x64x256, .f32⟩
  | .hbm, ⟨49, _⟩ => ⟨S1x1x1x256, .f32⟩
  | .hbm, ⟨50, _⟩ => ⟨S32x64x64x256, .f32⟩
  | .hbm, ⟨51, _⟩ => ⟨S32x64x64x256, .f32⟩
  | .hbm, ⟨52, _⟩ => ⟨S_, .f32⟩
  | .hbm, ⟨53, _⟩ => ⟨S32x64x64x256, .f32⟩
  | .hbm, ⟨54, _⟩ => ⟨S32x64x64x256, .f32⟩
  | .hbm, ⟨55, _⟩ => ⟨S32x64x64x128, .f32⟩
  | .hbm, ⟨56, _⟩ => ⟨S1x1x1x128, .f32⟩
  | .hbm, ⟨57, _⟩ => ⟨S32x64x64x128, .f32⟩
  | .hbm, ⟨58, _⟩ => ⟨S32x64x64x128, .f32⟩
  | .hbm, ⟨59, _⟩ => ⟨S32x64x1, .f32⟩
  | .hbm, ⟨60, _⟩ => ⟨S32x1x64, .f32⟩
  | .hbm, ⟨61, _⟩ => ⟨S32x64x64, .f32⟩
  | .hbm, ⟨62, _⟩ => ⟨S32x64x64, .f32⟩
  | .hbm, ⟨63, _⟩ => ⟨S32x64x64, .f32⟩
  | .hbm, ⟨64, _⟩ => ⟨S32x64x64x1, .f32⟩
  | .hbm, ⟨65, _⟩ => ⟨S32x64x64x128, .f32⟩
  | .hbm, ⟨66, _⟩ => ⟨S32x64x64x128, .f32⟩
  | .hbm, ⟨67, _⟩ => ⟨S32x64x64x8, .f32⟩
  | .hbm, ⟨68, _⟩ => ⟨S1x1x1x8, .f32⟩
  | .hbm, ⟨69, _⟩ => ⟨S32x64x64x8, .f32⟩
  | .hbm, ⟨70, _⟩ => ⟨S32x64x64x8, .f32⟩
  | .hbm, ⟨71, _⟩ => ⟨S32x64x64x1, .f32⟩
  | .hbm, ⟨72, _⟩ => ⟨S1x1x1x1, .f32⟩
  | .hbm, ⟨73, _⟩ => ⟨S32x64x64x1, .f32⟩
  | .hbm, ⟨74, _⟩ => ⟨S32x64x64x1, .f32⟩
  | .hbm, ⟨75, _⟩ => ⟨S32x64x64, .f32⟩
  | .hbm, ⟨76, _⟩ => ⟨S32x64x64, .f32⟩
  | .hbm, ⟨77, _⟩ => ⟨S32x64x64, .f32⟩
  | .hbm, ⟨78, _⟩ => ⟨S_, .f32⟩
  | .hbm, ⟨79, _⟩ => ⟨S32x64x64, .f32⟩
  | .hbm, ⟨80, _⟩ => ⟨S32x64x64, .f32⟩
  | .hbm, ⟨81, _⟩ => ⟨S_, .f32⟩
  | .hbm, ⟨82, _⟩ => ⟨S32x64x64, .f32⟩
  | .hbm, ⟨83, _⟩ => ⟨S32x64x64, .f32⟩
  | .hbm, ⟨84, _⟩ => ⟨S32x64x64, .f32⟩
  | _, _ => ⟨S32x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call2_cst : Ref sig .tc := ⟨.hbm, 52, rfl⟩
abbrev main_call2_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  bcast_S32x64x256_S32x64x1x256_0_1_3 : S32x64x256.BroadcastsInDim S32x64x1x256 (![0, 1, 3] : Fin 3 → Fin S32x64x1x256.rank)
  bcast_S32x64x1x256_S32x64x64x256_0_1_2_3 : S32x64x1x256.BroadcastsInDim S32x64x64x256 (![0, 1, 2, 3] : Fin 4 → Fin S32x64x64x256.rank)
  bcast_S32x64x256_S32x1x64x256_0_2_3 : S32x64x256.BroadcastsInDim S32x1x64x256 (![0, 2, 3] : Fin 3 → Fin S32x1x64x256.rank)
  bcast_S32x1x64x256_S32x64x64x256_0_1_2_3 : S32x1x64x256.BroadcastsInDim S32x64x64x256 (![0, 1, 2, 3] : Fin 4 → Fin S32x64x64x256.rank)
  slices_S32x64x4_S32x64x2_0_0_0 : S32x64x4.Slices ![0, 0, 0] S32x64x2
  bcast_S32x64x2_S32x64x1x2_0_1_3 : S32x64x2.BroadcastsInDim S32x64x1x2 (![0, 1, 3] : Fin 3 → Fin S32x64x1x2.rank)
  bcast_S32x64x2_S32x1x64x2_0_2_3 : S32x64x2.BroadcastsInDim S32x1x64x2 (![0, 2, 3] : Fin 3 → Fin S32x1x64x2.rank)
  bcast_S32x64x1x2_S32x64x64x2_0_1_2_3 : S32x64x1x2.BroadcastsInDim S32x64x64x2 (![0, 1, 2, 3] : Fin 4 → Fin S32x64x64x2.rank)
  bcast_S32x1x64x2_S32x64x64x2_0_1_2_3 : S32x1x64x2.BroadcastsInDim S32x64x64x2 (![0, 1, 2, 3] : Fin 4 → Fin S32x64x64x2.rank)
  reducesTo_S32x64x64x2_S32x64x64_d3 : S32x64x64x2.ReducesTo [3] S32x64x64
  h_S_ : 0 < S_.numel
  bcast_S32x64x64_S32x64x64x1_0_1_2 : S32x64x64.BroadcastsInDim S32x64x64x1 (![0, 1, 2] : Fin 3 → Fin S32x64x64x1.rank)
  bcast_S_S32x64x64x1 : S_.BroadcastsInDim S32x64x64x1 (![] : Fin 0 → Fin S32x64x64x1.rank)
  concatenates_S32x64x64x256_S32x64x64x256_S32x64x64x2_S32x64x64x1_S32x64x64x1_S32x64x64x516_d3 : Shape.Concatenates [S32x64x64x256, S32x64x64x256, S32x64x64x2, S32x64x64x1, S32x64x64x1] S32x64x64x516 3
  bcast_S256_S1x1x1x256_3 : S256.BroadcastsInDim S1x1x1x256 (![3] : Fin 1 → Fin S1x1x1x256.rank)
  bcast_S1x1x1x256_S32x64x64x256_0_1_2_3 : S1x1x1x256.BroadcastsInDim S32x64x64x256 (![0, 1, 2, 3] : Fin 4 → Fin S32x64x64x256.rank)
  bcast_S_S32x64x64x256 : S_.BroadcastsInDim S32x64x64x256 (![] : Fin 0 → Fin S32x64x64x256.rank)
  bcast_S128_S1x1x1x128_3 : S128.BroadcastsInDim S1x1x1x128 (![3] : Fin 1 → Fin S1x1x1x128.rank)
  bcast_S1x1x1x128_S32x64x64x128_0_1_2_3 : S1x1x1x128.BroadcastsInDim S32x64x64x128 (![0, 1, 2, 3] : Fin 4 → Fin S32x64x64x128.rank)
  bcast_S32x64_S32x64x1_0_1 : S32x64.BroadcastsInDim S32x64x1 (![0, 1] : Fin 2 → Fin S32x64x1.rank)
  bcast_S32x64_S32x1x64_0_2 : S32x64.BroadcastsInDim S32x1x64 (![0, 2] : Fin 2 → Fin S32x1x64.rank)
  bcast_S32x64x1_S32x64x64_0_1_2 : S32x64x1.BroadcastsInDim S32x64x64 (![0, 1, 2] : Fin 3 → Fin S32x64x64.rank)
  bcast_S32x1x64_S32x64x64_0_1_2 : S32x1x64.BroadcastsInDim S32x64x64 (![0, 1, 2] : Fin 3 → Fin S32x64x64.rank)
  bcast_S32x64x64x1_S32x64x64x128_0_1_2_3 : S32x64x64x1.BroadcastsInDim S32x64x64x128 (![0, 1, 2, 3] : Fin 4 → Fin S32x64x64x128.rank)
  bcast_S8_S1x1x1x8_3 : S8.BroadcastsInDim S1x1x1x8 (![3] : Fin 1 → Fin S1x1x1x8.rank)
  bcast_S1x1x1x8_S32x64x64x8_0_1_2_3 : S1x1x1x8.BroadcastsInDim S32x64x64x8 (![0, 1, 2, 3] : Fin 4 → Fin S32x64x64x8.rank)
  bcast_S1_S1x1x1x1_3 : S1.BroadcastsInDim S1x1x1x1 (![3] : Fin 1 → Fin S1x1x1x1.rank)
  bcast_S1x1x1x1_S32x64x64x1_0_1_2_3 : S1x1x1x1.BroadcastsInDim S32x64x64x1 (![0, 1, 2, 3] : Fin 4 → Fin S32x64x64x1.rank)
  shapeCasts_S32x64x64x1_S32x64x64 : S32x64x64x1.ShapeCasts S32x64x64
  bcast_S_S32x64x64 : S_.BroadcastsInDim S32x64x64 (![] : Fin 0 → Fin S32x64x64.rank)
  dot_S32x64x64x516_S516x256_S32x64x64x256_3_0_012_1_n_n_wf : DotDims.WF S32x64x64x516 S516x256 S32x64x64x256 [3] [0] [0, 1, 2] [1] [] []
  dot_S32x64x64x256_S256x128_S32x64x64x128_3_0_012_1_n_n_wf : DotDims.WF S32x64x64x256 S256x128 S32x64x64x128 [3] [0] [0, 1, 2] [1] [] []
  dot_S32x64x64x128_S128x8_S32x64x64x8_3_0_012_1_n_n_wf : DotDims.WF S32x64x64x128 S128x8 S32x64x64x8 [3] [0] [0, 1, 2] [1] [] []
  dot_S32x64x64x128_S128x1_S32x64x64x1_3_0_012_1_n_n_wf : DotDims.WF S32x64x64x128 S128x1 S32x64x64x1 [3] [0] [0, 1, 2] [1] [] []

variable [Facts₀]

def dot_S32x64x64x516_S516x256_S32x64x64x256_3_0_012_1_n_n : DotDims S32x64x64x516 S516x256 S32x64x64x256 where
  lhsContracting := [3]
  rhsContracting := [0]
  lhsNonContracting := [0, 1, 2]
  rhsNonContracting := [1]
  lhsBatch := []
  rhsBatch := []
  wf := dot_S32x64x64x516_S516x256_S32x64x64x256_3_0_012_1_n_n_wf
def dot_S32x64x64x256_S256x128_S32x64x64x128_3_0_012_1_n_n : DotDims S32x64x64x256 S256x128 S32x64x64x128 where
  lhsContracting := [3]
  rhsContracting := [0]
  lhsNonContracting := [0, 1, 2]
  rhsNonContracting := [1]
  lhsBatch := []
  rhsBatch := []
  wf := dot_S32x64x64x256_S256x128_S32x64x64x128_3_0_012_1_n_n_wf
def dot_S32x64x64x128_S128x8_S32x64x64x8_3_0_012_1_n_n : DotDims S32x64x64x128 S128x8 S32x64x64x8 where
  lhsContracting := [3]
  rhsContracting := [0]
  lhsNonContracting := [0, 1, 2]
  rhsNonContracting := [1]
  lhsBatch := []
  rhsBatch := []
  wf := dot_S32x64x64x128_S128x8_S32x64x64x8_3_0_012_1_n_n_wf
def dot_S32x64x64x128_S128x1_S32x64x64x1_3_0_012_1_n_n : DotDims S32x64x64x128 S128x1 S32x64x64x1 where
  lhsContracting := [3]
  rhsContracting := [0]
  lhsNonContracting := [0, 1, 2]
  rhsNonContracting := [1]
  lhsBatch := []
  rhsBatch := []
  wf := dot_S32x64x64x128_S128x1_S32x64x64x1_3_0_012_1_n_n_wf

class Facts : Prop extends Facts₀ where

variable [Facts]
-- ==== Proof.KBEntry.lean ====
/-
  The program up to its one kernel region, for any float instance.

  Before the region @main computes four arrays from its arguments: the three row pieces of the first-layer weight
  matrix (rows 0–255, 256–511 and 512–515 of W1) and the mask with a trailing unit axis. `V` is what each buffer
  of a core holds when the region is entered; no argument array is written before the region, so each is found as
  launched. An input window's staging buffer holds, at every grid point, the block of its array the point's index
  map names — whether the pipeline fetched it at that point or kept it from the point before.
-/
import proofs.«103889_j65412351918170_1_alg».proof.Proof.Gen.Kernel.Launch
import proofs.«103889_j65412351918170_1_alg».proof.Proof.Gen.Kernel.Skeleton
import proofs.«103889_j65412351918170_1_alg».proof.Proof.Gen.Kernel.Points
import Idealize.ShloMosaic.Lib.Pipeline.FrameBody
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents after the four host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block at every point, fetched there or not, for any proof data whose
    array is the region-entry contents and whose body leaves the block in place: an unfetched window's index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

end Cert.Kernel.Frame

end
-- ==== Proof.KBBody.lean ====
/-
  The kernel body as one step: on whole staging buffers, the sixteen input buffers at any contents and the three output
  buffers at anything, it runs without a fault, leaves the inputs as they were and each output buffer holding the one
  block its store writes — the pair features, the interaction-type logits and the causal scores of the point's rows,
  each a pure function of the sixteen loaded blocks (the skeleton's payloads composed).
-/
import proofs.«103889_j65412351918170_1_alg».proof.Proof.KBEntry

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/
abbrev r0 : Rect S1x32x256 := Rect.unit (s := S1x32x256) ![0, 0, 0] S1x32x256.size inb_S1x32x256_S1x32x256_0_0_0
abbrev r1 : Rect S1x64x256 := Rect.unit (s := S1x64x256) ![0, 0, 0] S1x64x256.size inb_S1x64x256_S1x64x256_0_0_0
abbrev r2 : Rect S1x32x4 := Rect.unit (s := S1x32x4) ![0, 0, 0] S1x32x4.size inb_S1x32x4_S1x32x4_0_0_0
abbrev r3 : Rect S1x64x4 := Rect.unit (s := S1x64x4) ![0, 0, 0] S1x64x4.size inb_S1x64x4_S1x64x4_0_0_0
abbrev r4 : Rect S1x32x1 := Rect.unit (s := S1x32x1) ![0, 0, 0] S1x32x1.size inb_S1x32x1_S1x32x1_0_0_0
abbrev r5 : Rect S1x64x1 := Rect.unit (s := S1x64x1) ![0, 0, 0] S1x64x1.size inb_S1x64x1_S1x64x1_0_0_0
abbrev r6 : Rect S256x256 := Rect.unit (s := S256x256) ![0, 0] S256x256.size inb_S256x256_S256x256_0_0
abbrev r7 : Rect S256x256 := Rect.unit (s := S256x256) ![0, 0] S256x256.size inb_S256x256_S256x256_0_0
abbrev r8 : Rect S4x256 := Rect.unit (s := S4x256) ![0, 0] S4x256.size inb_S4x256_S4x256_0_0
abbrev r9 : Rect S256 := Rect.unit (s := S256) ![0] S256.size inb_S256_S256_0
abbrev r10 : Rect S256x128 := Rect.unit (s := S256x128) ![0, 0] S256x128.size inb_S256x128_S256x128_0_0
abbrev r11 : Rect S128 := Rect.unit (s := S128) ![0] S128.size inb_S128_S128_0
abbrev r12 : Rect S128x8 := Rect.unit (s := S128x8) ![0, 0] S128x8.size inb_S128x8_S128x8_0_0
abbrev r13 : Rect S8 := Rect.unit (s := S8) ![0] S8.size inb_S8_S8_0
abbrev r14 : Rect S128x1 := Rect.unit (s := S128x1) ![0, 0] S128x1.size inb_S128x1_S128x1_0_0
abbrev r15 : Rect S1 := Rect.unit (s := S1) ![0] S1.size inb_S1_S1_0
abbrev r16 : Rect S1x32x64x128 := Rect.unit (s := S1x32x64x128) ![0, 0, 0, 0] S1x32x64x128.size inb_S1x32x64x128_S1x32x64x128_0_0_0_0
abbrev r17 : Rect S1x32x64x8 := Rect.unit (s := S1x32x64x8) ![0, 0, 0, 0] S1x32x64x8.size inb_S1x32x64x8_S1x32x64x8_0_0_0_0
abbrev r18 : Rect S1x32x64 := Rect.unit (s := S1x32x64) ![0, 0, 0] S1x32x64.size inb_S1x32x64_S1x32x64_0_0_0

/-! ## What the body leaves in each output buffer -/

/-- The pair-feature block of the point, from the loaded input blocks. -/
def out16 (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) : Vec F S1x32x64x128 .f32 :=
  View.canon [⟨r16, k0_pay18 (k0_pay5 (View.ld x4 r4)) (k0_pay6 (View.ld x5 r5)) (k0_pay10 (View.ld x10 r10)) (View.ld x11 r11) (k0_pay13 (k0_pay1 (View.ld x0 r0)) (k0_pay2 (View.ld x1 r1)) (k0_pay3 (View.ld x2 r2)) (k0_pay4 (View.ld x3 r3)) (k0_pay7 (View.ld x6 r6)) (k0_pay8 (View.ld x7 r7)) (k0_pay9 (View.ld x8 r8)) (View.ld x9 r9)) (k0_pay14 (F := F))⟩]
/-- The interaction-type block. -/
def out17 (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) : Vec F S1x32x64x8 .f32 :=
  View.canon [⟨r17, k0_pay19 (k0_pay5 (View.ld x4 r4)) (k0_pay6 (View.ld x5 r5)) (k0_pay10 (View.ld x10 r10)) (View.ld x11 r11) (k0_pay11 (View.ld x12 r12)) (View.ld x13 r13) (k0_pay13 (k0_pay1 (View.ld x0 r0)) (k0_pay2 (View.ld x1 r1)) (k0_pay3 (View.ld x2 r2)) (k0_pay4 (View.ld x3 r3)) (k0_pay7 (View.ld x6 r6)) (k0_pay8 (View.ld x7 r7)) (k0_pay9 (View.ld x8 r8)) (View.ld x9 r9)) (k0_pay14 (F := F))⟩]
/-- The causal-score block. -/
def out18 (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) : Vec F S1x32x64 .f32 :=
  View.canon [⟨r18, k0_pay20 (k0_pay5 (View.ld x4 r4)) (k0_pay6 (View.ld x5 r5)) (k0_pay10 (View.ld x10 r10)) (View.ld x11 r11) (k0_pay12 (View.ld x14 r14)) (View.ld x15 r15) (k0_pay13 (k0_pay1 (View.ld x0 r0)) (k0_pay2 (View.ld x1 r1)) (k0_pay3 (View.ld x2 r2)) (k0_pay4 (View.ld x3 r3)) (k0_pay7 (View.ld x6 r6)) (k0_pay8 (View.ld x7 r7)) (k0_pay9 (View.ld x8 r8)) (View.ld x9 r9)) (k0_pay14 (F := F))⟩]

/-- Each store fills its whole buffer. -/
theorem cover16 (p0 : Vec F S1x32x64x128 .f32) (y : S1x32x64x128.Idx) :
    ∃ pc ∈ ([⟨r16, p0⟩] : List (View.Piece (Elt F) S1x32x64x128 .f32)), y ∈ pc.1.set :=
  View.cover_of_tiled [⟨r16, p0⟩] S1x32x64x128.size (by rfl) y
theorem cover17 (p0 : Vec F S1x32x64x8 .f32) (y : S1x32x64x8.Idx) :
    ∃ pc ∈ ([⟨r17, p0⟩] : List (View.Piece (Elt F) S1x32x64x8 .f32)), y ∈ pc.1.set :=
  View.cover_of_tiled [⟨r17, p0⟩] S1x32x64x8.size (by rfl) y
theorem cover18 (p0 : Vec F S1x32x64 .f32) (y : S1x32x64.Idx) :
    ∃ pc ∈ ([⟨r18, p0⟩] : List (View.Piece (Elt F) S1x32x64 .f32)), y ∈ pc.1.set :=
  View.cover_of_tiled [⟨r18, p0⟩] S1x32x64.size (by rfl) y

/-! ## The body's triple -/

set_option maxHeartbeats 4000000 in
theorem sound_kernel (c : Dev nD) (E : Set ℕ) (i : grid0.Coords) (arg2 : Memref sig .tc .vmem S1x32x256 .f32) (harg2 : arg2.IsWhole) (arg3 : Memref sig .tc .vmem S1x64x256 .f32) (harg3 : arg3.IsWhole) (arg4 : Memref sig .tc .vmem S1x32x4 .f32) (harg4 : arg4.IsWhole) (arg5 : Memref sig .tc .vmem S1x64x4 .f32) (harg5 : arg5.IsWhole) (arg6 : Memref sig .tc .vmem S1x32x1 .f32) (harg6 : arg6.IsWhole) (arg7 : Memref sig .tc .vmem S1x64x1 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4x256 .f32) (harg10 : arg10.IsWhole) (arg11 : Memref sig .tc .vmem S256 .f32) (harg11 : arg11.IsWhole) (arg12 : Memref sig .tc .vmem S256x128 .f32) (harg12 : arg12.IsWhole) (arg13 : Memref sig .tc .vmem S128 .f32) (harg13 : arg13.IsWhole) (arg14 : Memref sig .tc .vmem S128x8 .f32) (harg14 : arg14.IsWhole) (arg15 : Memref sig .tc .vmem S8 .f32) (harg15 : arg15.IsWhole) (arg16 : Memref sig .tc .vmem S128x1 .f32) (harg16 : arg16.IsWhole) (arg17 : Memref sig .tc .vmem S1 .f32) (harg17 : arg17.IsWhole) (arg18 : Memref sig .tc .vmem S1x32x64x128 .f32) (harg18 : arg18.IsWhole) (arg19 : Memref sig .tc .vmem S1x32x64x8 .f32) (harg19 : arg19.IsWhole) (arg20 : Memref sig .tc .vmem S1x32x64 .f32) (harg20 : arg20.IsWhole)
    (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out16 x0 x1 x2 x3 x4 x5 x6 x7 x8 x9 x10 x11 x12 x13 x14 x15) ∗ owns (c : Thread nD τ) arg19 fullShare (out17 x0 x1 x2 x3 x4 x5 x6 x7 x8 x9 x10 x11 x12 x13 x14 x15) ∗ owns (c : Thread nD τ) arg20 fullShare (out18 x0 x1 x2 x3 x4 x5 x6 x7 x8 x9 x10 x11 x12 x13 x14 x15)) -∗ K ⟨⟩))
      ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover16 _)
  isplitl [H17]
  · iexists _; isplitr
    swap; · iexact H17
    ipureintro
    exact View.read_writes_eq_canon _ _ _ (cover17 _)
  iexists _; isplitr
  swap; · iexact H18
  ipureintro
  exact View.read_writes_eq_canon _ _ _ (cover18 _)

end Cert.Kernel.Frame

end
-- ==== Proof.KBRun.lean ====
/-
  The proof data of the one kernel region, the body at every grid point, and the run.

  After the body at a point each input window's buffer holds its block and each output window's buffer the block the
  body computed from the sixteen input blocks of the point. Three arrays are read through two windows each (the slots,
  the positions and the mask: one window takes the 32 rows i of the point, the other all 64 rows j): each of those
  arrays is held in two halves, one per window; every other array is held whole. The body carries nothing from point
  to point and owes nothing.
-/
import proofs.«103889_j65412351918170_1_alg».proof.Proof.KBBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 19, h⟩ => absurd h (Nat.not_lt.2 (Nat.le_add_left _ _))
  Φ _ := iprop(emp)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨_ + 19, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.KBLaunch.lean ====
/-
  The launch of the one kernel region and the run of the whole program.

  At the region's entry a core holds each of its unscoped buffers whole. The sixteen buffers behind the nineteen windows
  are dealt to the windows: the slots, the positions and the mask, each read through two windows, are split into their
  two half shares; the others go to their one window whole. The two argument arrays no window reads (the mask and W1
  themselves: the kernel reads copies the host made of them) bypass the region. The run ends with every window's array
  at what the write-backs leave and the bypassing buffers as the region found them.
-/
import proofs.«103889_j65412351918170_1_alg».proof.Proof.KBRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The buffers behind the windows' arrays, each whole, are the windows' arrays at their shares. -/
theorem arrays_split (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  rw [bigSep_W0, BI.bigSep_eq_bigSepL_of_eq [main_arg0, main_arg1, main_v3, main_v0, main_v1, main_v2, main_arg4, main_arg5, main_arg6, main_arg7, main_arg8, main_arg9, main_arg10, main_v4_0, main_v4_1, main_v4_2] (by decide) (by decide)]
  have e0 : ((View.loc c.tc (cfg0.win 0).arr.view ↦[(cfg0.win 0).arr.view.set]{(dats m 0 c).share 0} (dats m 0 c).arrAt 0 0 : sProp 𝕄))
      = (c.tc.loc main_arg0 ↦{fullShare.left} V m c main_arg0) := by
    rw [(arr_whole0 0).set_eq_univ]; rfl
  have e1 : ((View.loc c.tc (cfg0.win 1).arr.view ↦[(cfg0.win 1).arr.view.set]{(dats m 0 c).share 1} (dats m 0 c).arrAt 1 0 : sProp 𝕄))
      = (c.tc.loc main_arg0 ↦{fullShare.right} V m c main_arg0) := by
    rw [(arr_whole0 1).set_eq_univ]; rfl
  have e2 : ((View.loc c.tc (cfg0.win 2).arr.view ↦[(cfg0.win 2).arr.view.set]{(dats m 0 c).share 2} (dats m 0 c).arrAt 2 0 : sProp 𝕄))
      = (c.tc.loc main_arg1 ↦{fullShare.left} V m c main_arg1) := by
    rw [(arr_whole0 2).set_eq_univ]; rfl
  have e3 : ((View.loc c.tc (cfg0.win 3).arr.view ↦[(cfg0.win 3).arr.view.set]{(dats m 0 c).share 3} (dats m 0 c).arrAt 3 0 : sProp 𝕄))
      = (c.tc.loc main_arg1 ↦{fullShare.right} V m c main_arg1) := by
    rw [(arr_whole0 3).set_eq_univ]; rfl
  have e4 : ((View.loc c.tc (cfg0.win 4).arr.view ↦[(cfg0.win 4).arr.view.set]{(dats m 0 c).share 4} (dats m 0 c).arrAt 4 0 : sProp 𝕄))
      = (c.tc.loc main_v3 ↦{fullShare.left} V m c main_v3) := by
    rw [(arr_whole0 4).set_eq_univ]; rfl
  have e5 : ((View.loc c.tc (cfg0.win 5).arr.view ↦[(cfg0.win 5).arr.view.set]{(dats m 0 c).share 5} (dats m 0 c).arrAt 5 0 : sProp 𝕄))
      = (c.tc.loc main_v3 ↦{fullShare.right} V m c main_v3) := by
    rw [(arr_whole0 5).set_eq_univ]; rfl
  have e6 : ((View.loc c.tc (cfg0.win 6).arr.view ↦[(cfg0.win 6).arr.view.set]{(dats m 0 c).share 6} (dats m 0 c).arrAt 6 0 : sProp 𝕄))
      = (c.tc.loc main_v0 ↦{fullShare} V m c main_v0) := by
    rw [(arr_whole0 6).set_eq_univ]; rfl
  have e7 : ((View.loc c.tc (cfg0.win 7).arr.view ↦[(cfg0.win 7).arr.view.set]{(dats m 0 c).share 7} (dats m 0 c).arrAt 7 0 : sProp 𝕄))
      = (c.tc.loc main_v1 ↦{fullShare} V m c main_v1) := by
    rw [(arr_whole0 7).set_eq_univ]; rfl
  have e8 : ((View.loc c.tc (cfg0.win 8).arr.view ↦[(cfg0.win 8).arr.view.set]{(dats m 0 c).share 8} (dats m 0 c).arrAt 8 0 : sProp 𝕄))
      = (c.tc.loc main_v2 ↦{fullShare} V m c main_v2) := by
    rw [(arr_whole0 8).set_eq_univ]; rfl
  have e9 : ((View.loc c.tc (cfg0.win 9).arr.view ↦[(cfg0.win 9).arr.view.set]{(dats m 0 c).share 9} (dats m 0 c).arrAt 9 0 : sProp 𝕄))
      = (c.tc.loc main_arg4 ↦{fullShare} V m c main_arg4) := by
    rw [(arr_whole0 9).set_eq_univ]; rfl
  have e10 : ((View.loc c.tc (cfg0.win 10).arr.view ↦[(cfg0.win 10).arr.view.set]{(dats m 0 c).share 10} (dats m 0 c).arrAt 10 0 : sProp 𝕄))
      = (c.tc.loc main_arg5 ↦{fullShare} V m c main_arg5) := by
    rw [(arr_whole0 10).set_eq_univ]; rfl
  have e11 : ((View.loc c.tc (cfg0.win 11).arr.view ↦[(cfg0.win 11).arr.view.set]{(dats m 0 c).share 11} (dats m 0 c).arrAt 11 0 : sProp 𝕄))
      = (c.tc.loc main_arg6 ↦{fullShare} V m c main_arg6) := by
    rw [(arr_whole0 11).set_eq_univ]; rfl
  have e12 : ((View.loc c.tc (cfg0.win 12).arr.view ↦[(cfg0.win 12).arr.view.set]{(dats m 0 c).share 12} (dats m 0 c).arrAt 12 0 : sProp 𝕄))
      = (c.tc.loc main_arg7 ↦{fullShare} V m c main_arg7) := by
    rw [(arr_whole0 12).set_eq_univ]; rfl
  have e13 : ((View.loc c.tc (cfg0.win 13).arr.view ↦[(cfg0.win 13).arr.view.set]{(dats m 0 c).share 13} (dats m 0 c).arrAt 13 0 : sProp 𝕄))
      = (c.tc.loc main_arg8 ↦{fullShare} V m c main_arg8) := by
    rw [(arr_whole0 13).set_eq_univ]; rfl
  have e14 : ((View.loc c.tc (cfg0.win 14).arr.view ↦[(cfg0.win 14).arr.view.set]{(dats m 0 c).share 14} (dats m 0 c).arrAt 14 0 : sProp 𝕄))
      = (c.tc.loc main_arg9 ↦{fullShare} V m c main_arg9) := by
    rw [(arr_whole0 14).set_eq_univ]; rfl
  have e15 : ((View.loc c.tc (cfg0.win 15).arr.view ↦[(cfg0.win 15).arr.view.set]{(dats m 0 c).share 15} (dats m 0 c).arrAt 15 0 : sProp 𝕄))
      = (c.tc.loc main_arg10 ↦{fullShare} V m c main_arg10) := by
    rw [(arr_whole0 15).set_eq_univ]; rfl
  have e16 : ((View.loc c.tc (cfg0.win 16).arr.view ↦[(cfg0.win 16).arr.view.set]{(dats m 0 c).share 16} (dats m 0 c).arrAt 16 0 : sProp 𝕄))
      = (c.tc.loc main_v4_0 ↦{fullShare} V m c main_v4_0) := by
    rw [(arr_whole0 16).set_eq_univ]; rfl
  have e17 : ((View.loc c.tc (cfg0.win 17).arr.view ↦[(cfg0.win 17).arr.view.set]{(dats m 0 c).share 17} (dats m 0 c).arrAt 17 0 : sProp 𝕄))
      = (c.tc.loc main_v4_1 ↦{fullShare} V m c main_v4_1) := by
    rw [(arr_whole0 17).set_eq_univ]; rfl
  have e18 : ((View.loc c.tc (cfg0.win 18).arr.view ↦[(cfg0.win 18).arr.view.set]{(dats m 0 c).share 18} (dats m 0 c).arrAt 18 0 : sProp 𝕄))
      = (c.tc.loc main_v4_2 ↦{fullShare} V m c main_v4_2) := by
    rw [(arr_whole0 18).set_eq_univ]; rfl
  beta_reduce
  rw [e0, e1, e2, e3, e4, e5, e6, e7, e8, e9, e10, e11, e12, e13, e14, e15, e16, e17, e18]
  show iprop((c.tc.loc main_arg0 ↦{fullShare} V m c main_arg0) ∗ (c.tc.loc main_arg1 ↦{fullShare} V m c main_arg1) ∗ (c.tc.loc main_v3 ↦{fullShare} V m c main_v3) ∗ (c.tc.loc main_v0 ↦{fullShare} V m c main_v0) ∗ (c.tc.loc main_v1 ↦{fullShare} V m c main_v1) ∗ (c.tc.loc main_v2 ↦{fullShare} V m c main_v2) ∗ (c.tc.loc main_arg4 ↦{fullShare} V m c main_arg4) ∗ (c.tc.loc main_arg5 ↦{fullShare} V m c main_arg5) ∗ (c.tc.loc main_arg6 ↦{fullShare} V m c main_arg6) ∗ (c.tc.loc main_arg7 ↦{fullShare} V m c main_arg7) ∗ (c.tc.loc main_arg8 ↦{fullShare} V m c main_arg8) ∗ (c.tc.loc main_arg9 ↦{fullShare} V m c main_arg9) ∗ (c.tc.loc main_arg10 ↦{fullShare} V m c main_arg10) ∗ (c.tc.loc main_v4_0 ↦{fullShare} V m c main_v4_0) ∗ (c.tc.loc main_v4_1 ↦{fullShare} V m c main_v4_1) ∗ (c.tc.loc main_v4_2 ↦{fullShare} V m c main_v4_2)) ⊢ _
  iintro ⟨H_main_arg0, H_main_arg1, H_main_v3, H_main_v0, H_main_v1, H_main_v2, H_main_arg4, H_main_arg5, H_main_arg6, H_main_arg7, H_main_arg8, H_main_arg9, H_main_arg10, H_main_v4_0, H_main_v4_1, H_main_v4_2⟩
  ihave Hs0 := (pointsTo_share (PosShare.mem_left_op_right fullShare)).1 $$ H_main_arg0
  icases Hs0 with ⟨Hs0l, Hs0r⟩
  ihave Hs1 := (pointsTo_share (PosShare.mem_left_op_right fullShare)).1 $$ H_main_arg1
  icases Hs1 with ⟨Hs1l, Hs1r⟩
  ihave Hs2 := (pointsTo_share (PosShare.mem_left_op_right fullShare)).1 $$ H_main_v3
  icases Hs2 with ⟨Hs2l, Hs2r⟩
  isplitl [Hs0l]; · iexact Hs0l
  isplitl [Hs0r]; · iexact Hs0r
  isplitl [Hs1l]; · iexact Hs1l
  isplitl [Hs1r]; · iexact Hs1r
  isplitl [Hs2l]; · iexact Hs2l
  isplitl [Hs2r]; · iexact Hs2r
  isplitl [H_main_v0]; · iexact H_main_v0
  isplitl [H_main_v1]; · iexact H_main_v1
  isplitl [H_main_v2]; · iexact H_main_v2
  isplitl [H_main_arg4]; · iexact H_main_arg4
  isplitl [H_main_arg5]; · iexact H_main_arg5
  isplitl [H_main_arg6]; · iexact H_main_arg6
  isplitl [H_main_arg7]; · iexact H_main_arg7
  isplitl [H_main_arg8]; · iexact H_main_arg8
  isplitl [H_main_arg9]; · iexact H_main_arg9
  isplitl [H_main_arg10]; · iexact H_main_arg10
  isplitl [H_main_v4_0]; · iexact H_main_v4_0
  isplitl [H_main_v4_1]; · iexact H_main_v4_1
  iexact H_main_v4_2

/-- The launch element of the pipeline's staging cells. -/
def u₀ : UR sig nD τ := initOf (Pipeline.cells cfgs cellOf_inj) (Pipeline.launchToks cfgs cellOf_inj)

abbrev EP : Emb (UR sig nD τ) (MT nD τ sig Unit (Elt F) ℕ (UR sig nD τ) ℕ) := emb₁

set_option backward.isDefEq.respectTransparency.types false in
/-- Every weakly fair execution of @main terminates without a fault; at the end every window's array holds what the
    write-backs leave and the two bypassing buffers what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The argument arrays end unchanged: an array a window reads is never written, and the two no window reads bypass
    the region; none is written by the host operations before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 9).trans (((dats m 0 c).arrAt_in 9 rfl _).trans ((A_eq m c 9).trans (V_main_arg4 m c))),
      ((h c).1 10).trans (((dats m 0 c).arrAt_in 10 rfl _).trans ((A_eq m c 10).trans (V_main_arg5 m c))),
      ((h c).1 11).trans (((dats m 0 c).arrAt_in 11 rfl _).trans ((A_eq m c 11).trans (V_main_arg6 m c))),
      ((h c).1 12).trans (((dats m 0 c).arrAt_in 12 rfl _).trans ((A_eq m c 12).trans (V_main_arg7 m c))),
      ((h c).1 13).trans (((dats m 0 c).arrAt_in 13 rfl _).trans ((A_eq m c 13).trans (V_main_arg8 m c))),
      ((h c).1 14).trans (((dats m 0 c).arrAt_in 14 rfl _).trans ((A_eq m c 14).trans (V_main_arg9 m c))),
      ((h c).1 15).trans (((dats m 0 c).arrAt_in 15 rfl _).trans ((A_eq m c 15).trans (V_main_arg10 m c)))⟩) (run_main m ρ)

end Cert.Kernel.Frame

end
-- ==== Proof.KIEntry.lean ====
/-
  The program up to its one kernel region, for any float instance.

  Before the region @main computes four arrays from its arguments: the three row pieces of the first-layer weight
  matrix (rows 0–255, 256–511 and 512–515 of W1) and the mask with a trailing unit axis. `V` is what each buffer
  of a core holds when the region is entered; no argument array is written before the region, so each is found as
  launched. An input window's staging buffer holds, at every grid point, the block of its array the point's index
  map names — whether the pipeline fetched it at that point or kept it from the point before.
-/
import proofs.«103889_j65412351918170_1_alg».proof.Proof.Gen.KernelIdeal.Launch
import proofs.«103889_j65412351918170_1_alg».proof.Proof.Gen.KernelIdeal.Skeleton
import proofs.«103889_j65412351918170_1_alg».proof.Proof.Gen.KernelIdeal.Points
import Idealize.ShloMosaic.Lib.Pipeline.FrameBody
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents after the four host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block at every point, fetched there or not, for any proof data whose
    array is the region-entry contents and whose body leaves the block in place: an unfetched window's index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Frame

end
-- ==== Proof.KIBody.lean ====
/-
  The kernel body as one step: on whole staging buffers, the sixteen input buffers at any contents and the three output
  buffers at anything, it runs without a fault, leaves the inputs as they were and each output buffer holding the one
  block its store writes — the pair features, the interaction-type logits and the causal scores of the point's rows,
  each a pure function of the sixteen loaded blocks (the skeleton's payloads composed).
-/
import proofs.«103889_j65412351918170_1_alg».proof.Proof.KIEntry

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/
abbrev r0 : Rect S1x32x256 := Rect.unit (s := S1x32x256) ![0, 0, 0] S1x32x256.size inb_S1x32x256_S1x32x256_0_0_0
abbrev r1 : Rect S1x64x256 := Rect.unit (s := S1x64x256) ![0, 0, 0] S1x64x256.size inb_S1x64x256_S1x64x256_0_0_0
abbrev r2 : Rect S1x32x4 := Rect.unit (s := S1x32x4) ![0, 0, 0] S1x32x4.size inb_S1x32x4_S1x32x4_0_0_0
abbrev r3 : Rect S1x64x4 := Rect.unit (s := S1x64x4) ![0, 0, 0] S1x64x4.size inb_S1x64x4_S1x64x4_0_0_0
abbrev r4 : Rect S1x32x1 := Rect.unit (s := S1x32x1) ![0, 0, 0] S1x32x1.size inb_S1x32x1_S1x32x1_0_0_0
abbrev r5 : Rect S1x64x1 := Rect.unit (s := S1x64x1) ![0, 0, 0] S1x64x1.size inb_S1x64x1_S1x64x1_0_0_0
abbrev r6 : Rect S256x256 := Rect.unit (s := S256x256) ![0, 0] S256x256.size inb_S256x256_S256x256_0_0
abbrev r7 : Rect S256x256 := Rect.unit (s := S256x256) ![0, 0] S256x256.size inb_S256x256_S256x256_0_0
abbrev r8 : Rect S4x256 := Rect.unit (s := S4x256) ![0, 0] S4x256.size inb_S4x256_S4x256_0_0
abbrev r9 : Rect S256 := Rect.unit (s := S256) ![0] S256.size inb_S256_S256_0
abbrev r10 : Rect S256x128 := Rect.unit (s := S256x128) ![0, 0] S256x128.size inb_S256x128_S256x128_0_0
abbrev r11 : Rect S128 := Rect.unit (s := S128) ![0] S128.size inb_S128_S128_0
abbrev r12 : Rect S128x8 := Rect.unit (s := S128x8) ![0, 0] S128x8.size inb_S128x8_S128x8_0_0
abbrev r13 : Rect S8 := Rect.unit (s := S8) ![0] S8.size inb_S8_S8_0
abbrev r14 : Rect S128x1 := Rect.unit (s := S128x1) ![0, 0] S128x1.size inb_S128x1_S128x1_0_0
abbrev r15 : Rect S1 := Rect.unit (s := S1) ![0] S1.size inb_S1_S1_0
abbrev r16 : Rect S1x32x64x128 := Rect.unit (s := S1x32x64x128) ![0, 0, 0, 0] S1x32x64x128.size inb_S1x32x64x128_S1x32x64x128_0_0_0_0
abbrev r17 : Rect S1x32x64x8 := Rect.unit (s := S1x32x64x8) ![0, 0, 0, 0] S1x32x64x8.size inb_S1x32x64x8_S1x32x64x8_0_0_0_0
abbrev r18 : Rect S1x32x64 := Rect.unit (s := S1x32x64) ![0, 0, 0] S1x32x64.size inb_S1x32x64_S1x32x64_0_0_0

/-! ## What the body leaves in each output buffer -/

/-- The pair-feature block of the point, from the loaded input blocks. -/
def out16 (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) : Vec F S1x32x64x128 .f32 :=
  View.canon [⟨r16, k0_pay18 (k0_pay5 (View.ld x4 r4)) (k0_pay6 (View.ld x5 r5)) (k0_pay10 (View.ld x10 r10)) (View.ld x11 r11) (k0_pay13 (k0_pay1 (View.ld x0 r0)) (k0_pay2 (View.ld x1 r1)) (k0_pay3 (View.ld x2 r2)) (k0_pay4 (View.ld x3 r3)) (k0_pay7 (View.ld x6 r6)) (k0_pay8 (View.ld x7 r7)) (k0_pay9 (View.ld x8 r8)) (View.ld x9 r9)) (k0_pay14 (F := F))⟩]
/-- The interaction-type block. -/
def out17 (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) : Vec F S1x32x64x8 .f32 :=
  View.canon [⟨r17, k0_pay19 (k0_pay5 (View.ld x4 r4)) (k0_pay6 (View.ld x5 r5)) (k0_pay10 (View.ld x10 r10)) (View.ld x11 r11) (k0_pay11 (View.ld x12 r12)) (View.ld x13 r13) (k0_pay13 (k0_pay1 (View.ld x0 r0)) (k0_pay2 (View.ld x1 r1)) (k0_pay3 (View.ld x2 r2)) (k0_pay4 (View.ld x3 r3)) (k0_pay7 (View.ld x6 r6)) (k0_pay8 (View.ld x7 r7)) (k0_pay9 (View.ld x8 r8)) (View.ld x9 r9)) (k0_pay14 (F := F))⟩]
/-- The causal-score block. -/
def out18 (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) : Vec F S1x32x64 .f32 :=
  View.canon [⟨r18, k0_pay20 (k0_pay5 (View.ld x4 r4)) (k0_pay6 (View.ld x5 r5)) (k0_pay10 (View.ld x10 r10)) (View.ld x11 r11) (k0_pay12 (View.ld x14 r14)) (View.ld x15 r15) (k0_pay13 (k0_pay1 (View.ld x0 r0)) (k0_pay2 (View.ld x1 r1)) (k0_pay3 (View.ld x2 r2)) (k0_pay4 (View.ld x3 r3)) (k0_pay7 (View.ld x6 r6)) (k0_pay8 (View.ld x7 r7)) (k0_pay9 (View.ld x8 r8)) (View.ld x9 r9)) (k0_pay14 (F := F))⟩]

/-- Each store fills its whole buffer. -/
theorem cover16 (p0 : Vec F S1x32x64x128 .f32) (y : S1x32x64x128.Idx) :
    ∃ pc ∈ ([⟨r16, p0⟩] : List (View.Piece (Elt F) S1x32x64x128 .f32)), y ∈ pc.1.set :=
  View.cover_of_tiled [⟨r16, p0⟩] S1x32x64x128.size (by rfl) y
theorem cover17 (p0 : Vec F S1x32x64x8 .f32) (y : S1x32x64x8.Idx) :
    ∃ pc ∈ ([⟨r17, p0⟩] : List (View.Piece (Elt F) S1x32x64x8 .f32)), y ∈ pc.1.set :=
  View.cover_of_tiled [⟨r17, p0⟩] S1x32x64x8.size (by rfl) y
theorem cover18 (p0 : Vec F S1x32x64 .f32) (y : S1x32x64.Idx) :
    ∃ pc ∈ ([⟨r18, p0⟩] : List (View.Piece (Elt F) S1x32x64 .f32)), y ∈ pc.1.set :=
  View.cover_of_tiled [⟨r18, p0⟩] S1x32x64.size (by rfl) y

/-! ## The body's triple -/

set_option maxHeartbeats 4000000 in
theorem sound_kernel (c : Dev nD) (E : Set ℕ) (i : grid0.Coords) (arg2 : Memref sig .tc .vmem S1x32x256 .f32) (harg2 : arg2.IsWhole) (arg3 : Memref sig .tc .vmem S1x64x256 .f32) (harg3 : arg3.IsWhole) (arg4 : Memref sig .tc .vmem S1x32x4 .f32) (harg4 : arg4.IsWhole) (arg5 : Memref sig .tc .vmem S1x64x4 .f32) (harg5 : arg5.IsWhole) (arg6 : Memref sig .tc .vmem S1x32x1 .f32) (harg6 : arg6.IsWhole) (arg7 : Memref sig .tc .vmem S1x64x1 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4x256 .f32) (harg10 : arg10.IsWhole) (arg11 : Memref sig .tc .vmem S256 .f32) (harg11 : arg11.IsWhole) (arg12 : Memref sig .tc .vmem S256x128 .f32) (harg12 : arg12.IsWhole) (arg13 : Memref sig .tc .vmem S128 .f32) (harg13 : arg13.IsWhole) (arg14 : Memref sig .tc .vmem S128x8 .f32) (harg14 : arg14.IsWhole) (arg15 : Memref sig .tc .vmem S8 .f32) (harg15 : arg15.IsWhole) (arg16 : Memref sig .tc .vmem S128x1 .f32) (harg16 : arg16.IsWhole) (arg17 : Memref sig .tc .vmem S1 .f32) (harg17 : arg17.IsWhole) (arg18 : Memref sig .tc .vmem S1x32x64x128 .f32) (harg18 : arg18.IsWhole) (arg19 : Memref sig .tc .vmem S1x32x64x8 .f32) (harg19 : arg19.IsWhole) (arg20 : Memref sig .tc .vmem S1x32x64 .f32) (harg20 : arg20.IsWhole)
    (x0 : Vec F S1x32x256 .f32) (x1 : Vec F S1x64x256 .f32) (x2 : Vec F S1x32x4 .f32) (x3 : Vec F S1x64x4 .f32) (x4 : Vec F S1x32x1 .f32) (x5 : Vec F S1x64x1 .f32) (x6 : Vec F S256x256 .f32) (x7 : Vec F S256x256 .f32) (x8 : Vec F S4x256 .f32) (x9 : Vec F S256 .f32) (x10 : Vec F S256x128 .f32) (x11 : Vec F S128 .f32) (x12 : Vec F S128x8 .f32) (x13 : Vec F S8 .f32) (x14 : Vec F S128x1 .f32) (x15 : Vec F S1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out16 x0 x1 x2 x3 x4 x5 x6 x7 x8 x9 x10 x11 x12 x13 x14 x15) ∗ owns (c : Thread nD τ) arg19 fullShare (out17 x0 x1 x2 x3 x4 x5 x6 x7 x8 x9 x10 x11 x12 x13 x14 x15) ∗ owns (c : Thread nD τ) arg20 fullShare (out18 x0 x1 x2 x3 x4 x5 x6 x7 x8 x9 x10 x11 x12 x13 x14 x15)) -∗ K ⟨⟩))
      ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover16 _)
  isplitl [H17]
  · iexists _; isplitr
    swap; · iexact H17
    ipureintro
    exact View.read_writes_eq_canon _ _ _ (cover17 _)
  iexists _; isplitr
  swap; · iexact H18
  ipureintro
  exact View.read_writes_eq_canon _ _ _ (cover18 _)

end Cert.KernelIdeal.Frame

end
-- ==== Proof.KIRun.lean ====
/-
  The proof data of the one kernel region, the body at every grid point, and the run.

  After the body at a point each input window's buffer holds its block and each output window's buffer the block the
  body computed from the sixteen input blocks of the point. Three arrays are read through two windows each (the slots,
  the positions and the mask: one window takes the 32 rows i of the point, the other all 64 rows j): each of those
  arrays is held in two halves, one per window; every other array is held whole. The body carries nothing from point
  to point and owes nothing.
-/
import proofs.«103889_j65412351918170_1_alg».proof.Proof.KIBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 19, h⟩ => absurd h (Nat.not_lt.2 (Nat.le_add_left _ _))
  Φ _ := iprop(emp)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨_ + 19, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KILaunch.lean ====
/-
  The launch of the one kernel region and the run of the whole program.

  At the region's entry a core holds each of its unscoped buffers whole. The sixteen buffers behind the nineteen windows
  are dealt to the windows: the slots, the positions and the mask, each read through two windows, are split into their
  two half shares; the others go to their one window whole. The two argument arrays no window reads (the mask and W1
  themselves: the kernel reads copies the host made of them) bypass the region. The run ends with every window's array
  at what the write-backs leave and the bypassing buffers as the region found them.
-/
import proofs.«103889_j65412351918170_1_alg».proof.Proof.KIRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The buffers behind the windows' arrays, each whole, are the windows' arrays at their shares. -/
theorem arrays_split (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  rw [bigSep_W0, BI.bigSep_eq_bigSepL_of_eq [main_arg0, main_arg1, main_v3, main_v0, main_v1, main_v2, main_arg4, main_arg5, main_arg6, main_arg7, main_arg8, main_arg9, main_arg10, main_v4_0, main_v4_1, main_v4_2] (by decide) (by decide)]
  have e0 : ((View.loc c.tc (cfg0.win 0).arr.view ↦[(cfg0.win 0).arr.view.set]{(dats m 0 c).share 0} (dats m 0 c).arrAt 0 0 : sProp 𝕄))
      = (c.tc.loc main_arg0 ↦{fullShare.left} V m c main_arg0) := by
    rw [(arr_whole0 0).set_eq_univ]; rfl
  have e1 : ((View.loc c.tc (cfg0.win 1).arr.view ↦[(cfg0.win 1).arr.view.set]{(dats m 0 c).share 1} (dats m 0 c).arrAt 1 0 : sProp 𝕄))
      = (c.tc.loc main_arg0 ↦{fullShare.right} V m c main_arg0) := by
    rw [(arr_whole0 1).set_eq_univ]; rfl
  have e2 : ((View.loc c.tc (cfg0.win 2).arr.view ↦[(cfg0.win 2).arr.view.set]{(dats m 0 c).share 2} (dats m 0 c).arrAt 2 0 : sProp 𝕄))
      = (c.tc.loc main_arg1 ↦{fullShare.left} V m c main_arg1) := by
    rw [(arr_whole0 2).set_eq_univ]; rfl
  have e3 : ((View.loc c.tc (cfg0.win 3).arr.view ↦[(cfg0.win 3).arr.view.set]{(dats m 0 c).share 3} (dats m 0 c).arrAt 3 0 : sProp 𝕄))
      = (c.tc.loc main_arg1 ↦{fullShare.right} V m c main_arg1) := by
    rw [(arr_whole0 3).set_eq_univ]; rfl
  have e4 : ((View.loc c.tc (cfg0.win 4).arr.view ↦[(cfg0.win 4).arr.view.set]{(dats m 0 c).share 4} (dats m 0 c).arrAt 4 0 : sProp 𝕄))
      = (c.tc.loc main_v3 ↦{fullShare.left} V m c main_v3) := by
    rw [(arr_whole0 4).set_eq_univ]; rfl
  have e5 : ((View.loc c.tc (cfg0.win 5).arr.view ↦[(cfg0.win 5).arr.view.set]{(dats m 0 c).share 5} (dats m 0 c).arrAt 5 0 : sProp 𝕄))
      = (c.tc.loc main_v3 ↦{fullShare.right} V m c main_v3) := by
    rw [(arr_whole0 5).set_eq_univ]; rfl
  have e6 : ((View.loc c.tc (cfg0.win 6).arr.view ↦[(cfg0.win 6).arr.view.set]{(dats m 0 c).share 6} (dats m 0 c).arrAt 6 0 : sProp 𝕄))
      = (c.tc.loc main_v0 ↦{fullShare} V m c main_v0) := by
    rw [(arr_whole0 6).set_eq_univ]; rfl
  have e7 : ((View.loc c.tc (cfg0.win 7).arr.view ↦[(cfg0.win 7).arr.view.set]{(dats m 0 c).share 7} (dats m 0 c).arrAt 7 0 : sProp 𝕄))
      = (c.tc.loc main_v1 ↦{fullShare} V m c main_v1) := by
    rw [(arr_whole0 7).set_eq_univ]; rfl
  have e8 : ((View.loc c.tc (cfg0.win 8).arr.view ↦[(cfg0.win 8).arr.view.set]{(dats m 0 c).share 8} (dats m 0 c).arrAt 8 0 : sProp 𝕄))
      = (c.tc.loc main_v2 ↦{fullShare} V m c main_v2) := by
    rw [(arr_whole0 8).set_eq_univ]; rfl
  have e9 : ((View.loc c.tc (cfg0.win 9).arr.view ↦[(cfg0.win 9).arr.view.set]{(dats m 0 c).share 9} (dats m 0 c).arrAt 9 0 : sProp 𝕄))
      = (c.tc.loc main_arg4 ↦{fullShare} V m c main_arg4) := by
    rw [(arr_whole0 9).set_eq_univ]; rfl
  have e10 : ((View.loc c.tc (cfg0.win 10).arr.view ↦[(cfg0.win 10).arr.view.set]{(dats m 0 c).share 10} (dats m 0 c).arrAt 10 0 : sProp 𝕄))
      = (c.tc.loc main_arg5 ↦{fullShare} V m c main_arg5) := by
    rw [(arr_whole0 10).set_eq_univ]; rfl
  have e11 : ((View.loc c.tc (cfg0.win 11).arr.view ↦[(cfg0.win 11).arr.view.set]{(dats m 0 c).share 11} (dats m 0 c).arrAt 11 0 : sProp 𝕄))
      = (c.tc.loc main_arg6 ↦{fullShare} V m c main_arg6) := by
    rw [(arr_whole0 11).set_eq_univ]; rfl
  have e12 : ((View.loc c.tc (cfg0.win 12).arr.view ↦[(cfg0.win 12).arr.view.set]{(dats m 0 c).share 12} (dats m 0 c).arrAt 12 0 : sProp 𝕄))
      = (c.tc.loc main_arg7 ↦{fullShare} V m c main_arg7) := by
    rw [(arr_whole0 12).set_eq_univ]; rfl
  have e13 : ((View.loc c.tc (cfg0.win 13).arr.view ↦[(cfg0.win 13).arr.view.set]{(dats m 0 c).share 13} (dats m 0 c).arrAt 13 0 : sProp 𝕄))
      = (c.tc.loc main_arg8 ↦{fullShare} V m c main_arg8) := by
    rw [(arr_whole0 13).set_eq_univ]; rfl
  have e14 : ((View.loc c.tc (cfg0.win 14).arr.view ↦[(cfg0.win 14).arr.view.set]{(dats m 0 c).share 14} (dats m 0 c).arrAt 14 0 : sProp 𝕄))
      = (c.tc.loc main_arg9 ↦{fullShare} V m c main_arg9) := by
    rw [(arr_whole0 14).set_eq_univ]; rfl
  have e15 : ((View.loc c.tc (cfg0.win 15).arr.view ↦[(cfg0.win 15).arr.view.set]{(dats m 0 c).share 15} (dats m 0 c).arrAt 15 0 : sProp 𝕄))
      = (c.tc.loc main_arg10 ↦{fullShare} V m c main_arg10) := by
    rw [(arr_whole0 15).set_eq_univ]; rfl
  have e16 : ((View.loc c.tc (cfg0.win 16).arr.view ↦[(cfg0.win 16).arr.view.set]{(dats m 0 c).share 16} (dats m 0 c).arrAt 16 0 : sProp 𝕄))
      = (c.tc.loc main_v4_0 ↦{fullShare} V m c main_v4_0) := by
    rw [(arr_whole0 16).set_eq_univ]; rfl
  have e17 : ((View.loc c.tc (cfg0.win 17).arr.view ↦[(cfg0.win 17).arr.view.set]{(dats m 0 c).share 17} (dats m 0 c).arrAt 17 0 : sProp 𝕄))
      = (c.tc.loc main_v4_1 ↦{fullShare} V m c main_v4_1) := by
    rw [(arr_whole0 17).set_eq_univ]; rfl
  have e18 : ((View.loc c.tc (cfg0.win 18).arr.view ↦[(cfg0.win 18).arr.view.set]{(dats m 0 c).share 18} (dats m 0 c).arrAt 18 0 : sProp 𝕄))
      = (c.tc.loc main_v4_2 ↦{fullShare} V m c main_v4_2) := by
    rw [(arr_whole0 18).set_eq_univ]; rfl
  beta_reduce
  rw [e0, e1, e2, e3, e4, e5, e6, e7, e8, e9, e10, e11, e12, e13, e14, e15, e16, e17, e18]
  show iprop((c.tc.loc main_arg0 ↦{fullShare} V m c main_arg0) ∗ (c.tc.loc main_arg1 ↦{fullShare} V m c main_arg1) ∗ (c.tc.loc main_v3 ↦{fullShare} V m c main_v3) ∗ (c.tc.loc main_v0 ↦{fullShare} V m c main_v0) ∗ (c.tc.loc main_v1 ↦{fullShare} V m c main_v1) ∗ (c.tc.loc main_v2 ↦{fullShare} V m c main_v2) ∗ (c.tc.loc main_arg4 ↦{fullShare} V m c main_arg4) ∗ (c.tc.loc main_arg5 ↦{fullShare} V m c main_arg5) ∗ (c.tc.loc main_arg6 ↦{fullShare} V m c main_arg6) ∗ (c.tc.loc main_arg7 ↦{fullShare} V m c main_arg7) ∗ (c.tc.loc main_arg8 ↦{fullShare} V m c main_arg8) ∗ (c.tc.loc main_arg9 ↦{fullShare} V m c main_arg9) ∗ (c.tc.loc main_arg10 ↦{fullShare} V m c main_arg10) ∗ (c.tc.loc main_v4_0 ↦{fullShare} V m c main_v4_0) ∗ (c.tc.loc main_v4_1 ↦{fullShare} V m c main_v4_1) ∗ (c.tc.loc main_v4_2 ↦{fullShare} V m c main_v4_2)) ⊢ _
  iintro ⟨H_main_arg0, H_main_arg1, H_main_v3, H_main_v0, H_main_v1, H_main_v2, H_main_arg4, H_main_arg5, H_main_arg6, H_main_arg7, H_main_arg8, H_main_arg9, H_main_arg10, H_main_v4_0, H_main_v4_1, H_main_v4_2⟩
  ihave Hs0 := (pointsTo_share (PosShare.mem_left_op_right fullShare)).1 $$ H_main_arg0
  icases Hs0 with ⟨Hs0l, Hs0r⟩
  ihave Hs1 := (pointsTo_share (PosShare.mem_left_op_right fullShare)).1 $$ H_main_arg1
  icases Hs1 with ⟨Hs1l, Hs1r⟩
  ihave Hs2 := (pointsTo_share (PosShare.mem_left_op_right fullShare)).1 $$ H_main_v3
  icases Hs2 with ⟨Hs2l, Hs2r⟩
  isplitl [Hs0l]; · iexact Hs0l
  isplitl [Hs0r]; · iexact Hs0r
  isplitl [Hs1l]; · iexact Hs1l
  isplitl [Hs1r]; · iexact Hs1r
  isplitl [Hs2l]; · iexact Hs2l
  isplitl [Hs2r]; · iexact Hs2r
  isplitl [H_main_v0]; · iexact H_main_v0
  isplitl [H_main_v1]; · iexact H_main_v1
  isplitl [H_main_v2]; · iexact H_main_v2
  isplitl [H_main_arg4]; · iexact H_main_arg4
  isplitl [H_main_arg5]; · iexact H_main_arg5
  isplitl [H_main_arg6]; · iexact H_main_arg6
  isplitl [H_main_arg7]; · iexact H_main_arg7
  isplitl [H_main_arg8]; · iexact H_main_arg8
  isplitl [H_main_arg9]; · iexact H_main_arg9
  isplitl [H_main_arg10]; · iexact H_main_arg10
  isplitl [H_main_v4_0]; · iexact H_main_v4_0
  isplitl [H_main_v4_1]; · iexact H_main_v4_1
  iexact H_main_v4_2

/-- The launch element of the pipeline's staging cells. -/
def u₀ : UR sig nD τ := initOf (Pipeline.cells cfgs cellOf_inj) (Pipeline.launchToks cfgs cellOf_inj)

abbrev EP : Emb (UR sig nD τ) (MT nD τ sig Unit (Elt F) ℕ (UR sig nD τ) ℕ) := emb₁

set_option backward.isDefEq.respectTransparency.types false in
/-- Every weakly fair execution of @main terminates without a fault; at the end every window's array holds what the
    write-backs leave and the two bypassing buffers what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The argument arrays end unchanged: an array a window reads is never written, and the two no window reads bypass
    the region; none is written by the host operations before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 9).trans (((dats m 0 c).arrAt_in 9 rfl _).trans ((A_eq m c 9).trans (V_main_arg4 m c))),
      ((h c).1 10).trans (((dats m 0 c).arrAt_in 10 rfl _).trans ((A_eq m c 10).trans (V_main_arg5 m c))),
      ((h c).1 11).trans (((dats m 0 c).arrAt_in 11 rfl _).trans ((A_eq m c 11).trans (V_main_arg6 m c))),
      ((h c).1 12).trans (((dats m 0 c).arrAt_in 12 rfl _).trans ((A_eq m c 12).trans (V_main_arg7 m c))),
      ((h c).1 13).trans (((dats m 0 c).arrAt_in 13 rfl _).trans ((A_eq m c 13).trans (V_main_arg8 m c))),
      ((h c).1 14).trans (((dats m 0 c).arrAt_in 14 rfl _).trans ((A_eq m c 14).trans (V_main_arg9 m c))),
      ((h c).1 15).trans (((dats m 0 c).arrAt_in 15 rfl _).trans ((A_eq m c 15).trans (V_main_arg10 m c)))⟩) (run_main m ρ)

end Cert.KernelIdeal.Frame

end
-- ==== Proof.KIBlocks.lean ====
/-
  Where each window's block sits in its array, at every grid point (b, s): b the batch element, s the half of the 64 rows.
  The point's pair-feature block is rows 32·s … 32·s + 31 of batch element b; the row windows of the slots, the
  positions and the mask sit at the same rows, their all-rows windows at all 64 rows of b, and every weight window
  at the whole of its array.
-/
import proofs.«103889_j65412351918170_1_alg».proof.Proof.KILaunch
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The output windows' block indices over the grid: the batch element, the half of the rows, and zeros. -/
theorem idx_out : ∀ t : Fin cfg0.N, win0_16.index t (0 : Fin 4) < 32 ∧ win0_16.index t (1 : Fin 4) < 2 ∧ win0_16.index t (2 : Fin 4) = 0 ∧ win0_16.index t (3 : Fin 4) = 0
    ∧ win0_17.index t (0 : Fin 4) = win0_16.index t (0 : Fin 4) ∧ win0_17.index t (1 : Fin 4) = win0_16.index t (1 : Fin 4) ∧ win0_17.index t (2 : Fin 4) = 0 ∧ win0_17.index t (3 : Fin 4) = 0
    ∧ win0_18.index t (0 : Fin 3) = win0_16.index t (0 : Fin 4) ∧ win0_18.index t (1 : Fin 3) = win0_16.index t (1 : Fin 4) ∧ win0_18.index t (2 : Fin 3) = 0 :=
  (by decide +kernel : ∀ t : Fin grid0.N, _)

/-- The row windows follow the output's batch element and row half; the all-rows windows its batch element only. -/
theorem idx_rows : ∀ t : Fin cfg0.N, win0_0.index t (0 : Fin 3) = win0_16.index t (0 : Fin 4) ∧ win0_0.index t (1 : Fin 3) = win0_16.index t (1 : Fin 4) ∧ win0_0.index t (2 : Fin 3) = 0
    ∧ win0_2.index t (0 : Fin 3) = win0_16.index t (0 : Fin 4) ∧ win0_2.index t (1 : Fin 3) = win0_16.index t (1 : Fin 4) ∧ win0_2.index t (2 : Fin 3) = 0
    ∧ win0_4.index t (0 : Fin 3) = win0_16.index t (0 : Fin 4) ∧ win0_4.index t (1 : Fin 3) = win0_16.index t (1 : Fin 4) ∧ win0_4.index t (2 : Fin 3) = 0
    ∧ win0_1.index t (0 : Fin 3) = win0_16.index t (0 : Fin 4) ∧ win0_1.index t (1 : Fin 3) = 0 ∧ win0_1.index t (2 : Fin 3) = 0
    ∧ win0_3.index t (0 : Fin 3) = win0_16.index t (0 : Fin 4) ∧ win0_3.index t (1 : Fin 3) = 0 ∧ win0_3.index t (2 : Fin 3) = 0
    ∧ win0_5.index t (0 : Fin 3) = win0_16.index t (0 : Fin 4) ∧ win0_5.index t (1 : Fin 3) = 0 ∧ win0_5.index t (2 : Fin 3) = 0 :=
  (by decide +kernel : ∀ t : Fin grid0.N, _)

/-- The weight windows sit at block 0 at every point. -/
theorem idx_const : ∀ t : Fin cfg0.N, win0_6.index t (0 : Fin 2) = 0 ∧ win0_6.index t (1 : Fin 2) = 0 ∧ win0_7.index t (0 : Fin 2) = 0 ∧ win0_7.index t (1 : Fin 2) = 0 ∧ win0_8.index t (0 : Fin 2) = 0 ∧ win0_8.index t (1 : Fin 2) = 0 ∧ win0_9.index t (0 : Fin 1) = 0 ∧ win0_10.index t (0 : Fin 2) = 0 ∧ win0_10.index t (1 : Fin 2) = 0 ∧ win0_11.index t (0 : Fin 1) = 0 ∧ win0_12.index t (0 : Fin 2) = 0 ∧ win0_12.index t (1 : Fin 2) = 0 ∧ win0_13.index t (0 : Fin 1) = 0 ∧ win0_14.index t (0 : Fin 2) = 0 ∧ win0_14.index t (1 : Fin 2) = 0 ∧ win0_15.index t (0 : Fin 1) = 0 :=
  (by decide +kernel : ∀ t : Fin grid0.N, _)

/-- Every (batch element, row half) is some point's. -/
theorem idx_onto : ∀ (q0 : Fin 32) (q1 : Fin 2), ∃ t : Fin cfg0.N, win0_16.index t (0 : Fin 4) = q0.val ∧ win0_16.index t (1 : Fin 4) = q1.val :=
  (by decide +kernel : ∀ (q0 : Fin 32) (q1 : Fin 2), ∃ t : Fin grid0.N, win0_16.index t (0 : Fin 4) = q0.val ∧ win0_16.index t (1 : Fin 4) = q1.val)

theorem emb0 (t : Fin cfg0.N) (p : Fin 32) (k : Fin 256) (B : Fin 32) (R : Fin 64) (hB : B.val = win0_16.index t (0 : Fin 4)) (hR : R.val = win0_16.index t (1 : Fin 4) * 32 + p.val) :
    ((cfg0.win 0).blk t).view.emb (ix3 (0 : Fin 1) p k) = ix3 B R k := by
  have ho := idx_out t; have hr := idx_rows t; have hc := idx_const t
  funext x; apply Fin.ext
  match x with
    | ⟨0, _⟩ => show win0_0.index t (0 : Fin 3) * 1 + 1 * (0 : Fin 1).val = B.val; omega
    | ⟨1, _⟩ => show win0_0.index t (1 : Fin 3) * 32 + 1 * p.val = R.val; omega
    | ⟨2, _⟩ => show win0_0.index t (2 : Fin 3) * 256 + 1 * k.val = k.val; omega

theorem emb1 (t : Fin cfg0.N) (p : Fin 64) (k : Fin 256) (B : Fin 32) (hB : B.val = win0_16.index t (0 : Fin 4)) :
    ((cfg0.win 1).blk t).view.emb (ix3 (0 : Fin 1) p k) = ix3 B p k := by
  have ho := idx_out t; have hr := idx_rows t; have hc := idx_const t
  funext x; apply Fin.ext
  match x with
    | ⟨0, _⟩ => show win0_1.index t (0 : Fin 3) * 1 + 1 * (0 : Fin 1).val = B.val; omega
    | ⟨1, _⟩ => show win0_1.index t (1 : Fin 3) * 64 + 1 * p.val = p.val; omega
    | ⟨2, _⟩ => show win0_1.index t (2 : Fin 3) * 256 + 1 * k.val = k.val; omega

theorem emb2 (t : Fin cfg0.N) (p : Fin 32) (k : Fin 4) (B : Fin 32) (R : Fin 64) (hB : B.val = win0_16.index t (0 : Fin 4)) (hR : R.val = win0_16.index t (1 : Fin 4) * 32 + p.val) :
    ((cfg0.win 2).blk t).view.emb (ix3 (0 : Fin 1) p k) = ix3 B R k := by
  have ho := idx_out t; have hr := idx_rows t; have hc := idx_const t
  funext x; apply Fin.ext
  match x with
    | ⟨0, _⟩ => show win0_2.index t (0 : Fin 3) * 1 + 1 * (0 : Fin 1).val = B.val; omega
    | ⟨1, _⟩ => show win0_2.index t (1 : Fin 3) * 32 + 1 * p.val = R.val; omega
    | ⟨2, _⟩ => show win0_2.index t (2 : Fin 3) * 4 + 1 * k.val = k.val; omega

theorem emb3 (t : Fin cfg0.N) (p : Fin 64) (k : Fin 4) (B : Fin 32) (hB : B.val = win0_16.index t (0 : Fin 4)) :
    ((cfg0.win 3).blk t).view.emb (ix3 (0 : Fin 1) p k) = ix3 B p k := by
  have ho := idx_out t; have hr := idx_rows t; have hc := idx_const t
  funext x; apply Fin.ext
  match x with
    | ⟨0, _⟩ => show win0_3.index t (0 : Fin 3) * 1 + 1 * (0 : Fin 1).val = B.val; omega
    | ⟨1, _⟩ => show win0_3.index t (1 : Fin 3) * 64 + 1 * p.val = p.val; omega
    | ⟨2, _⟩ => show win0_3.index t (2 : Fin 3) * 4 + 1 * k.val = k.val; omega

theorem emb4 (t : Fin cfg0.N) (p : Fin 32) (k : Fin 1) (B : Fin 32) (R : Fin 64) (hB : B.val = win0_16.index t (0 : Fin 4)) (hR : R.val = win0_16.index t (1 : Fin 4) * 32 + p.val) :
    ((cfg0.win 4).blk t).view.emb (ix3 (0 : Fin 1) p k) = ix3 B R k := by
  have ho := idx_out t; have hr := idx_rows t; have hc := idx_const t
  funext x; apply Fin.ext
  match x with
    | ⟨0, _⟩ => show win0_4.index t (0 : Fin 3) * 1 + 1 * (0 : Fin 1).val = B.val; omega
    | ⟨1, _⟩ => show win0_4.index t (1 : Fin 3) * 32 + 1 * p.val = R.val; omega
    | ⟨2, _⟩ => show win0_4.index t (2 : Fin 3) * 1 + 1 * k.val = k.val; omega

theorem emb5 (t : Fin cfg0.N) (p : Fin 64) (k : Fin 1) (B : Fin 32) (hB : B.val = win0_16.index t (0 : Fin 4)) :
    ((cfg0.win 5).blk t).view.emb (ix3 (0 : Fin 1) p k) = ix3 B p k := by
  have ho := idx_out t; have hr := idx_rows t; have hc := idx_const t
  funext x; apply Fin.ext
  match x with
    | ⟨0, _⟩ => show win0_5.index t (0 : Fin 3) * 1 + 1 * (0 : Fin 1).val = B.val; omega
    | ⟨1, _⟩ => show win0_5.index t (1 : Fin 3) * 64 + 1 * p.val = p.val; omega
    | ⟨2, _⟩ => show win0_5.index t (2 : Fin 3) * 1 + 1 * k.val = k.val; omega

theorem emb6 (t : Fin cfg0.N) (a : Fin 256) (b : Fin 256) :
    ((cfg0.win 6).blk t).view.emb (ix2 a b) = ix2 a b := by
  have ho := idx_out t; have hr := idx_rows t; have hc := idx_const t
  funext x; apply Fin.ext
  match x with
    | ⟨0, _⟩ => show win0_6.index t (0 : Fin 2) * 256 + 1 * a.val = a.val; omega
    | ⟨1, _⟩ => show win0_6.index t (1 : Fin 2) * 256 + 1 * b.val = b.val; omega

theorem emb7 (t : Fin cfg0.N) (a : Fin 256) (b : Fin 256) :
    ((cfg0.win 7).blk t).view.emb (ix2 a b) = ix2 a b := by
  have ho := idx_out t; have hr := idx_rows t; have hc := idx_const t
  funext x; apply Fin.ext
  match x with
    | ⟨0, _⟩ => show win0_7.index t (0 : Fin 2) * 256 + 1 * a.val = a.val; omega
    | ⟨1, _⟩ => show win0_7.index t (1 : Fin 2) * 256 + 1 * b.val = b.val; omega

theorem emb8 (t : Fin cfg0.N) (a : Fin 4) (b : Fin 256) :
    ((cfg0.win 8).blk t).view.emb (ix2 a b) = ix2 a b := by
  have ho := idx_out t; have hr := idx_rows t; have hc := idx_const t
  funext x; apply Fin.ext
  match x with
    | ⟨0, _⟩ => show win0_8.index t (0 : Fin 2) * 4 + 1 * a.val = a.val; omega
    | ⟨1, _⟩ => show win0_8.index t (1 : Fin 2) * 256 + 1 * b.val = b.val; omega

theorem emb9 (t : Fin cfg0.N) (a : Fin 256) :
    ((cfg0.win 9).blk t).view.emb (ix1 a) = ix1 a := by
  have ho := idx_out t; have hr := idx_rows t; have hc := idx_const t
  funext x; apply Fin.ext
  match x with
    | ⟨0, _⟩ => show win0_9.index t (0 : Fin 1) * 256 + 1 * a.val = a.val; omega

theorem emb10 (t : Fin cfg0.N) (a : Fin 256) (b : Fin 128) :
    ((cfg0.win 10).blk t).view.emb (ix2 a b) = ix2 a b := by
  have ho := idx_out t; have hr := idx_rows t; have hc := idx_const t
  funext x; apply Fin.ext
  match x with
    | ⟨0, _⟩ => show win0_10.index t (0 : Fin 2) * 256 + 1 * a.val = a.val; omega
    | ⟨1, _⟩ => show win0_10.index t (1 : Fin 2) * 128 + 1 * b.val = b.val; omega

theorem emb11 (t : Fin cfg0.N) (a : Fin 128) :
    ((cfg0.win 11).blk t).view.emb (ix1 a) = ix1 a := by
  have ho := idx_out t; have hr := idx_rows t; have hc := idx_const t
  funext x; apply Fin.ext
  match x with
    | ⟨0, _⟩ => show win0_11.index t (0 : Fin 1) * 128 + 1 * a.val = a.val; omega

theorem emb12 (t : Fin cfg0.N) (a : Fin 128) (b : Fin 8) :
    ((cfg0.win 12).blk t).view.emb (ix2 a b) = ix2 a b := by
  have ho := idx_out t; have hr := idx_rows t; have hc := idx_const t
  funext x; apply Fin.ext
  match x with
    | ⟨0, _⟩ => show win0_12.index t (0 : Fin 2) * 128 + 1 * a.val = a.val; omega
    | ⟨1, _⟩ => show win0_12.index t (1 : Fin 2) * 8 + 1 * b.val = b.val; omega

theorem emb13 (t : Fin cfg0.N) (a : Fin 8) :
    ((cfg0.win 13).blk t).view.emb (ix1 a) = ix1 a := by
  have ho := idx_out t; have hr := idx_rows t; have hc := idx_const t
  funext x; apply Fin.ext
  match x with
    | ⟨0, _⟩ => show win0_13.index t (0 : Fin 1) * 8 + 1 * a.val = a.val; omega

theorem emb14 (t : Fin cfg0.N) (a : Fin 128) (b : Fin 1) :
    ((cfg0.win 14).blk t).view.emb (ix2 a b) = ix2 a b := by
  have ho := idx_out t; have hr := idx_rows t; have hc := idx_const t
  funext x; apply Fin.ext
  match x with
    | ⟨0, _⟩ => show win0_14.index t (0 : Fin 2) * 128 + 1 * a.val = a.val; omega
    | ⟨1, _⟩ => show win0_14.index t (1 : Fin 2) * 1 + 1 * b.val = b.val; omega

theorem emb15 (t : Fin cfg0.N) (a : Fin 1) :
    ((cfg0.win 15).blk t).view.emb (ix1 a) = ix1 a := by
  have ho := idx_out t; have hr := idx_rows t; have hc := idx_const t
  funext x; apply Fin.ext
  match x with
    | ⟨0, _⟩ => show win0_15.index t (0 : Fin 1) * 1 + 1 * a.val = a.val; omega

theorem emb16 (t : Fin cfg0.N) (p : Fin 32) (q : Fin 64) (k : Fin 128) (B : Fin 32) (R : Fin 64) (hB : B.val = win0_16.index t (0 : Fin 4)) (hR : R.val = win0_16.index t (1 : Fin 4) * 32 + p.val) :
    ((cfg0.win 16).blk t).view.emb (ix4 (0 : Fin 1) p q k) = ix4 B R q k := by
  have ho := idx_out t; have hr := idx_rows t; have hc := idx_const t
  funext x; apply Fin.ext
  match x with
    | ⟨0, _⟩ => show win0_16.index t (0 : Fin 4) * 1 + 1 * (0 : Fin 1).val = B.val; omega
    | ⟨1, _⟩ => show win0_16.index t (1 : Fin 4) * 32 + 1 * p.val = R.val; omega
    | ⟨2, _⟩ => show win0_16.index t (2 : Fin 4) * 64 + 1 * q.val = q.val; omega
    | ⟨3, _⟩ => show win0_16.index t (3 : Fin 4) * 128 + 1 * k.val = k.val; omega

theorem emb17 (t : Fin cfg0.N) (p : Fin 32) (q : Fin 64) (k : Fin 8) (B : Fin 32) (R : Fin 64) (hB : B.val = win0_16.index t (0 : Fin 4)) (hR : R.val = win0_16.index t (1 : Fin 4) * 32 + p.val) :
    ((cfg0.win 17).blk t).view.emb (ix4 (0 : Fin 1) p q k) = ix4 B R q k := by
  have ho := idx_out t; have hr := idx_rows t; have hc := idx_const t
  funext x; apply Fin.ext
  match x with
    | ⟨0, _⟩ => show win0_17.index t (0 : Fin 4) * 1 + 1 * (0 : Fin 1).val = B.val; omega
    | ⟨1, _⟩ => show win0_17.index t (1 : Fin 4) * 32 + 1 * p.val = R.val; omega
    | ⟨2, _⟩ => show win0_17.index t (2 : Fin 4) * 64 + 1 * q.val = q.val; omega
    | ⟨3, _⟩ => show win0_17.index t (3 : Fin 4) * 8 + 1 * k.val = k.val; omega

theorem emb18 (t : Fin cfg0.N) (p : Fin 32) (k : Fin 64) (B : Fin 32) (R : Fin 64) (hB : B.val = win0_16.index t (0 : Fin 4)) (hR : R.val = win0_16.index t (1 : Fin 4) * 32 + p.val) :
    ((cfg0.win 18).blk t).view.emb (ix3 (0 : Fin 1) p k) = ix3 B R k := by
  have ho := idx_out t; have hr := idx_rows t; have hc := idx_const t
  funext x; apply Fin.ext
  match x with
    | ⟨0, _⟩ => show win0_18.index t (0 : Fin 3) * 1 + 1 * (0 : Fin 1).val = B.val; omega
    | ⟨1, _⟩ => show win0_18.index t (1 : Fin 3) * 32 + 1 * p.val = R.val; omega
    | ⟨2, _⟩ => show win0_18.index t (2 : Fin 3) * 64 + 1 * k.val = k.val; omega

end Cert.KernelIdeal.Frame

end
-- ==== Proof.KIHost.lean ====
/-
  The four arrays the host computes before the region, read at an entry: the three row pieces of W1 are rows k,
  256 + k and 512 + k of the argument, and the mask with a trailing unit axis is the mask.
-/
import proofs.«103889_j65412351918170_1_alg».proof.Proof.KIBlocks

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

theorem V_main_v0 (c : Dev nD) : (V m c main_v0 : S256x256.Idx → Elt F .f32)
    = extractStridedSlice S256x256 ![0, 0] (m ((c : Thread nD τ).loc main_arg3)) slices_S516x256_S256x256_0_0 := by
  dsimp only [V, hostOps0]; after_results
theorem V_main_v1 (c : Dev nD) : (V m c main_v1 : S256x256.Idx → Elt F .f32)
    = extractStridedSlice S256x256 ![256, 0] (m ((c : Thread nD τ).loc main_arg3)) slices_S516x256_S256x256_256_0 := by
  dsimp only [V, hostOps0]; after_results
theorem V_main_v2 (c : Dev nD) : (V m c main_v2 : S4x256.Idx → Elt F .f32)
    = extractStridedSlice S4x256 ![512, 0] (m ((c : Thread nD τ).loc main_arg3)) slices_S516x256_S4x256_512_0 := by
  dsimp only [V, hostOps0]; after_results
theorem V_main_v3 (c : Dev nD) : (V m c main_v3 : S32x64x1.Idx → Elt F .f32)
    = broadcastInDim S32x64x1 ![0, 1] bcast_S32x64_S32x64x1_0_1 (m ((c : Thread nD τ).loc main_arg2)) := by
  dsimp only [V, hostOps0]; after_results

theorem V_main_v0_apply (c : Dev nD) (k h : Fin 256) :
    V m c main_v0 (ix2 k h) = m ((c : Thread nD τ).loc main_arg3) (ix2 (⟨k.val, by omega⟩ : Fin 516) h) := by
  rw [V_main_v0]
  exact extractStridedSlice_apply _ _ _ _ _ (fun a => by match a with | ⟨0, _⟩ => exact (Nat.zero_add _).symm | ⟨1, _⟩ => exact (Nat.zero_add _).symm)
theorem V_main_v1_apply (c : Dev nD) (k h : Fin 256) :
    V m c main_v1 (ix2 k h) = m ((c : Thread nD τ).loc main_arg3) (ix2 (⟨256 + k.val, by omega⟩ : Fin 516) h) := by
  rw [V_main_v1]
  exact extractStridedSlice_apply _ _ _ _ _ (fun a => by match a with | ⟨0, _⟩ => rfl | ⟨1, _⟩ => exact (Nat.zero_add _).symm)
theorem V_main_v2_apply (c : Dev nD) (k : Fin 4) (h : Fin 256) :
    V m c main_v2 (ix2 k h) = m ((c : Thread nD τ).loc main_arg3) (ix2 (⟨512 + k.val, by omega⟩ : Fin 516) h) := by
  rw [V_main_v2]
  exact extractStridedSlice_apply _ _ _ _ _ (fun a => by match a with | ⟨0, _⟩ => rfl | ⟨1, _⟩ => exact (Nat.zero_add _).symm)
theorem V_main_v3_apply (c : Dev nD) (b : Fin 32) (i : Fin 64) :
    V m c main_v3 (ix3 b i (0 : Fin 1)) = m ((c : Thread nD τ).loc main_arg2) (ix2 b i) := by
  rw [V_main_v3]
  exact broadcastInDim_apply _ _ _ _ _ (fun a => by match a with | ⟨0, _⟩ => rfl | ⟨1, _⟩ => rfl)

end Cert.KernelIdeal.Frame

end
-- ==== Proof.KerStages.lean ====
/-
  The pairwise encoder's block program cut into named stages, on the extended reals.

  The program computes, for the 32 rows i and 64 rows j of one batch element, in order: the product of the rows i with
  the first piece of W1 and of the rows j with the second; the planar offset of every pair of positions, its squared
  length summed over the two coordinates, the zero-safe distance over 50 and its clip at 1, and the four of them laid
  side by side; the product of those four with the third piece of W1; the sum of the three products and the bias; the
  rectifier; the second layer, its bias and the mask product; and the two heads. Each stage below is the program's own
  sequence of operations for that step, as a function of the values the step reads; the equations at the end say that
  the program's results are the stages composed. What each stage holds at an entry is read in the modules that follow.
-/
import proofs.«103889_j65412351918170_1_alg».proof.Proof.Gen.KernelIdeal.Skeleton
import Idealize.ShloMosaic.PureOps.Ideal

noncomputable section

namespace Cert.KerSide

open Idealize.ShloMosaic Cert.KernelIdeal Cert.KernelIdeal.Gen

/-- The rows i of slots times the first piece of W1, into a zero accumulator. -/
def prodI (v1 : FVec Ideal S32x256 .f32) (v14 : FVec Ideal S256x256 .bf16) : FVec Ideal S32x256 .f32 :=
  have v31 : FVec Ideal S32x256 .bf16 := truncf .bf16 v1 bitsLt_bf16_f32
  have cst : FVec Ideal S32x256 .f32 := constant S32x256 .f32 0x00000000#32
  have v32 : FVec Ideal S32x256 .f32 := matmul dot_S32x256_S256x256_S32x256_1_0_0_1_n_n none v31 v14 cst
  v32

/-- The rows j of slots times the second piece of W1, into a zero accumulator. -/
def prodJ (v3 : FVec Ideal S64x256 .f32) (v17 : FVec Ideal S256x256 .bf16) : FVec Ideal S64x256 .f32 :=
  have v33 : FVec Ideal S64x256 .bf16 := truncf .bf16 v3 bitsLt_bf16_f32
  have cst_33 : FVec Ideal S64x256 .f32 := constant S64x256 .f32 0x00000000#32
  have v34 : FVec Ideal S64x256 .f32 := matmul dot_S64x256_S256x256_S64x256_1_0_0_1_n_n none v33 v17 cst_33
  v34

/-- The planar offset of every pair of positions: the first two coordinates of row i less those of row j. -/
def offs (v5 : FVec Ideal S32x4 .f32) (v7 : FVec Ideal S64x4 .f32) : FVec Ideal S32x64x2 .f32 :=
  have v35 : FVec Ideal S32x2 .f32 := extractStridedSlice S32x2 ![0, 0] v5 slices_S32x4_o0_0_S32x2
  have v36 : FVec Ideal S64x2 .f32 := extractStridedSlice S64x2 ![0, 0] v7 slices_S64x4_o0_0_S64x2
  have v37 : FVec Ideal S32x1x2 .f32 := shapeCast S32x1x2 v35 shapeCasts_S32x2_S32x1x2
  have v38 : FVec Ideal S1x64x2 .f32 := shapeCast S1x64x2 v36 shapeCasts_S64x2_S1x64x2
  have v39 : FVec Ideal S32x64x2 .f32 := broadcastTo S32x64x2 v37 broadcasts_S32x1x2_S32x64x2
  have v40 : FVec Ideal S32x64x2 .f32 := broadcastTo S32x64x2 v38 broadcasts_S1x64x2_S32x64x2
  have v41 : FVec Ideal S32x64x2 .f32 := subf v39 v40
  v41

/-- The squared length of the offsets, summed over the two coordinates, kept as a one-entry row per pair. -/
def dsqCol (v41 : FVec Ideal S32x64x2 .f32) : FVec Ideal S32x64x1 .f32 :=
  have v42 : FVec Ideal S32x64x2 .f32 := mulf v41 v41
  have v43 : FVec Ideal S32x64 .f32 := multiReduction .add [2] S32x64 v42 0x00000000#32 reduces_S32x64x2_S32x64 (.inl rfl) rfl
  have v44 : FVec Ideal S32x64x1 .f32 := shapeCast S32x64x1 v43 shapeCasts_S32x64_S32x64x1
  v44

/-- The zero-safe distance over 50: zero where the squared distance is zero, else its root (the root taken of one there). -/
def dnCol (v44 : FVec Ideal S32x64x1 .f32) : FVec Ideal S32x64x1 .f32 :=
  have cst_35 : Ideal .f32 := Scalar.ofBits .f32 0x00000000#32
  have v45 : FVec Ideal S32x64x1 .f32 := broadcast S32x64x1 cst_35
  have v46 : IVec S32x64x1 1 := cmpf .oeq v44 v45
  have cst_36 : Ideal .f32 := Scalar.ofBits .f32 0x3F800000#32
  have v47 : FVec Ideal S32x64x1 .f32 := broadcast S32x64x1 cst_36
  have v48 : FVec Ideal S32x64x1 .f32 := select v46 v47 v44
  have cst_37 : Ideal .f32 := Scalar.ofBits .f32 0x00000000#32
  have v49 : FVec Ideal S32x64x1 .f32 := broadcast S32x64x1 cst_37
  have v50 : IVec S32x64x1 1 := cmpf .oeq v44 v49
  have v51 : FVec Ideal S32x64x1 .f32 := sqrt v48
  have cst_38 : Ideal .f32 := Scalar.ofBits .f32 0x00000000#32
  have v52 : FVec Ideal S32x64x1 .f32 := broadcast S32x64x1 cst_38
  have v53 : FVec Ideal S32x64x1 .f32 := select v50 v52 v51
  have cst_39 : Ideal .f32 := Scalar.ofBits .f32 0x42480000#32
  have v54 : FVec Ideal S32x64x1 .f32 := broadcast S32x64x1 cst_39
  have v55 : FVec Ideal S32x64x1 .f32 := divf v53 v54
  v55

/-- The four extra features of every pair side by side: the offset, the scaled distance, and its clip at one. -/
def extraBlk (v41 : FVec Ideal S32x64x2 .f32) (v55 : FVec Ideal S32x64x1 .f32) : FVec Ideal S32x64x4 .f32 :=
  have cst_40 : Ideal .f32 := Scalar.ofBits .f32 0x3F800000#32
  have v56 : FVec Ideal S32x64x1 .f32 := broadcast S32x64x1 cst_40
  have v57 : FVec Ideal S32x64x1 .f32 := minimumf v55 v56
  have v58 : FVec Ideal S32x64x4 .f32 := concatenate S32x64x4 2 [⟨S32x64x2, v41⟩, ⟨S32x64x1, v55⟩, ⟨S32x64x1, v57⟩] concatenates_S32x64x2_S32x64x1_S32x64x1_S32x64x4_d2
  v58

/-- The extra features, one row per pair, times the third piece of W1, into a zero accumulator, and back to one block per pair. -/
def prodE (v58 : FVec Ideal S32x64x4 .f32) (v20 : FVec Ideal S4x256 .bf16) : FVec Ideal S32x64x256 .f32 :=
  have v59 : FVec Ideal S32x64x4 .bf16 := truncf .bf16 v58 bitsLt_bf16_f32
  have v60 : FVec Ideal S2048x4 .bf16 := shapeCast S2048x4 v59 shapeCasts_S32x64x4_S2048x4
  have cst_41 : FVec Ideal S2048x256 .f32 := constant S2048x256 .f32 0x00000000#32
  have v61 : FVec Ideal S2048x256 .f32 := matmul dot_S2048x4_S4x256_S2048x256_1_0_0_1_n_n none v60 v20 cst_41
  have v62 : FVec Ideal S32x64x256 .f32 := shapeCast S32x64x256 v61 shapeCasts_S2048x256_S32x64x256
  v62

/-- The first layer before the rectifier: the rows' two products spread over the pairs and added, then the extra product, then the bias. -/
def preAct (v32 : FVec Ideal S32x256 .f32) (v34 : FVec Ideal S64x256 .f32) (v62 : FVec Ideal S32x64x256 .f32) (v21 : Vec Ideal S256 .f32) : FVec Ideal S32x64x256 .f32 :=
  have v63 : FVec Ideal S32x1x256 .f32 := shapeCast S32x1x256 v32 shapeCasts_S32x256_S32x1x256
  have v64 : FVec Ideal S1x64x256 .f32 := shapeCast S1x64x256 v34 shapeCasts_S64x256_S1x64x256
  have v65 : FVec Ideal S32x64x256 .f32 := broadcastTo S32x64x256 v63 broadcasts_S32x1x256_S32x64x256
  have v66 : FVec Ideal S32x64x256 .f32 := broadcastTo S32x64x256 v64 broadcasts_S1x64x256_S32x64x256
  have v67 : FVec Ideal S32x64x256 .f32 := addf v65 v66
  have v68 : FVec Ideal S32x64x256 .f32 := addf v67 v62
  have v69 : FVec Ideal S1x1x256 .f32 := shapeCast S1x1x256 v21 shapeCasts_S256_S1x1x256
  have v70 : FVec Ideal S32x64x256 .f32 := broadcastTo S32x64x256 v69 broadcasts_S1x1x256_S32x64x256
  have v71 : FVec Ideal S32x64x256 .f32 := addf v68 v70
  v71

/-- The rectifier: the maximum with the zero block. -/
def hidden (v71 : FVec Ideal S32x64x256 .f32) (v72 : FVec Ideal S32x64x256 .f32) : FVec Ideal S32x64x256 .bf16 :=
  have v73 : FVec Ideal S32x64x256 .f32 := maximumf v71 v72
  have v74 : FVec Ideal S32x64x256 .bf16 := truncf .bf16 v73 bitsLt_bf16_f32
  v74

/-- The hidden rows, one per pair, times W2, into a zero accumulator, and back to one block per pair. -/
def prodH (v74 : FVec Ideal S32x64x256 .bf16) (v23 : FVec Ideal S256x128 .bf16) : FVec Ideal S32x64x128 .f32 :=
  have v75 : FVec Ideal S2048x256 .bf16 := shapeCast S2048x256 v74 shapeCasts_S32x64x256_S2048x256
  have cst_43 : FVec Ideal S2048x128 .f32 := constant S2048x128 .f32 0x00000000#32
  have v76 : FVec Ideal S2048x128 .f32 := matmul dot_S2048x256_S256x128_S2048x128_1_0_0_1_n_n none v75 v23 cst_43
  have v77 : FVec Ideal S32x64x128 .f32 := shapeCast S32x64x128 v76 shapeCasts_S2048x128_S32x64x128
  v77

/-- The pair features: the second layer's product plus its bias, times the mask product of the pair. -/
def feats (v77 : FVec Ideal S32x64x128 .f32) (v24 : Vec Ideal S128 .f32) (m : FVec Ideal S32x64 .f32) : FVec Ideal S32x64x128 .f32 :=
  have v78 : FVec Ideal S1x1x128 .f32 := shapeCast S1x1x128 v24 shapeCasts_S128_S1x1x128
  have v79 : FVec Ideal S32x64x128 .f32 := broadcastTo S32x64x128 v78 broadcasts_S1x1x128_S32x64x128
  have v80 : FVec Ideal S32x64x128 .f32 := addf v77 v79
  have v88 : FVec Ideal S32x64x1 .f32 := shapeCast S32x64x1 m shapeCasts_S32x64_S32x64x1
  have v89 : FVec Ideal S32x64x128 .f32 := broadcastTo S32x64x128 v88 broadcasts_S32x64x1_S32x64x128
  have v90 : FVec Ideal S32x64x128 .f32 := mulf v80 v89
  v90

/-- The interaction-type logits: the feature rows times the head's matrix, plus its bias, stored under a leading unit axis. -/
def headT (f : FVec Ideal S2048x128 .bf16) (v26 : FVec Ideal S128x8 .bf16) (v27 : Vec Ideal S8 .f32) : FVec Ideal S1x32x64x8 .f32 :=
  have cst_44 : FVec Ideal S2048x8 .f32 := constant S2048x8 .f32 0x00000000#32
  have v93 : FVec Ideal S2048x8 .f32 := matmul dot_S2048x128_S128x8_S2048x8_1_0_0_1_n_n none f v26 cst_44
  have v94 : FVec Ideal S32x64x8 .f32 := shapeCast S32x64x8 v93 shapeCasts_S2048x8_S32x64x8
  have v95 : FVec Ideal S1x1x8 .f32 := shapeCast S1x1x8 v27 shapeCasts_S8_S1x1x8
  have v96 : FVec Ideal S32x64x8 .f32 := broadcastTo S32x64x8 v95 broadcasts_S1x1x8_S32x64x8
  have v97 : FVec Ideal S32x64x8 .f32 := addf v94 v96
  have v111 : FVec Ideal S1x32x64x8 .f32 := shapeCast S1x32x64x8 v97 shapeCasts_S32x64x8_S1x32x64x8
  v111

/-- The causal score: the logistic of the feature rows times the head's one column plus its bias, times the mask product, stored under a leading unit axis. -/
def headC (f : FVec Ideal S2048x128 .bf16) (v29 : FVec Ideal S128x1 .bf16) (v30 : Vec Ideal S1 .f32) (m : FVec Ideal S32x64 .f32) : FVec Ideal S1x32x64 .f32 :=
  have cst_45 : FVec Ideal S2048x1 .f32 := constant S2048x1 .f32 0x00000000#32
  have v98 : FVec Ideal S2048x1 .f32 := matmul dot_S2048x128_S128x1_S2048x1_1_0_0_1_n_n none f v29 cst_45
  have v99 : FVec Ideal S32x64x1 .f32 := shapeCast S32x64x1 v98 shapeCasts_S2048x1_S32x64x1
  have v100 : FVec Ideal S32x64 .f32 := shapeCast S32x64 v99 shapeCasts_S32x64x1_S32x64
  have v101 : Ideal .f32 := extractAt ![0] v30 inpos_S1_p0
  have v102 : FVec Ideal S32x64 .f32 := broadcast S32x64 v101
  have v103 : FVec Ideal S32x64 .f32 := addf v100 v102
  have v104 : FVec Ideal S32x64 .f32 := logistic v103
  have v105 : FVec Ideal S32x64 .f32 := mulf v104 m
  have v114 : FVec Ideal S1x32x64 .f32 := shapeCast S1x32x64 v105 shapeCasts_S32x64_S1x32x64
  v114

/-! ## The program's results are the stages composed -/

/-- The first layer before the rectifier, from the loaded blocks. -/
theorem pay13_eq (v1 : FVec Ideal S32x256 .f32) (v3 : FVec Ideal S64x256 .f32) (v5 : FVec Ideal S32x4 .f32) (v7 : FVec Ideal S64x4 .f32)
    (v14 v17 : FVec Ideal S256x256 .bf16) (v20 : FVec Ideal S4x256 .bf16) (v21 : Vec Ideal S256 .f32) :
    k0_pay13 (F := Ideal) v1 v3 v5 v7 v14 v17 v20 v21
      = preAct (prodI v1 v14) (prodJ v3 v17) (prodE (extraBlk (offs v5 v7) (dnCol (dsqCol (offs v5 v7)))) v20) v21 := rfl

/-- The pair features, from the first layer and the zero block. -/
theorem pay16_eq (v9 : FVec Ideal S32x1 .f32) (v11 : FVec Ideal S64x1 .f32) (v23 : FVec Ideal S256x128 .bf16) (v24 : Vec Ideal S128 .f32)
    (v71 v72 : FVec Ideal S32x64x256 .f32) :
    k0_pay16 (F := Ideal) v9 v11 v23 v24 v71 v72 = feats (prodH (hidden v71 v72) v23) v24 (k0_pay15 (F := Ideal) v9 v11) := rfl

/-- The interaction-type logits, from the feature rows. -/
theorem pay19_eq (v9 : FVec Ideal S32x1 .f32) (v11 : FVec Ideal S64x1 .f32) (v23 : FVec Ideal S256x128 .bf16) (v24 : Vec Ideal S128 .f32)
    (v26 : FVec Ideal S128x8 .bf16) (v27 : Vec Ideal S8 .f32) (v71 v72 : FVec Ideal S32x64x256 .f32) :
    k0_pay19 (F := Ideal) v9 v11 v23 v24 v26 v27 v71 v72 = headT (k0_pay17 (F := Ideal) v9 v11 v23 v24 v71 v72) v26 v27 := rfl

/-- The causal scores, from the feature rows and the mask product. -/
theorem pay20_eq (v9 : FVec Ideal S32x1 .f32) (v11 : FVec Ideal S64x1 .f32) (v23 : FVec Ideal S256x128 .bf16) (v24 : Vec Ideal S128 .f32)
    (v29 : FVec Ideal S128x1 .bf16) (v30 : Vec Ideal S1 .f32) (v71 v72 : FVec Ideal S32x64x256 .f32) :
    k0_pay20 (F := Ideal) v9 v11 v23 v24 v29 v30 v71 v72
      = headC (k0_pay17 (F := Ideal) v9 v11 v23 v24 v71 v72) v29 v30 (k0_pay15 (F := Ideal) v9 v11) := rfl

end Cert.KerSide

end
-- ==== Proof.KerLayout.lean ====
/-
  Layout steps of a pairwise block program, each read at an entry given by its coordinates, for any extents.

  A program that works on all pairs (i, j) of two families of rows keeps its values in [a, b, c] blocks and moves between
  ranks by shape casts (which keep the row-major position) and broadcasts (which read a unit axis at 0):

    a one-column matrix laid flat             [a, 1]    → [a]         entry i is the matrix's entry (i, 0);
    a trailing unit axis added or dropped     [a, b]    ↔ [a, b, 1]   entry (i, j, 0) is the matrix's entry (i, j);
    a vector under two unit axes              [c]       → [1, 1, c]   entry (0, 0, n) is the vector's entry n;
    that row spread over all pairs            [1, 1, c] → [a, b, c]   entry (i, j, n) is the operand's (0, 0, n);
    a per-pair scalar spread over a row       [a, b, 1] → [a, b, c]   entry (i, j, n) is the operand's (i, j, 0);
    a lane sum over the last axis             [a, b, n] → [a, b]      entry (i, j) is the sum over k < n of (i, j, k),
                                                                      on the extended reals (the zero accumulator is
                                                                      the sum's neutral element and leaves no trace);
    three blocks of widths 2, 1, 1 laid side by side along the last axis: positions 0 and 1 read the first block,
    position 2 the second block's one entry, position 3 the third's.
-/
import Idealize.ShloMosaic.Lib.ValueIdx
import Idealize.ShloMosaic.Lib.Pipeline.Value
import Idealize.ShloMosaic.PureOps.Ideal.Laws

noncomputable section

open scoped BigOperators

namespace Cert.KerSide.Layout

open Idealize.ShloMosaic Idealize.ShloMosaic.ValueIdx

variable {α : Type}

/-- A one-column matrix laid flat: entry i is the matrix's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_one, Shape.rowMajor_val_two]
    show i.val * 1 + 0 = i.val
    omega)

/-- A matrix given a trailing unit axis: entry (i, j, u) is the matrix's entry (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A trailing unit axis dropped: entry (i, j) is the array's entry (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- A vector put under two unit axes: entry (u, w, n) is the vector's entry n. -/
theorem shapeCast_c_11c_apply {c : ℕ} (x : (⟨1, ![c]⟩ : Shape).Idx → α)
    (h : (⟨1, ![c]⟩ : Shape).ShapeCasts ⟨3, ![1, 1, c]⟩) (u w : Fin 1) (n : Fin c) :
    shapeCast ⟨3, ![1, 1, c]⟩ x h (ix3 u w n) = x (ix1 n) :=
  shapeCast_apply x h _ _ (by
    have hu : u.val = 0 := by omega
    have hw : w.val = 0 := by omega
    rw [Shape.rowMajor_val_three, Shape.rowMajor_val_one]
    show n.val = (u.val * 1 + w.val) * c + n.val
    rw [hu, hw]
    simp only [Nat.zero_mul, Nat.zero_add, Nat.mul_one])

/-- A [1, 1, c] row spread over all pairs: entry (i, j, n) is the operand's entry (0, 0, n). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (n : Fin c) :
    broadcastTo ⟨3, ![a, b, c]⟩ v h (ix3 i j n) = v (ix3 (0 : Fin 1) (0 : Fin 1) n) := by
  refine broadcastTo_apply v h (ix3 i j n) (ix3 (0 : Fin 1) (0 : Fin 1) n) fun ax => ?_
  match ax with
  | ⟨0, _⟩ => rfl
  | ⟨1, _⟩ => rfl
  | ⟨2, _⟩ =>
    show n.val = if c = 1 then 0 else n.val
    split
    · have := n.isLt; omega
    · rfl

/-- A per-pair scalar spread over a row: entry (i, j, n) is the operand's entry (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (n : Fin c) :
    broadcastTo ⟨3, ![a, b, c]⟩ v h (ix3 i j n) = v (ix3 i j (0 : Fin 1)) := by
  refine broadcastTo_apply v h (ix3 i j n) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A lane sum of an [a, b, n] block over its last axis, on the extended reals, as an f32 program prints it (the
    accumulator is the zero word, and the proof it carries that the word is the sum's neutral element is a proof that
    zero is zero): entry (i, j) is the sum over the n lanes of the block's entries (i, j, k). -/
theorem laneSum3_zero_f32_apply {a b n : ℕ} (x : FVec Ideal (⟨3, ![a, b, n]⟩ : Shape) .f32)
    (h : (⟨3, ![a, b, n]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ x 0x00000000#32 h hφ hacc (ix2 i j) = ∑ k : Fin n, x (ix3 i j k) := by
  refine (Ideal.multiReduction_add_single x 0x00000000#32 h hφ hacc (ix2 i j)).trans ?_
  refine Finset.sum_congr rfl fun k _ => congrArg x (funext fun c => Fin.ext ?_)
  match c with
  | ⟨0, _⟩ => rfl
  | ⟨1, _⟩ => rfl
  | ⟨2, _⟩ => rfl

end Cert.KerSide.Layout

end
-- ==== Proof.KerConcat.lean ====
/-
  Three blocks of widths 2, 1 and 1 laid side by side along the last axis of an [a, b, 4] block, read at an entry.

  The concatenation locates the last coordinate among the widths laid end to end: positions 0 and 1 fall in the first
  block (at the same position), position 2 is the second block's one entry, position 3 the third's. The other two
  coordinates pass through.
-/
import Idealize.ShloMosaic.Lib.ValueIdx
import Idealize.ShloMosaic.Lib.Pipeline.Value

namespace Cert.KerSide.Layout

open Idealize.ShloMosaic Idealize.ShloMosaic.ValueIdx

variable {α : Type}

/-- Positions 0 and 1 of the row read the first block at the same position. -/
theorem concat211_fst {a b : ℕ} (x : (⟨3, ![a, b, 2]⟩ : Shape).Idx → α) (y z : (⟨3, ![a, b, 1]⟩ : Shape).Idx → α)
    (h : Shape.Concatenates [(⟨3, ![a, b, 2]⟩ : Shape), ⟨3, ![a, b, 1]⟩, ⟨3, ![a, b, 1]⟩] ⟨3, ![a, b, 4]⟩ 2)
    (i : Fin a) (j : Fin b) (c : Fin 2) (c' : Fin 4) (hc : c'.val = c.val) :
    concatenate (⟨3, ![a, b, 4]⟩ : Shape) 2 [⟨⟨3, ![a, b, 2]⟩, x⟩, ⟨⟨3, ![a, b, 1]⟩, y⟩, ⟨⟨3, ![a, b, 1]⟩, z⟩] h (ix3 i j c')
      = x (ix3 i j c) := by
  refine concatenate_apply_piece (t := ⟨3, ![a, b, 4]⟩) (2 : Fin 3)
    [⟨⟨3, ![a, b, 2]⟩, x⟩, ⟨⟨3, ![a, b, 1]⟩, y⟩, ⟨⟨3, ![a, b, 1]⟩, z⟩] h (ix3 i j c') 0 (show (0 : ℕ) < 3 by omega) ⟨3, ![a, b, 2]⟩ x rfl rfl 0 rfl (ix3 i j c)
    (fun ax hax => ?_) ?_
  · match ax with
    | ⟨0, _⟩ => rfl
    | ⟨1, _⟩ => rfl
    | ⟨2, _⟩ => exact absurd rfl hax
  · show 0 + c.val = c'.val
    omega

/-- Position 2 of the row reads the second block's one entry. -/
theorem concat211_snd {a b : ℕ} (x : (⟨3, ![a, b, 2]⟩ : Shape).Idx → α) (y z : (⟨3, ![a, b, 1]⟩ : Shape).Idx → α)
    (h : Shape.Concatenates [(⟨3, ![a, b, 2]⟩ : Shape), ⟨3, ![a, b, 1]⟩, ⟨3, ![a, b, 1]⟩] ⟨3, ![a, b, 4]⟩ 2)
    (i : Fin a) (j : Fin b) (c' : Fin 4) (hc : c'.val = 2) :
    concatenate (⟨3, ![a, b, 4]⟩ : Shape) 2 [⟨⟨3, ![a, b, 2]⟩, x⟩, ⟨⟨3, ![a, b, 1]⟩, y⟩, ⟨⟨3, ![a, b, 1]⟩, z⟩] h (ix3 i j c')
      = y (ix3 i j (0 : Fin 1)) := by
  refine concatenate_apply_piece (t := ⟨3, ![a, b, 4]⟩) (2 : Fin 3)
    [⟨⟨3, ![a, b, 2]⟩, x⟩, ⟨⟨3, ![a, b, 1]⟩, y⟩, ⟨⟨3, ![a, b, 1]⟩, z⟩] h (ix3 i j c') 1 (show (1 : ℕ) < 3 by omega) ⟨3, ![a, b, 1]⟩ y rfl rfl 2 rfl (ix3 i j (0 : Fin 1))
    (fun ax hax => ?_) ?_
  · match ax with
    | ⟨0, _⟩ => rfl
    | ⟨1, _⟩ => rfl
    | ⟨2, _⟩ => exact absurd rfl hax
  · show 2 + 0 = c'.val
    omega

/-- Position 3 of the row reads the third block's one entry. -/
theorem concat211_trd {a b : ℕ} (x : (⟨3, ![a, b, 2]⟩ : Shape).Idx → α) (y z : (⟨3, ![a, b, 1]⟩ : Shape).Idx → α)
    (h : Shape.Concatenates [(⟨3, ![a, b, 2]⟩ : Shape), ⟨3, ![a, b, 1]⟩, ⟨3, ![a, b, 1]⟩] ⟨3, ![a, b, 4]⟩ 2)
    (i : Fin a) (j : Fin b) (c' : Fin 4) (hc : c'.val = 3) :
    concatenate (⟨3, ![a, b, 4]⟩ : Shape) 2 [⟨⟨3, ![a, b, 2]⟩, x⟩, ⟨⟨3, ![a, b, 1]⟩, y⟩, ⟨⟨3, ![a, b, 1]⟩, z⟩] h (ix3 i j c')
      = z (ix3 i j (0 : Fin 1)) := by
  refine concatenate_apply_piece (t := ⟨3, ![a, b, 4]⟩) (2 : Fin 3)
    [⟨⟨3, ![a, b, 2]⟩, x⟩, ⟨⟨3, ![a, b, 1]⟩, y⟩, ⟨⟨3, ![a, b, 1]⟩, z⟩] h (ix3 i j c') 2 (show (2 : ℕ) < 3 by omega) ⟨3, ![a, b, 1]⟩ z rfl rfl 3 rfl (ix3 i j (0 : Fin 1))
    (fun ax hax => ?_) ?_
  · match ax with
    | ⟨0, _⟩ => rfl
    | ⟨1, _⟩ => rfl
    | ⟨2, _⟩ => exact absurd rfl hax
  · show 3 + 0 = c'.val
    omega

end Cert.KerSide.Layout
-- ==== Proof.LibPairSpread.lean ====
/-
  A vector spread along a new axis, read at an entry, for any extents.

  * a matrix `[a, c]` given a unit middle axis, `[a, 1, c]`, holds at `(i, 0, n)` the matrix's entry `(i, n)`;
  * an `[a, 1, c]` array spread to `[a, b, c]` holds at `(i, j, n)` the operand's entry `(i, 0, n)`: it does not
    depend on `j`;
  * a `[1, b, c]` array spread to `[a, b, c]` holds at `(i, j, n)` the operand's entry `(0, j, n)`: it does not
    depend on `i`.

  Together they read the outer sum `p[:, None, :] + q[None, :, :]` of two matrices at `(i, j, n)` as
  `p (i, n) + q (j, n)`.
-/
import Idealize.ShloMosaic.Lib.Pipeline.Value
import Idealize.ShloMosaic.Lib.ValueIdx
import Idealize.ShloMosaic.Lib.ValueLayout

namespace PairSpread

open Idealize.ShloMosaic Idealize.ShloMosaic.ValueIdx

variable {α : Type}

/-- An `[a, c]` array cast to `[a, 1, c]` reads, at `(i, u, n)`, the operand at `(i, n)`, whatever the unit
    coordinate `u`: both positions are `i · c + n` in row-major order. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (n : Fin c) :
    shapeCast ⟨3, ![a, 1, c]⟩ x h (ix3 i u n) = x (ix2 i n) :=
  shapeCast_apply x h _ _ (by
    have hu : u.val = 0 := by omega
    rw [Shape.rowMajor_val_three, Shape.rowMajor_val_two]
    show i.val * c + n.val = (i.val * 1 + u.val) * c + n.val
    rw [hu, Nat.mul_one, Nat.add_zero])

/-- An `[a, 1, c]` array broadcast to `[a, b, c]` reads, at `(i, j, n)`, the operand at `(i, 0, n)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (n : Fin c) :
    broadcastTo ⟨3, ![a, b, c]⟩ v h (ix3 i j n) = v (ix3 i (0 : Fin 1) n) := by
  refine broadcastTo_apply v h (ix3 i j n) (ix3 i (0 : Fin 1) n) fun ax => ?_
  match ax with
  | ⟨0, _⟩ =>
    show i.val = if a = 1 then 0 else i.val
    split
    · have := i.isLt; omega
    · rfl
  | ⟨1, _⟩ => rfl
  | ⟨2, _⟩ =>
    show n.val = if c = 1 then 0 else n.val
    split
    · have := n.isLt; omega
    · rfl

/-- A `[1, b, c]` array broadcast to `[a, b, c]` reads, at `(i, j, n)`, the operand at `(0, j, n)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (n : Fin c) :
    broadcastTo ⟨3, ![a, b, c]⟩ v h (ix3 i j n) = v (ix3 (0 : Fin 1) j n) := by
  refine broadcastTo_apply v h (ix3 i j n) (ix3 (0 : Fin 1) j n) fun ax => ?_
  match ax with
  | ⟨0, _⟩ => rfl
  | ⟨1, _⟩ =>
    show j.val = if b = 1 then 0 else j.val
    split
    · have := j.isLt; omega
    · rfl
  | ⟨2, _⟩ =>
    show n.val = if c = 1 then 0 else n.val
    split
    · have := n.isLt; omega
    · rfl

end PairSpread
-- ==== Proof.Spec.lean ====
/-
  The pairwise interaction encoder as ONE function of its rows, on the extended reals.

  For a pair (i, j) of slots of one batch element the network reads the two slot rows `si sj : Fin 256 → EReal`,
  the two position rows (of which only the first two coordinates enter), the two mask entries, and the weights.
  Its first layer is the product of the concatenated row [si | sj | extra] (516 entries) with W1; here it is written
  already split over the three pieces, (Σ si·Wa + Σ sj·Wb) + Σ extra·Wc, the grouping a blocked program computes it in;
  the concatenated form is the sum over 256 + 256 + 4 positions, equal to it by splitting the sum twice (no finiteness).
  Everything else — the zero-safe distance, the clip, the rectifier, the second layer, the mask product, the two heads —
  is the same arithmetic in both programs.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float words the two programs write: 0.0, 1.0 and 50.0. -/
def w0 : EReal := Ideal.ofBits .f32 0x00000000#32
def w1 : EReal := Ideal.ofBits .f32 0x3F800000#32
def w50 : EReal := Ideal.ofBits .f32 0x42480000#32

/-- The squared planar distance of two positions: the sum over the first two coordinates of the squared difference. -/
def dsq (p q : Fin 4 → EReal) : EReal :=
  ∑ k : Fin 2, (p (Fin.castLE (by decide) k) - q (Fin.castLE (by decide) k)) * (p (Fin.castLE (by decide) k) - q (Fin.castLE (by decide) k))

/-- The zero-safe distance: 0 where the squared distance is 0, else the root of it (the root taken of 1 there). -/
def dist (d : EReal) : EReal :=
  Scalar.select (Ideal.cmp .oeq d w0) w0 (Ideal.sqrt (Scalar.select (Ideal.cmp .oeq d w0) w1 d))

/-- The distance over 50, and that clipped at 1. -/
def dn (d : EReal) : EReal := Ideal.div (dist d) w50
def dnc (d : EReal) : EReal := min (dn d) w1

/-- The four extra features of a pair: the planar offset, the scaled distance and its clip. -/
def extra (p q : Fin 4 → EReal) : Fin 4 → EReal :=
  ![p 0 - q 0, p 1 - q 1, dn (dsq p q), dnc (dsq p q)]

/-- The first layer before the rectifier, at hidden unit `h`: the three partial products and the bias. -/
def hpre (si sj : Fin 256 → EReal) (e : Fin 4 → EReal) (Wa Wb : Fin 256 → Fin 256 → EReal) (Wc : Fin 4 → Fin 256 → EReal)
    (b1 : Fin 256 → EReal) (h : Fin 256) : EReal :=
  ((∑ k : Fin 256, si k * Wa k h) + (∑ k : Fin 256, sj k * Wb k h) + (∑ k : Fin 4, e k * Wc k h)) + b1 h

/-- The hidden layer: the rectifier is the maximum with the word 0. -/
def hid (si sj : Fin 256 → EReal) (e : Fin 4 → EReal) (Wa Wb : Fin 256 → Fin 256 → EReal) (Wc : Fin 4 → Fin 256 → EReal)
    (b1 : Fin 256 → EReal) (h : Fin 256) : EReal :=
  max (hpre si sj e Wa Wb Wc b1 h) w0

/-- The pair's feature `d`: the second layer of the hidden row, plus its bias, times the product of the two masks. -/
def feat (hd : Fin 256 → EReal) (W2 : Fin 256 → Fin 128 → EReal) (b2 : Fin 128 → EReal) (mi mj : EReal) (d : Fin 128) : EReal :=
  ((∑ h : Fin 256, hd h * W2 h d) + b2 d) * (mi * mj)

/-- The interaction-type logits of a feature row. -/
def itype (f : Fin 128 → EReal) (Wt : Fin 128 → Fin 8 → EReal) (bt : Fin 8 → EReal) (k : Fin 8) : EReal :=
  (∑ d : Fin 128, f d * Wt d k) + bt k

/-- The causal score of a feature row: the logistic of its one logit, times the product of the two masks. -/
def causal (f : Fin 128 → EReal) (Wc : Fin 128 → EReal) (bc : EReal) (mi mj : EReal) : EReal :=
  Ideal.logistic ((∑ d : Fin 128, f d * Wc d) + bc) * (mi * mj)

/-! ## The three result arrays as functions of the argument arrays -/

abbrev A3 (a b c : Nat) := (⟨3, ![a, b, c]⟩ : Shape).Idx → EReal
abbrev A2 (a b : Nat) := (⟨2, ![a, b]⟩ : Shape).Idx → EReal
abbrev A1 (a : Nat) := (⟨1, ![a]⟩ : Shape).Idx → EReal

/-- Row 256·s + k of W1, for the piece s = 0, 1 (the two slot rows) and the last four rows (the extra features). -/
def Wa (W1 : A2 516 256) (k h : Fin 256) : EReal := W1 (ix2 (⟨k.val, by omega⟩ : Fin 516) h)
def Wb (W1 : A2 516 256) (k h : Fin 256) : EReal := W1 (ix2 (⟨256 + k.val, by omega⟩ : Fin 516) h)
def Wc (W1 : A2 516 256) (k : Fin 4) (h : Fin 256) : EReal := W1 (ix2 (⟨512 + k.val, by omega⟩ : Fin 516) h)

/-- The hidden row of the pair (i, j) of batch element b. -/
def hidAt (slots : A3 32 64 256) (pos : A3 32 64 4) (W1 : A2 516 256) (b1 : A1 256) (b : Fin 32) (i j : Fin 64) : Fin 256 → EReal :=
  hid (fun k => slots (ix3 b i k)) (fun k => slots (ix3 b j k))
    (extra (fun k => pos (ix3 b i k)) (fun k => pos (ix3 b j k))) (Wa W1) (Wb W1) (Wc W1) (fun h => b1 (ix1 h))

/-- The feature row of the pair (i, j) of batch element b. -/
def featAt (slots : A3 32 64 256) (pos : A3 32 64 4) (mask : A2 32 64) (W1 : A2 516 256) (b1 : A1 256) (W2 : A2 256 128) (b2 : A1 128)
    (b : Fin 32) (i j : Fin 64) : Fin 128 → EReal :=
  feat (hidAt slots pos W1 b1 b i j) (fun h d => W2 (ix2 h d)) (fun d => b2 (ix1 d)) (mask (ix2 b i)) (mask (ix2 b j))

/-- First result: the pair features, [32, 64, 64, 128]. -/
def featsArr (slots : A3 32 64 256) (pos : A3 32 64 4) (mask : A2 32 64) (W1 : A2 516 256) (b1 : A1 256) (W2 : A2 256 128) (b2 : A1 128) :
    (⟨4, ![32, 64, 64, 128]⟩ : Shape).Idx → EReal :=
  fun x => featAt slots pos mask W1 b1 W2 b2 (x 0) (x 1) (x 2) (x 3)

/-- Second result: the interaction-type logits, [32, 64, 64, 8]. -/
def itypesArr (slots : A3 32 64 256) (pos : A3 32 64 4) (mask : A2 32 64) (W1 : A2 516 256) (b1 : A1 256) (W2 : A2 256 128) (b2 : A1 128)
    (Wt : A2 128 8) (bt : A1 8) : (⟨4, ![32, 64, 64, 8]⟩ : Shape).Idx → EReal :=
  fun x => itype (featAt slots pos mask W1 b1 W2 b2 (x 0) (x 1) (x 2)) (fun d k => Wt (ix2 d k)) (fun k => bt (ix1 k)) (x 3)

/-- Third result: the causal scores, [32, 64, 64]. -/
def causalArr (slots : A3 32 64 256) (pos : A3 32 64 4) (mask : A2 32 64) (W1 : A2 516 256) (b1 : A1 256) (W2 : A2 256 128) (b2 : A1 128)
    (Wcz : A2 128 1) (bc : A1 1) : (⟨3, ![32, 64, 64]⟩ : Shape).Idx → EReal :=
  fun x => causal (featAt slots pos mask W1 b1 W2 b2 (x 0) (x 1) (x 2)) (fun d => Wcz (ix2 d (0 : Fin 1))) (bc (ix1 (0 : Fin 1)))
    (mask (ix2 (x 0) (x 1))) (mask (ix2 (x 0) (x 2)))

end Cert.Spec

end
-- ==== Proof.KerDist.lean ====
/-
  The four extra features of a pair, read at an entry.

  For the rows i and j of positions the block program takes the offset of the first two coordinates, sums its squares
  over those two coordinates, makes the zero-safe distance over 50 and its clip at one, and lays the four numbers side
  by side. At the pair (i, j) the four entries are the specification's extra features of the two position rows.
-/
import proofs.«103889_j65412351918170_1_alg».proof.Proof.KerStages
import proofs.«103889_j65412351918170_1_alg».proof.Proof.KerLayout
import proofs.«103889_j65412351918170_1_alg».proof.Proof.KerConcat
import proofs.«103889_j65412351918170_1_alg».proof.Proof.LibPairSpread
import proofs.«103889_j65412351918170_1_alg».proof.Proof.Spec
import Idealize.ShloMosaic.Lib.ValueLayout

noncomputable section

open scoped BigOperators

namespace Cert.KerSide

open Idealize.ShloMosaic Idealize.ShloMosaic.ValueIdx Cert.KernelIdeal Cert.KernelIdeal.Gen

/-- The offset block at (i, j, c), c one of the first two coordinates: row i's coordinate less row j's. -/
theorem offs_apply (v5 : FVec Ideal S32x4 .f32) (v7 : FVec Ideal S64x4 .f32) (i : Fin 32) (j : Fin 64) (c : Fin 2) :
    offs v5 v7 (ix3 i j c)
      = v5 (ix2 i (Fin.castLE (by decide) c)) - v7 (ix2 j (Fin.castLE (by decide) c)) := by
  unfold offs
  try dsimp only
  refine (subf_apply _ _ _).trans ?_
  refine congrArg₂ (· - ·) ?_ ?_
  · refine (PairSpread.broadcastTo_a1c_abc_apply _ _ i j c).trans ?_
    refine (PairSpread.shapeCast_ac_a1c_apply _ _ i (0 : Fin 1) c).trans ?_
    exact slice2_axis1_apply 0 v5 _ i c (Fin.castLE (by decide) c) (by show c.val = 0 + c.val; omega)
  · refine (PairSpread.broadcastTo_1bc_abc_apply _ _ i j c).trans ?_
    refine (shapeCast_ab_1ab_apply _ _ (0 : Fin 1) j c).trans ?_
    exact slice2_axis1_apply 0 v7 _ j c (Fin.castLE (by decide) c) (by show c.val = 0 + c.val; omega)

/-- The squared-distance column at (i, j): the sum over the two coordinates of the squared offset. -/
theorem dsqCol_apply (o : FVec Ideal S32x64x2 .f32) (i : Fin 32) (j : Fin 64) (u : Fin 1) :
    dsqCol o (ix3 i j u) = ∑ k : Fin 2, o (ix3 i j k) * o (ix3 i j k) := by
  unfold dsqCol
  try dsimp only
  refine (Layout.shapeCast_ab_ab1_apply _ _ i j u).trans ?_
  exact Layout.laneSum3_zero_f32_apply _ _ _ _ i j

/-- The scaled zero-safe distance is computed entry by entry. -/
theorem dnCol_apply (v44 : FVec Ideal S32x64x1 .f32) (x : S32x64x1.Idx) :
    dnCol v44 x = Spec.dn (v44 x) := rfl

/-- The four features side by side at (i, j, c): the two offsets, the scaled distance, its clip at one. -/
theorem extraBlk_apply (o : FVec Ideal S32x64x2 .f32) (dn : FVec Ideal S32x64x1 .f32) (i : Fin 32) (j : Fin 64) (c : Fin 4) :
    extraBlk o dn (ix3 i j c)
      = ![o (ix3 i j (0 : Fin 2)), o (ix3 i j (1 : Fin 2)), dn (ix3 i j (0 : Fin 1)),
          min (dn (ix3 i j (0 : Fin 1))) Spec.w1] c := by
  unfold extraBlk
  try dsimp only
  match c with
  | ⟨0, _⟩ => exact Layout.concat211_fst _ _ _ _ i j (0 : Fin 2) _ rfl
  | ⟨1, _⟩ => exact Layout.concat211_fst _ _ _ _ i j (1 : Fin 2) _ rfl
  | ⟨2, _⟩ => exact Layout.concat211_snd _ _ _ _ i j _ rfl
  | ⟨3, _⟩ => exact (Layout.concat211_trd _ _ _ _ i j _ rfl).trans rfl

/-- The extra features of the pair (i, j), from the two blocks of positions: the specification's four numbers of the two
    position rows. -/
theorem extra_apply (v5 : FVec Ideal S32x4 .f32) (v7 : FVec Ideal S64x4 .f32) (i : Fin 32) (j : Fin 64) (c : Fin 4) :
    extraBlk (offs v5 v7) (dnCol (dsqCol (offs v5 v7))) (ix3 i j c)
      = Spec.extra (fun k => v5 (ix2 i k)) (fun k => v7 (ix2 j k)) c := by
  have hd : dsqCol (offs v5 v7) (ix3 i j (0 : Fin 1)) = Spec.dsq (fun k => v5 (ix2 i k)) (fun k => v7 (ix2 j k)) := by
    refine (dsqCol_apply _ i j 0).trans ?_
    unfold Spec.dsq
    exact Finset.sum_congr rfl fun k _ => by rw [offs_apply]
  rw [extraBlk_apply, dnCol_apply, hd]
  unfold Spec.extra Spec.dnc
  match c with
  | ⟨0, _⟩ => exact offs_apply v5 v7 i j 0
  | ⟨1, _⟩ => exact offs_apply v5 v7 i j 1
  | ⟨2, _⟩ => rfl
  | ⟨3, _⟩ => rfl

end Cert.KerSide

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«103889_j65412351918170_1_alg».proof.Proof.LibContract
import proofs.«103889_j65412351918170_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.KerDots.lean ====
/-
  The six matrix products of the pairwise encoder contract, each, the left operand's second axis with the right operand's
  first and nothing else: no batch axis, the result's row is the left operand's row and its column the right operand's
  column. That is what reading a product into a zero accumulator at an entry (r, c) as the plain sum over the shared
  coordinate k of left (r, k) · right (k, c) asks of its dimension record.
-/
import proofs.«103889_j65412351918170_1_alg».proof.Proof.Gen.KernelIdeal
import proofs.«103889_j65412351918170_1_alg».proof.Proof.LibDenseVec

namespace Cert.KerSide

open Idealize.ShloMosaic Cert.KernelIdeal Cert.KernelIdeal.Gen

/-- The dimension record of the product of the 32 rows i of slots with the first 256 rows of W1 is a plain rows-by-columns contraction. -/
theorem plain_slotsI : DenseVec.Plain dot_S32x256_S256x256_S32x256_1_0_0_1_n_n where
  rank := rfl
  size := fun _ => rfl
  lhs := rfl
  rhs := rfl
  row := fun j q => by
    unfold DotDims.lhsIdx
    rw [dif_neg (show ¬(0 : Fin S32x256.rank) ∈ dot_S32x256_S256x256_S32x256_1_0_0_1_n_n.lhsBatch by decide),
      dif_pos (show (0 : Fin S32x256.rank) ∈ dot_S32x256_S256x256_S32x256_1_0_0_1_n_n.lhsNonContracting by decide)]
    rfl
  col := fun j q => by
    unfold DotDims.rhsIdx
    rw [dif_neg (show ¬(1 : Fin S256x256.rank) ∈ dot_S32x256_S256x256_S32x256_1_0_0_1_n_n.rhsBatch by decide),
      dif_pos (show (1 : Fin S256x256.rank) ∈ dot_S32x256_S256x256_S32x256_1_0_0_1_n_n.rhsNonContracting by decide)]
    rfl

/-- The dimension record of the product of the 64 rows j of slots with the next 256 rows of W1 is a plain rows-by-columns contraction. -/
theorem plain_slotsJ : DenseVec.Plain dot_S64x256_S256x256_S64x256_1_0_0_1_n_n where
  rank := rfl
  size := fun _ => rfl
  lhs := rfl
  rhs := rfl
  row := fun j q => by
    unfold DotDims.lhsIdx
    rw [dif_neg (show ¬(0 : Fin S64x256.rank) ∈ dot_S64x256_S256x256_S64x256_1_0_0_1_n_n.lhsBatch by decide),
      dif_pos (show (0 : Fin S64x256.rank) ∈ dot_S64x256_S256x256_S64x256_1_0_0_1_n_n.lhsNonContracting by decide)]
    rfl
  col := fun j q => by
    unfold DotDims.rhsIdx
    rw [dif_neg (show ¬(1 : Fin S256x256.rank) ∈ dot_S64x256_S256x256_S64x256_1_0_0_1_n_n.rhsBatch by decide),
      dif_pos (show (1 : Fin S256x256.rank) ∈ dot_S64x256_S256x256_S64x256_1_0_0_1_n_n.rhsNonContracting by decide)]
    rfl

/-- The dimension record of the product of the 2048 rows of extra features with the last 4 rows of W1 is a plain rows-by-columns contraction. -/
theorem plain_extra : DenseVec.Plain dot_S2048x4_S4x256_S2048x256_1_0_0_1_n_n where
  rank := rfl
  size := fun _ => rfl
  lhs := rfl
  rhs := rfl
  row := fun j q => by
    unfold DotDims.lhsIdx
    rw [dif_neg (show ¬(0 : Fin S2048x4.rank) ∈ dot_S2048x4_S4x256_S2048x256_1_0_0_1_n_n.lhsBatch by decide),
      dif_pos (show (0 : Fin S2048x4.rank) ∈ dot_S2048x4_S4x256_S2048x256_1_0_0_1_n_n.lhsNonContracting by decide)]
    rfl
  col := fun j q => by
    unfold DotDims.rhsIdx
    rw [dif_neg (show ¬(1 : Fin S4x256.rank) ∈ dot_S2048x4_S4x256_S2048x256_1_0_0_1_n_n.rhsBatch by decide),
      dif_pos (show (1 : Fin S4x256.rank) ∈ dot_S2048x4_S4x256_S2048x256_1_0_0_1_n_n.rhsNonContracting by decide)]
    rfl

/-- The dimension record of the product of the 2048 hidden rows with W2 is a plain rows-by-columns contraction. -/
theorem plain_layer2 : DenseVec.Plain dot_S2048x256_S256x128_S2048x128_1_0_0_1_n_n where
  rank := rfl
  size := fun _ => rfl
  lhs := rfl
  rhs := rfl
  row := fun j q => by
    unfold DotDims.lhsIdx
    rw [dif_neg (show ¬(0 : Fin S2048x256.rank) ∈ dot_S2048x256_S256x128_S2048x128_1_0_0_1_n_n.lhsBatch by decide),
      dif_pos (show (0 : Fin S2048x256.rank) ∈ dot_S2048x256_S256x128_S2048x128_1_0_0_1_n_n.lhsNonContracting by decide)]
    rfl
  col := fun j q => by
    unfold DotDims.rhsIdx
    rw [dif_neg (show ¬(1 : Fin S256x128.rank) ∈ dot_S2048x256_S256x128_S2048x128_1_0_0_1_n_n.rhsBatch by decide),
      dif_pos (show (1 : Fin S256x128.rank) ∈ dot_S2048x256_S256x128_S2048x128_1_0_0_1_n_n.rhsNonContracting by decide)]
    rfl

/-- The dimension record of the product of the 2048 feature rows with the interaction-type head is a plain rows-by-columns contraction. -/
theorem plain_itype : DenseVec.Plain dot_S2048x128_S128x8_S2048x8_1_0_0_1_n_n where
  rank := rfl
  size := fun _ => rfl
  lhs := rfl
  rhs := rfl
  row := fun j q => by
    unfold DotDims.lhsIdx
    rw [dif_neg (show ¬(0 : Fin S2048x128.rank) ∈ dot_S2048x128_S128x8_S2048x8_1_0_0_1_n_n.lhsBatch by decide),
      dif_pos (show (0 : Fin S2048x128.rank) ∈ dot_S2048x128_S128x8_S2048x8_1_0_0_1_n_n.lhsNonContracting by decide)]
    rfl
  col := fun j q => by
    unfold DotDims.rhsIdx
    rw [dif_neg (show ¬(1 : Fin S128x8.rank) ∈ dot_S2048x128_S128x8_S2048x8_1_0_0_1_n_n.rhsBatch by decide),
      dif_pos (show (1 : Fin S128x8.rank) ∈ dot_S2048x128_S128x8_S2048x8_1_0_0_1_n_n.rhsNonContracting by decide)]
    rfl

/-- The dimension record of the product of the 2048 feature rows with the causal head's one column is a plain rows-by-columns contraction. -/
theorem plain_causal : DenseVec.Plain dot_S2048x128_S128x1_S2048x1_1_0_0_1_n_n where
  rank := rfl
  size := fun _ => rfl
  lhs := rfl
  rhs := rfl
  row := fun j q => by
    unfold DotDims.lhsIdx
    rw [dif_neg (show ¬(0 : Fin S2048x128.rank) ∈ dot_S2048x128_S128x1_S2048x1_1_0_0_1_n_n.lhsBatch by decide),
      dif_pos (show (0 : Fin S2048x128.rank) ∈ dot_S2048x128_S128x1_S2048x1_1_0_0_1_n_n.lhsNonContracting by decide)]
    rfl
  col := fun j q => by
    unfold DotDims.rhsIdx
    rw [dif_neg (show ¬(1 : Fin S128x1.rank) ∈ dot_S2048x128_S128x1_S2048x1_1_0_0_1_n_n.rhsBatch by decide),
      dif_pos (show (1 : Fin S128x1.rank) ∈ dot_S2048x128_S128x1_S2048x1_1_0_0_1_n_n.rhsNonContracting by decide)]
    rfl

end Cert.KerSide
-- ==== Proof.LibFlattenRows.lean ====
/-
  The leading two axes of a rank-3 array merged into one, and split again, read at an entry, for any extents.

  An `[A, B, C]` array and its reshape `[A·B, C]` list the same numbers in the same row-major order, so entry
  `(e, l, n)` of the one is entry `(e·B + l, n)` of the other, in both directions:

  * `flatten_apply`: the `[M, C]` reshape of an `[A, B, C]` array at `(R, n)`, `R = e·B + l`, is the array at `(e, l, n)`;
  * `unflatten_apply`: the `[A, B, C]` reshape of an `[M, C]` array at `(e, l, n)` is the array at `(R, n)`.

  `M` is any extent for which the reshape is stated (it is `A·B` whenever one is); the row `R` is given with its equation.
-/
import Idealize.ShloMosaic.Lib.Pipeline.Value
import Idealize.ShloMosaic.Lib.ValueIdx

namespace FlattenRows

open Idealize.ShloMosaic Idealize.ShloMosaic.ValueIdx

variable {α : Type}

/-- The `[M, C]` reshape of an `[A, B, C]` array reads, at `(R, n)` with `R = e·B + l`, the array at `(e, l, n)`. -/
theorem flatten_apply {A B C M : ℕ} (x : (⟨3, ![A, B, C]⟩ : Shape).Idx → α)
    (h : (⟨3, ![A, B, C]⟩ : Shape).ShapeCasts ⟨2, ![M, C]⟩) (R : Fin M) (n : Fin C) (e : Fin A) (l : Fin B)
    (hR : R.val = e.val * B + l.val) :
    shapeCast ⟨2, ![M, C]⟩ x h (ix2 R n) = x (ix3 e l n) :=
  shapeCast_apply x h _ _ (by
    rw [Shape.rowMajor_val_three, Shape.rowMajor_val_two]
    show (e.val * B + l.val) * C + n.val = R.val * C + n.val
    rw [hR])

/-- The `[A, B, C]` reshape of an `[M, C]` array reads, at `(e, l, n)`, the array at `(R, n)` with `R = e·B + l`. -/
theorem unflatten_apply {A B C M : ℕ} (x : (⟨2, ![M, C]⟩ : Shape).Idx → α)
    (h : (⟨2, ![M, C]⟩ : Shape).ShapeCasts ⟨3, ![A, B, C]⟩) (e : Fin A) (l : Fin B) (n : Fin C) (R : Fin M)
    (hR : R.val = e.val * B + l.val) :
    shapeCast ⟨3, ![A, B, C]⟩ x h (ix3 e l n) = x (ix2 R n) :=
  shapeCast_apply x h _ _ (by
    rw [Shape.rowMajor_val_three, Shape.rowMajor_val_two]
    show R.val * C + n.val = (e.val * B + l.val) * C + n.val
    rw [hR])

end FlattenRows
-- ==== Proof.KerLayer1.lean ====
/-
  The first layer of the pairwise encoder, read at an entry.

  The block program never builds the concatenated row [slots_i | slots_j | extra]: it multiplies the 32 rows i by the
  first 256 rows of W1 and the 64 rows j by the next 256 once each, spreads the two products over the pairs, and adds
  the product of the pair's four extra features with the last four rows of W1, then the bias. At (i, j, h) that is
  ((Σ_k slots_i k · Wa k h + Σ_k slots_j k · Wb k h) + Σ_k extra k · Wc k h) + b1 h, and the rectifier is the maximum
  with the zero word: the specification's hidden unit h of the pair.
-/
import proofs.«103889_j65412351918170_1_alg».proof.Proof.KerDist
import proofs.«103889_j65412351918170_1_alg».proof.Proof.KerDots
import proofs.«103889_j65412351918170_1_alg».proof.Proof.LibFlattenRows

noncomputable section

open scoped BigOperators

namespace Cert.KerSide

open Idealize.ShloMosaic Idealize.ShloMosaic.ValueIdx Cert.KernelIdeal Cert.KernelIdeal.Gen

/-- The rows i times the first piece of W1, at (i, h). -/
theorem prodI_apply (v1 : FVec Ideal S32x256 .f32) (v14 : FVec Ideal S256x256 .bf16) (i : Fin 32) (h : Fin 256) :
    prodI v1 v14 (ix2 i h) = ∑ k : Fin 256, v1 (ix2 i k) * v14 (ix2 k h) := by
  unfold prodI
  try dsimp only
  exact DenseVec.matmul_zero_ix2 plain_slotsI none _ v14 i h

/-- The rows j times the second piece of W1, at (j, h). -/
theorem prodJ_apply (v3 : FVec Ideal S64x256 .f32) (v17 : FVec Ideal S256x256 .bf16) (j : Fin 64) (h : Fin 256) :
    prodJ v3 v17 (ix2 j h) = ∑ k : Fin 256, v3 (ix2 j k) * v17 (ix2 k h) := by
  unfold prodJ
  try dsimp only
  exact DenseVec.matmul_zero_ix2 plain_slotsJ none _ v17 j h

/-- The pair's four extra features times the third piece of W1, at (i, j, h): the pair is row 64·i + j of the flattened
    operand and of the flattened product. -/
theorem prodE_apply (e : FVec Ideal S32x64x4 .f32) (v20 : FVec Ideal S4x256 .bf16) (i : Fin 32) (j : Fin 64) (h : Fin 256) :
    prodE e v20 (ix3 i j h) = ∑ k : Fin 4, e (ix3 i j k) * v20 (ix2 k h) := by
  unfold prodE
  try dsimp only
  refine (FlattenRows.unflatten_apply _ _ i j h (⟨i.val * 64 + j.val, by have := i.isLt; have := j.isLt; omega⟩ : Fin 2048) rfl).trans ?_
  refine (DenseVec.matmul_zero_ix2 plain_extra none _ v20 _ h).trans ?_
  refine Finset.sum_congr rfl fun k _ => congrArg (· * v20 (ix2 k h)) ?_
  exact FlattenRows.flatten_apply _ _ _ k i j rfl

/-- The sum of the three products and the bias, at (i, j, h). -/
theorem preAct_apply (v32 : FVec Ideal S32x256 .f32) (v34 : FVec Ideal S64x256 .f32) (v62 : FVec Ideal S32x64x256 .f32)
    (v21 : Vec Ideal S256 .f32) (i : Fin 32) (j : Fin 64) (h : Fin 256) :
    preAct v32 v34 v62 v21 (ix3 i j h) = ((v32 (ix2 i h) + v34 (ix2 j h)) + v62 (ix3 i j h)) + v21 (ix1 h) := by
  unfold preAct
  try dsimp only
  refine (addf_apply _ _ _).trans ?_
  refine congrArg₂ (· + ·) ?_ ?_
  · refine (addf_apply _ _ _).trans ?_
    refine congrArg (· + v62 (ix3 i j h)) ?_
    refine (addf_apply _ _ _).trans ?_
    refine congrArg₂ (· + ·) ?_ ?_
    · exact (PairSpread.broadcastTo_a1c_abc_apply _ _ i j h).trans (PairSpread.shapeCast_ac_a1c_apply _ _ i (0 : Fin 1) h)
    · exact (PairSpread.broadcastTo_1bc_abc_apply _ _ i j h).trans (shapeCast_ab_1ab_apply _ _ (0 : Fin 1) j h)
  · exact (Layout.broadcastTo_11c_abc_apply _ _ i j h).trans (Layout.shapeCast_c_11c_apply _ _ (0 : Fin 1) (0 : Fin 1) h)

/-- The rectifier is taken entry by entry. -/
theorem hidden_apply (v71 v72 : FVec Ideal S32x64x256 .f32) (x : S32x64x256.Idx) :
    hidden v71 v72 x = max (v71 x) (v72 x) := rfl

/-- The zero block holds the zero word everywhere. -/
theorem pay14_apply (x : S32x64x256.Idx) : k0_pay14 (F := Ideal) x = Spec.w0 := rfl

/-- The hidden unit h of the pair (i, j), from the blocks the first layer reads. -/
theorem hid_apply (v1 : FVec Ideal S32x256 .f32) (v3 : FVec Ideal S64x256 .f32) (v5 : FVec Ideal S32x4 .f32) (v7 : FVec Ideal S64x4 .f32)
    (v14 v17 : FVec Ideal S256x256 .bf16) (v20 : FVec Ideal S4x256 .bf16) (v21 : Vec Ideal S256 .f32)
    (i : Fin 32) (j : Fin 64) (h : Fin 256) :
    max (k0_pay13 (F := Ideal) v1 v3 v5 v7 v14 v17 v20 v21 (ix3 i j h)) (k0_pay14 (F := Ideal) (ix3 i j h))
      = Spec.hid (fun k => v1 (ix2 i k)) (fun k => v3 (ix2 j k)) (Spec.extra (fun k => v5 (ix2 i k)) (fun k => v7 (ix2 j k)))
          (fun k h => v14 (ix2 k h)) (fun k h => v17 (ix2 k h)) (fun k h => v20 (ix2 k h)) (fun h => v21 (ix1 h)) h := by
  have he : ∑ k : Fin 4, extraBlk (offs v5 v7) (dnCol (dsqCol (offs v5 v7))) (ix3 i j k) * v20 (ix2 k h)
      = ∑ k : Fin 4, Spec.extra (fun k => v5 (ix2 i k)) (fun k => v7 (ix2 j k)) k * v20 (ix2 k h) :=
    Finset.sum_congr rfl fun k _ => by rw [extra_apply]
  rw [pay13_eq, preAct_apply, prodI_apply, prodJ_apply, prodE_apply, he, pay14_apply]
  rfl

end Cert.KerSide

end
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.LibVecRows.lean ====
/-
  A vector laid along every row of a block, in a vector program's spelling.

  A vector program sends a vector v : [N] to an [n, N] block in two steps: a shape cast that adds a leading unit
  axis, [N] → [1, N], then a broadcast that copies that one row down the n rows. The shape cast keeps the row-major
  position, so (0, j) reads v j; the broadcast reads row 0 whatever the row asked for. Entry (r, j) of the result is
  therefore v j, for any extents.
-/
import Idealize.ShloMosaic.Lib.ValueIdx
import Idealize.ShloMosaic.Lib.Pipeline.Value

noncomputable section

namespace Idealize.ShloMosaic.VecRows

open Idealize.ShloMosaic Idealize.ShloMosaic.ValueIdx

variable {α : Type}

/-- A vector viewed as a one-row matrix: entry (0, j) is the vector's entry j. -/
theorem castRow_apply {N : Nat} (h : (⟨1, ![N]⟩ : Shape).ShapeCasts ⟨2, ![1, N]⟩)
    (v : (⟨1, ![N]⟩ : Shape).Idx → α) (j : Fin N) :
    shapeCast (⟨2, ![1, N]⟩ : Shape) v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- A one-row matrix copied down n rows: entry (r, j) is the row's entry j. -/
theorem spreadRow_apply {n N : Nat} (h : (⟨2, ![1, N]⟩ : Shape).Broadcasts ⟨2, ![n, N]⟩)
    (w : (⟨2, ![1, N]⟩ : Shape).Idx → α) (r : Fin n) (j : Fin N) :
    broadcastTo (⟨2, ![n, N]⟩ : Shape) w h (ix2 r j) = w (ix2 (0 : Fin 1) j) := by
  refine broadcastTo_apply w h (ix2 r j) (ix2 (0 : Fin 1) j) (fun a => ?_)
  match a with
  | ⟨0, _⟩ =>
    show 0 = if (1 : Nat) = 1 then 0 else r.val
    rw [if_pos rfl]
  | ⟨1, _⟩ =>
    show j.val = if N = 1 then 0 else j.val
    split_ifs with hN
    · have := j.isLt; omega
    · rfl

/-- The two steps together: a vector cast to one row and copied down n rows reads v j at (r, j). -/
theorem rows_apply {n N : Nat} (h1 : (⟨1, ![N]⟩ : Shape).ShapeCasts ⟨2, ![1, N]⟩)
    (h2 : (⟨2, ![1, N]⟩ : Shape).Broadcasts ⟨2, ![n, N]⟩) (v : (⟨1, ![N]⟩ : Shape).Idx → α) (r : Fin n) (j : Fin N) :
    broadcastTo (⟨2, ![n, N]⟩ : Shape) (shapeCast (⟨2, ![1, N]⟩ : Shape) v h1) h2 (ix2 r j) = v (ix1 j) :=
  (spreadRow_apply h2 _ r j).trans (castRow_apply h1 v j)

end Idealize.ShloMosaic.VecRows

end
-- ==== Proof.KerLayer2.lean ====
/-
  The second layer and the mask product of the pairwise encoder, read at an entry.

  The mask product of the pair (i, j) is the one entry of row i of the first mask block times the one entry of row j of
  the second: the program lays the two one-column blocks flat, stands the first up as a column and the second as a row,
  spreads both over the 32 × 64 pairs and multiplies. The second layer multiplies the rectified hidden rows, one row
  64·i + j per pair, by W2 into a zero accumulator, adds the bias and multiplies by the mask product.
-/
import proofs.«103889_j65412351918170_1_alg».proof.Proof.KerStages
import proofs.«103889_j65412351918170_1_alg».proof.Proof.KerLayout
import proofs.«103889_j65412351918170_1_alg».proof.Proof.KerDots
import proofs.«103889_j65412351918170_1_alg».proof.Proof.LibFlattenRows
import proofs.«103889_j65412351918170_1_alg».proof.Proof.LibColumnForms
import proofs.«103889_j65412351918170_1_alg».proof.Proof.LibVecRows

noncomputable section

open scoped BigOperators

namespace Cert.KerSide

open Idealize.ShloMosaic Idealize.ShloMosaic.ValueIdx Cert.KernelIdeal Cert.KernelIdeal.Gen

/-- The mask product at the pair (i, j): the mask of row i times the mask of row j. -/
theorem pay15_apply (v9 : FVec Ideal S32x1 .f32) (v11 : FVec Ideal S64x1 .f32) (i : Fin 32) (j : Fin 64) :
    k0_pay15 (F := Ideal) v9 v11 (ix2 i j) = v9 (ix2 i (0 : Fin 1)) * v11 (ix2 j (0 : Fin 1)) := by
  unfold k0_pay15
  try dsimp only
  refine (mulf_apply _ _ _).trans ?_
  refine congrArg₂ (· * ·) ?_ ?_
  · refine (ColumnForms.broadcastTo_a1_ab_apply _ _ i j).trans ?_
    refine (ColumnForms.shapeCast_a_a1_apply _ _ i).trans ?_
    exact Layout.shapeCast_a1_a_apply _ _ i
  · refine (VecRows.spreadRow_apply _ _ i j).trans ?_
    refine (VecRows.castRow_apply _ _ j).trans ?_
    exact Layout.shapeCast_a1_a_apply _ _ j

/-- The hidden rows times W2, at (i, j, d): the pair is row 64·i + j of the flattened operand and product. -/
theorem prodH_apply (v74 : FVec Ideal S32x64x256 .bf16) (v23 : FVec Ideal S256x128 .bf16) (i : Fin 32) (j : Fin 64) (d : Fin 128) :
    prodH v74 v23 (ix3 i j d) = ∑ h : Fin 256, v74 (ix3 i j h) * v23 (ix2 h d) := by
  unfold prodH
  try dsimp only
  refine (FlattenRows.unflatten_apply _ _ i j d (⟨i.val * 64 + j.val, by have := i.isLt; have := j.isLt; omega⟩ : Fin 2048) rfl).trans ?_
  refine (DenseVec.matmul_zero_ix2 plain_layer2 none _ v23 _ d).trans ?_
  refine Finset.sum_congr rfl fun h _ => congrArg (· * v23 (ix2 h d)) ?_
  exact FlattenRows.flatten_apply _ _ _ h i j rfl

/-- The product plus the bias, times the pair's mask product, at (i, j, d). -/
theorem feats_apply (v77 : FVec Ideal S32x64x128 .f32) (v24 : Vec Ideal S128 .f32) (m : FVec Ideal S32x64 .f32)
    (i : Fin 32) (j : Fin 64) (d : Fin 128) :
    feats v77 v24 m (ix3 i j d) = (v77 (ix3 i j d) + v24 (ix1 d)) * m (ix2 i j) := by
  unfold feats
  try dsimp only
  refine (mulf_apply _ _ _).trans ?_
  refine congrArg₂ (· * ·) ?_ ?_
  · refine (addf_apply _ _ _).trans ?_
    refine congrArg (v77 (ix3 i j d) + ·) ?_
    exact (Layout.broadcastTo_11c_abc_apply _ _ i j d).trans (Layout.shapeCast_c_11c_apply _ _ (0 : Fin 1) (0 : Fin 1) d)
  · exact (Layout.broadcastTo_ab1_abc_apply _ _ i j d).trans (Layout.shapeCast_ab_ab1_apply _ _ i j (0 : Fin 1))

/-- The pair features at (i, j, d), from the first layer's block and the zero block. -/
theorem pay16_apply (v9 : FVec Ideal S32x1 .f32) (v11 : FVec Ideal S64x1 .f32) (v23 : FVec Ideal S256x128 .bf16) (v24 : Vec Ideal S128 .f32)
    (v71 v72 : FVec Ideal S32x64x256 .f32) (i : Fin 32) (j : Fin 64) (d : Fin 128) :
    k0_pay16 (F := Ideal) v9 v11 v23 v24 v71 v72 (ix3 i j d)
      = ((∑ h : Fin 256, max (v71 (ix3 i j h)) (v72 (ix3 i j h)) * v23 (ix2 h d)) + v24 (ix1 d))
          * (v9 (ix2 i (0 : Fin 1)) * v11 (ix2 j (0 : Fin 1))) := by
  rw [pay16_eq, feats_apply, prodH_apply, pay15_apply]
  rfl

end Cert.KerSide

end
-- ==== Proof.KerHeads.lean ====
/-
  The two heads of the pairwise encoder, read at an entry.

  Both heads multiply the feature rows, one row 64·i + j per pair, by the head's matrix into a zero accumulator. The
  interaction-type head adds its bias; the causal head has one column, adds the one entry of its bias, takes the
  logistic and multiplies by the pair's mask product. The results are stored under a leading unit axis.
-/
import proofs.«103889_j65412351918170_1_alg».proof.Proof.KerStages
import proofs.«103889_j65412351918170_1_alg».proof.Proof.KerLayout
import proofs.«103889_j65412351918170_1_alg».proof.Proof.KerDots
import proofs.«103889_j65412351918170_1_alg».proof.Proof.LibFlattenRows
import Idealize.ShloMosaic.Lib.ValueLayout

noncomputable section

open scoped BigOperators

namespace Cert.KerSide

open Idealize.ShloMosaic Idealize.ShloMosaic.ValueIdx Cert.KernelIdeal Cert.KernelIdeal.Gen

/-- Row 64·i + j of the 2048 flattened rows. -/
def pairRow (i : Fin 32) (j : Fin 64) : Fin 2048 := ⟨i.val * 64 + j.val, by have := i.isLt; have := j.isLt; omega⟩

/-- The feature rows the heads read: row 64·i + j is the pair (i, j)'s feature row. -/
theorem pay17_apply (v9 : FVec Ideal S32x1 .f32) (v11 : FVec Ideal S64x1 .f32) (v23 : FVec Ideal S256x128 .bf16) (v24 : Vec Ideal S128 .f32)
    (v71 v72 : FVec Ideal S32x64x256 .f32) (i : Fin 32) (j : Fin 64) (d : Fin 128) :
    k0_pay17 (F := Ideal) v9 v11 v23 v24 v71 v72 (ix2 (pairRow i j) d) = k0_pay16 (F := Ideal) v9 v11 v23 v24 v71 v72 (ix3 i j d) := by
  unfold k0_pay17
  try dsimp only
  exact FlattenRows.flatten_apply _ _ (pairRow i j) d i j rfl

/-- The stored feature block at (0, i, j, d) is the pair's feature d. -/
theorem pay18_apply (v9 : FVec Ideal S32x1 .f32) (v11 : FVec Ideal S64x1 .f32) (v23 : FVec Ideal S256x128 .bf16) (v24 : Vec Ideal S128 .f32)
    (v71 v72 : FVec Ideal S32x64x256 .f32) (i : Fin 32) (j : Fin 64) (d : Fin 128) :
    k0_pay18 (F := Ideal) v9 v11 v23 v24 v71 v72 (ix4 (0 : Fin 1) i j d) = k0_pay16 (F := Ideal) v9 v11 v23 v24 v71 v72 (ix3 i j d) := by
  unfold k0_pay18
  try dsimp only
  exact shapeCast_abc_1abc_apply _ _ (0 : Fin 1) i j d

/-- The interaction-type logits at (0, i, j, k): the pair's feature row times column k of the head, plus the bias. -/
theorem headT_apply (f : FVec Ideal S2048x128 .bf16) (v26 : FVec Ideal S128x8 .bf16) (v27 : Vec Ideal S8 .f32)
    (i : Fin 32) (j : Fin 64) (k : Fin 8) :
    headT f v26 v27 (ix4 (0 : Fin 1) i j k) = (∑ d : Fin 128, f (ix2 (pairRow i j) d) * v26 (ix2 d k)) + v27 (ix1 k) := by
  unfold headT
  try dsimp only
  refine (shapeCast_abc_1abc_apply _ _ (0 : Fin 1) i j k).trans ?_
  refine (addf_apply _ _ _).trans ?_
  refine congrArg₂ (· + ·) ?_ ?_
  · refine (FlattenRows.unflatten_apply _ _ i j k (pairRow i j) rfl).trans ?_
    exact DenseVec.matmul_zero_ix2 plain_itype none f v26 (pairRow i j) k
  · exact (Layout.broadcastTo_11c_abc_apply _ _ i j k).trans (Layout.shapeCast_c_11c_apply _ _ (0 : Fin 1) (0 : Fin 1) k)

/-- The causal score at (0, i, j): the logistic of the pair's feature row times the head's column plus the bias's one
    entry, times the pair's mask product. -/
theorem headC_apply (f : FVec Ideal S2048x128 .bf16) (v29 : FVec Ideal S128x1 .bf16) (v30 : Vec Ideal S1 .f32) (m : FVec Ideal S32x64 .f32)
    (i : Fin 32) (j : Fin 64) :
    headC f v29 v30 m (ix3 (0 : Fin 1) i j)
      = Ideal.logistic ((∑ d : Fin 128, f (ix2 (pairRow i j) d) * v29 (ix2 d (0 : Fin 1))) + v30 (ix1 (0 : Fin 1))) * m (ix2 i j) := by
  unfold headC
  try dsimp only
  refine (shapeCast_ab_1ab_apply _ _ (0 : Fin 1) i j).trans ?_
  refine (mulf_apply _ _ _).trans ?_
  refine congrArg (· * m (ix2 i j)) ?_
  refine congrArg Ideal.logistic ?_
  refine (addf_apply _ _ _).trans ?_
  refine congrArg₂ (· + ·) ?_ ?_
  · refine (Layout.shapeCast_ab1_ab_apply _ _ i j).trans ?_
    refine (FlattenRows.unflatten_apply _ _ i j (0 : Fin 1) (pairRow i j) rfl).trans ?_
    exact DenseVec.matmul_zero_ix2 plain_causal none f v29 (pairRow i j) (0 : Fin 1)
  · exact congrArg v30 (funext fun a => match a with | ⟨0, _⟩ => rfl)

end Cert.KerSide

end
-- ==== Proof.KerSide.lean ====
/-
  The three blocks the pairwise encoder stores, each read at an entry as the specification's function of the loaded blocks.

  The body loads the rows i of slots, positions and mask (32 of them), all 64 rows j of the same three, the three row
  pieces of W1 and the other weights, and stores the features, the interaction-type logits and the causal scores of the
  32 × 64 pairs. Dropping the blocks' leading unit axis and the changes of float format (the identity on the extended
  reals), the stored entry of the pair (i, j) is the specification's feature row of the two slot rows, the two position
  rows and the two mask entries, and its two heads.
-/
import proofs.«103889_j65412351918170_1_alg».proof.Proof.KerLayer1
import proofs.«103889_j65412351918170_1_alg».proof.Proof.KerLayer2
import proofs.«103889_j65412351918170_1_alg».proof.Proof.KerHeads

noncomputable section

open scoped BigOperators

namespace Cert.KerSide

open Idealize.ShloMosaic Idealize.ShloMosaic.ValueIdx Cert.KernelIdeal Cert.KernelIdeal.Gen

/-! ## The loaded blocks as the arithmetic reads them -/

/-- Block v0 without its leading unit axis: entry (p, q) is the block's entry (0, p, q). -/
theorem pay1_apply (v0 : Vec Ideal S1x32x256 .f32) (p : Fin 32) (q : Fin 256) :
    k0_pay1 (F := Ideal) v0 (ix2 p q) = v0 (ix3 (0 : Fin 1) p q) := by
  unfold k0_pay1
  exact shapeCast_1ab_ab_apply v0 _ p q

/-- Block v2 without its leading unit axis: entry (p, q) is the block's entry (0, p, q). -/
theorem pay2_apply (v2 : Vec Ideal S1x64x256 .f32) (p : Fin 64) (q : Fin 256) :
    k0_pay2 (F := Ideal) v2 (ix2 p q) = v2 (ix3 (0 : Fin 1) p q) := by
  unfold k0_pay2
  exact shapeCast_1ab_ab_apply v2 _ p q

/-- Block v4 without its leading unit axis: entry (p, q) is the block's entry (0, p, q). -/
theorem pay3_apply (v4 : Vec Ideal S1x32x4 .f32) (p : Fin 32) (q : Fin 4) :
    k0_pay3 (F := Ideal) v4 (ix2 p q) = v4 (ix3 (0 : Fin 1) p q) := by
  unfold k0_pay3
  exact shapeCast_1ab_ab_apply v4 _ p q

/-- Block v6 without its leading unit axis: entry (p, q) is the block's entry (0, p, q). -/
theorem pay4_apply (v6 : Vec Ideal S1x64x4 .f32) (p : Fin 64) (q : Fin 4) :
    k0_pay4 (F := Ideal) v6 (ix2 p q) = v6 (ix3 (0 : Fin 1) p q) := by
  unfold k0_pay4
  exact shapeCast_1ab_ab_apply v6 _ p q

/-- Block v8 without its leading unit axis: entry (p, q) is the block's entry (0, p, q). -/
theorem pay5_apply (v8 : Vec Ideal S1x32x1 .f32) (p : Fin 32) (q : Fin 1) :
    k0_pay5 (F := Ideal) v8 (ix2 p q) = v8 (ix3 (0 : Fin 1) p q) := by
  unfold k0_pay5
  exact shapeCast_1ab_ab_apply v8 _ p q

/-- Block v10 without its leading unit axis: entry (p, q) is the block's entry (0, p, q). -/
theorem pay6_apply (v10 : Vec Ideal S1x64x1 .f32) (p : Fin 64) (q : Fin 1) :
    k0_pay6 (F := Ideal) v10 (ix2 p q) = v10 (ix3 (0 : Fin 1) p q) := by
  unfold k0_pay6
  exact shapeCast_1ab_ab_apply v10 _ p q

/-- Block v12 re-read at its own shape and in the narrower format: the same numbers on the extended reals. -/
theorem pay7_apply (v12 : Vec Ideal S256x256 .f32) (x : S256x256.Idx) : k0_pay7 (F := Ideal) v12 x = v12 x := by
  unfold k0_pay7
  exact congrFun (shapeCast_self v12 _) x

/-- Block v15 re-read at its own shape and in the narrower format: the same numbers on the extended reals. -/
theorem pay8_apply (v15 : Vec Ideal S256x256 .f32) (x : S256x256.Idx) : k0_pay8 (F := Ideal) v15 x = v15 x := by
  unfold k0_pay8
  exact congrFun (shapeCast_self v15 _) x

/-- Block v18 re-read at its own shape and in the narrower format: the same numbers on the extended reals. -/
theorem pay9_apply (v18 : Vec Ideal S4x256 .f32) (x : S4x256.Idx) : k0_pay9 (F := Ideal) v18 x = v18 x := by
  unfold k0_pay9
  exact congrFun (shapeCast_self v18 _) x

/-- Block v22 in the narrower format: the same numbers on the extended reals. -/
theorem pay10_apply (v22 : Vec Ideal S256x128 .f32) (x : S256x128.Idx) : k0_pay10 (F := Ideal) v22 x = v22 x := rfl

/-- Block v25 in the narrower format: the same numbers on the extended reals. -/
theorem pay11_apply (v25 : Vec Ideal S128x8 .f32) (x : S128x8.Idx) : k0_pay11 (F := Ideal) v25 x = v25 x := rfl

/-- Block v28 in the narrower format: the same numbers on the extended reals. -/
theorem pay12_apply (v28 : Vec Ideal S128x1 .f32) (x : S128x1.Idx) : k0_pay12 (F := Ideal) v28 x = v28 x := rfl

/-! ## The feature row of a pair -/

/-- The pair (i, j)'s feature row as the specification's function of the loaded blocks: the hidden row of slot rows i and
    j, of the extra features of position rows i and j and of the three pieces of W1 with the bias, through the second
    layer and the product of the two mask entries. -/
def featRow (v0 : Vec Ideal S1x32x256 .f32) (v2 : Vec Ideal S1x64x256 .f32) (v4 : Vec Ideal S1x32x4 .f32) (v6 : Vec Ideal S1x64x4 .f32)
    (v8 : Vec Ideal S1x32x1 .f32) (v10 : Vec Ideal S1x64x1 .f32) (v12 v15 : Vec Ideal S256x256 .f32) (v18 : Vec Ideal S4x256 .f32)
    (v21 : Vec Ideal S256 .f32) (v22 : Vec Ideal S256x128 .f32) (v24 : Vec Ideal S128 .f32) (i : Fin 32) (j : Fin 64) : Fin 128 → EReal :=
  Spec.feat
    (Spec.hid (fun k => v0 (ix3 (0 : Fin 1) i k)) (fun k => v2 (ix3 (0 : Fin 1) j k))
      (Spec.extra (fun k => v4 (ix3 (0 : Fin 1) i k)) (fun k => v6 (ix3 (0 : Fin 1) j k)))
      (fun k h => v12 (ix2 k h)) (fun k h => v15 (ix2 k h)) (fun k h => v18 (ix2 k h)) (fun h => v21 (ix1 h)))
    (fun h d => v22 (ix2 h d)) (fun d => v24 (ix1 d)) (v8 (ix3 (0 : Fin 1) i (0 : Fin 1))) (v10 (ix3 (0 : Fin 1) j (0 : Fin 1)))

/-- The pair features at (i, j, d) over the blocks the arithmetic reads: the specification's feature d. -/
theorem feat_apply (v1 : FVec Ideal S32x256 .f32) (v3 : FVec Ideal S64x256 .f32) (v5 : FVec Ideal S32x4 .f32) (v7 : FVec Ideal S64x4 .f32)
    (v9 : FVec Ideal S32x1 .f32) (v11 : FVec Ideal S64x1 .f32) (v14 v17 : FVec Ideal S256x256 .bf16) (v20 : FVec Ideal S4x256 .bf16)
    (v21 : Vec Ideal S256 .f32) (v23 : FVec Ideal S256x128 .bf16) (v24 : Vec Ideal S128 .f32) (i : Fin 32) (j : Fin 64) (d : Fin 128) :
    k0_pay16 (F := Ideal) v9 v11 v23 v24 (k0_pay13 v1 v3 v5 v7 v14 v17 v20 v21) k0_pay14 (ix3 i j d)
      = Spec.feat
          (Spec.hid (fun k => v1 (ix2 i k)) (fun k => v3 (ix2 j k)) (Spec.extra (fun k => v5 (ix2 i k)) (fun k => v7 (ix2 j k)))
            (fun k h => v14 (ix2 k h)) (fun k h => v17 (ix2 k h)) (fun k h => v20 (ix2 k h)) (fun h => v21 (ix1 h)))
          (fun h d => v23 (ix2 h d)) (fun d => v24 (ix1 d)) (v9 (ix2 i (0 : Fin 1))) (v11 (ix2 j (0 : Fin 1))) d := by
  have hs : ∑ h : Fin 256, max (k0_pay13 (F := Ideal) v1 v3 v5 v7 v14 v17 v20 v21 (ix3 i j h)) (k0_pay14 (F := Ideal) (ix3 i j h)) * v23 (ix2 h d)
      = ∑ h : Fin 256, Spec.hid (fun k => v1 (ix2 i k)) (fun k => v3 (ix2 j k)) (Spec.extra (fun k => v5 (ix2 i k)) (fun k => v7 (ix2 j k)))
          (fun k h => v14 (ix2 k h)) (fun k h => v17 (ix2 k h)) (fun k h => v20 (ix2 k h)) (fun h => v21 (ix1 h)) h * v23 (ix2 h d) :=
    Finset.sum_congr rfl fun h _ => by rw [hid_apply]
  rw [pay16_apply, hs]
  rfl

/-- The same over the loaded blocks: the pair's feature row. -/
theorem pay16_featRow (v0 : Vec Ideal S1x32x256 .f32) (v2 : Vec Ideal S1x64x256 .f32) (v4 : Vec Ideal S1x32x4 .f32) (v6 : Vec Ideal S1x64x4 .f32)
    (v8 : Vec Ideal S1x32x1 .f32) (v10 : Vec Ideal S1x64x1 .f32) (v12 v15 : Vec Ideal S256x256 .f32) (v18 : Vec Ideal S4x256 .f32)
    (v21 : Vec Ideal S256 .f32) (v22 : Vec Ideal S256x128 .f32) (v24 : Vec Ideal S128 .f32) (i : Fin 32) (j : Fin 64) (d : Fin 128) :
    k0_pay16 (F := Ideal) (k0_pay5 v8) (k0_pay6 v10) (k0_pay10 v22) v24 (k0_pay13 (k0_pay1 v0) (k0_pay2 v2) (k0_pay3 v4) (k0_pay4 v6) (k0_pay7 v12) (k0_pay8 v15) (k0_pay9 v18) v21) k0_pay14 (ix3 i j d)
      = featRow v0 v2 v4 v6 v8 v10 v12 v15 v18 v21 v22 v24 i j d := by
  rw [feat_apply]
  unfold featRow
  simp only [pay1_apply, pay2_apply, pay3_apply, pay4_apply, pay5_apply, pay6_apply, pay7_apply, pay8_apply, pay9_apply, pay10_apply]

/-! ## The three stored blocks -/

/-- The stored feature block at (0, i, j, d) is feature d of the pair (i, j). -/
theorem stored_feat (v0 : Vec Ideal S1x32x256 .f32) (v2 : Vec Ideal S1x64x256 .f32) (v4 : Vec Ideal S1x32x4 .f32) (v6 : Vec Ideal S1x64x4 .f32)
    (v8 : Vec Ideal S1x32x1 .f32) (v10 : Vec Ideal S1x64x1 .f32) (v12 v15 : Vec Ideal S256x256 .f32) (v18 : Vec Ideal S4x256 .f32)
    (v21 : Vec Ideal S256 .f32) (v22 : Vec Ideal S256x128 .f32) (v24 : Vec Ideal S128 .f32) (i : Fin 32) (j : Fin 64) (d : Fin 128) :
    k0_pay18 (F := Ideal) (k0_pay5 v8) (k0_pay6 v10) (k0_pay10 v22) v24 (k0_pay13 (k0_pay1 v0) (k0_pay2 v2) (k0_pay3 v4) (k0_pay4 v6) (k0_pay7 v12) (k0_pay8 v15) (k0_pay9 v18) v21) k0_pay14 (ix4 (0 : Fin 1) i j d)
      = featRow v0 v2 v4 v6 v8 v10 v12 v15 v18 v21 v22 v24 i j d :=
  (pay18_apply _ _ _ _ _ _ i j d).trans (pay16_featRow v0 v2 v4 v6 v8 v10 v12 v15 v18 v21 v22 v24 i j d)

/-- The stored logits block at (0, i, j, k) is the interaction-type logit k of the pair's feature row. -/
theorem stored_itype (v0 : Vec Ideal S1x32x256 .f32) (v2 : Vec Ideal S1x64x256 .f32) (v4 : Vec Ideal S1x32x4 .f32) (v6 : Vec Ideal S1x64x4 .f32)
    (v8 : Vec Ideal S1x32x1 .f32) (v10 : Vec Ideal S1x64x1 .f32) (v12 v15 : Vec Ideal S256x256 .f32) (v18 : Vec Ideal S4x256 .f32)
    (v21 : Vec Ideal S256 .f32) (v22 : Vec Ideal S256x128 .f32) (v24 : Vec Ideal S128 .f32) (v25 : Vec Ideal S128x8 .f32) (v27 : Vec Ideal S8 .f32) (i : Fin 32) (j : Fin 64) (k : Fin 8) :
    k0_pay19 (F := Ideal) (k0_pay5 v8) (k0_pay6 v10) (k0_pay10 v22) v24 (k0_pay11 v25) v27 (k0_pay13 (k0_pay1 v0) (k0_pay2 v2) (k0_pay3 v4) (k0_pay4 v6) (k0_pay7 v12) (k0_pay8 v15) (k0_pay9 v18) v21) k0_pay14 (ix4 (0 : Fin 1) i j k)
      = Spec.itype (featRow v0 v2 v4 v6 v8 v10 v12 v15 v18 v21 v22 v24 i j) (fun d k => v25 (ix2 d k)) (fun k => v27 (ix1 k)) k := by
  rw [pay19_eq, headT_apply]
  unfold Spec.itype
  refine congrArg (· + v27 (ix1 k)) ?_
  refine Finset.sum_congr rfl fun d _ => ?_
  rw [pay17_apply, pay16_featRow]
  rfl

/-- The stored score block at (0, i, j) is the causal score of the pair's feature row and its two mask entries. -/
theorem stored_causal (v0 : Vec Ideal S1x32x256 .f32) (v2 : Vec Ideal S1x64x256 .f32) (v4 : Vec Ideal S1x32x4 .f32) (v6 : Vec Ideal S1x64x4 .f32)
    (v8 : Vec Ideal S1x32x1 .f32) (v10 : Vec Ideal S1x64x1 .f32) (v12 v15 : Vec Ideal S256x256 .f32) (v18 : Vec Ideal S4x256 .f32)
    (v21 : Vec Ideal S256 .f32) (v22 : Vec Ideal S256x128 .f32) (v24 : Vec Ideal S128 .f32) (v28 : Vec Ideal S128x1 .f32) (v30 : Vec Ideal S1 .f32) (i : Fin 32) (j : Fin 64) :
    k0_pay20 (F := Ideal) (k0_pay5 v8) (k0_pay6 v10) (k0_pay10 v22) v24 (k0_pay12 v28) v30 (k0_pay13 (k0_pay1 v0) (k0_pay2 v2) (k0_pay3 v4) (k0_pay4 v6) (k0_pay7 v12) (k0_pay8 v15) (k0_pay9 v18) v21) k0_pay14 (ix3 (0 : Fin 1) i j)
      = Spec.causal (featRow v0 v2 v4 v6 v8 v10 v12 v15 v18 v21 v22 v24 i j) (fun d => v28 (ix2 d (0 : Fin 1))) (v30 (ix1 (0 : Fin 1)))
          (v8 (ix3 (0 : Fin 1) i (0 : Fin 1))) (v10 (ix3 (0 : Fin 1) j (0 : Fin 1))) := by
  rw [pay20_eq, headC_apply, pay15_apply, pay5_apply, pay6_apply]
  unfold Spec.causal
  refine congrArg (fun s => Ideal.logistic (s + v30 (ix1 (0 : Fin 1))) * (v8 (ix3 (0 : Fin 1) i (0 : Fin 1)) * v10 (ix3 (0 : Fin 1) j (0 : Fin 1)))) ?_
  refine Finset.sum_congr rfl fun d _ => ?_
  rw [pay17_apply, pay16_featRow]
  rfl

end Cert.KerSide

end
-- ==== Proof.KIValue.lean ====
/-
  What the three result arrays hold after the run, at the ideal instance: entry by entry the pair features, the
  interaction-type logits and the causal scores of the specification, as functions of the argument arrays.

  The block a grid point (b, s) writes back is rows 32·s … 32·s + 31 of batch element b of the result. Its entry
  (p, q, ·) is computed from row p of the point's slot, position and mask blocks — rows 32·s + p of b in the arrays —,
  row q of the all-rows blocks, and the weight blocks, which are the whole weight arrays (W1's three row pieces being
  rows k, 256 + k and 512 + k of W1). The 64 points' blocks tile each result array.
-/
import proofs.«103889_j65412351918170_1_alg».proof.Proof.KIHost
import proofs.«103889_j65412351918170_1_alg».proof.Proof.KerSide
import proofs.«103889_j65412351918170_1_alg».proof.Proof.Spec

set_option maxRecDepth 16384

noncomputable section

namespace Cert.KernelIdeal.Vals

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The result arrays of the specification, of this program's argument arrays -/

def G16 (c : Dev nD) : S32x64x64x128.Idx → EReal := Cert.Spec.featsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def G17 (c : Dev nD) : S32x64x64x8.Idx → EReal := Cert.Spec.itypesArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def G18 (c : Dev nD) : S32x64x64.Idx → EReal := Cert.Spec.causalArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))

/-! ## Each input block's entry is an entry of its argument array -/

theorem blk0_at (c : Dev nD) (t : Fin cfg0.N) (p : Fin 32) (k : Fin 256) (B : Fin 32) (R : Fin 64) (hB : B.val = win0_16.index t (0 : Fin 4)) (hR : R.val = win0_16.index t (1 : Fin 4) * 32 + p.val) :
    iblk m c 0 t (ix3 (0 : Fin 1) p k) = (m ((c : Thread nD τ).loc main_arg0)) (ix3 B R k) := by
  show V m c main_arg0 (((cfg0.win 0).blk t).view.emb (ix3 (0 : Fin 1) p k)) = _
  rw [emb0 t p k B R hB hR, V_main_arg0]
theorem blk1_at (c : Dev nD) (t : Fin cfg0.N) (p : Fin 64) (k : Fin 256) (B : Fin 32) (hB : B.val = win0_16.index t (0 : Fin 4)) :
    iblk m c 1 t (ix3 (0 : Fin 1) p k) = (m ((c : Thread nD τ).loc main_arg0)) (ix3 B p k) := by
  show V m c main_arg0 (((cfg0.win 1).blk t).view.emb (ix3 (0 : Fin 1) p k)) = _
  rw [emb1 t p k B hB, V_main_arg0]
theorem blk2_at (c : Dev nD) (t : Fin cfg0.N) (p : Fin 32) (k : Fin 4) (B : Fin 32) (R : Fin 64) (hB : B.val = win0_16.index t (0 : Fin 4)) (hR : R.val = win0_16.index t (1 : Fin 4) * 32 + p.val) :
    iblk m c 2 t (ix3 (0 : Fin 1) p k) = (m ((c : Thread nD τ).loc main_arg1)) (ix3 B R k) := by
  show V m c main_arg1 (((cfg0.win 2).blk t).view.emb (ix3 (0 : Fin 1) p k)) = _
  rw [emb2 t p k B R hB hR, V_main_arg1]
theorem blk3_at (c : Dev nD) (t : Fin cfg0.N) (p : Fin 64) (k : Fin 4) (B : Fin 32) (hB : B.val = win0_16.index t (0 : Fin 4)) :
    iblk m c 3 t (ix3 (0 : Fin 1) p k) = (m ((c : Thread nD τ).loc main_arg1)) (ix3 B p k) := by
  show V m c main_arg1 (((cfg0.win 3).blk t).view.emb (ix3 (0 : Fin 1) p k)) = _
  rw [emb3 t p k B hB, V_main_arg1]
theorem blk4_at (c : Dev nD) (t : Fin cfg0.N) (p : Fin 32) (B : Fin 32) (R : Fin 64) (hB : B.val = win0_16.index t (0 : Fin 4)) (hR : R.val = win0_16.index t (1 : Fin 4) * 32 + p.val) :
    iblk m c 4 t (ix3 (0 : Fin 1) p (0 : Fin 1)) = (m ((c : Thread nD τ).loc main_arg2)) (ix2 B R) := by
  show V m c main_v3 (((cfg0.win 4).blk t).view.emb (ix3 (0 : Fin 1) p (0 : Fin 1))) = _
  rw [emb4 t p (0 : Fin 1) B R hB hR, V_main_v3_apply]
theorem blk5_at (c : Dev nD) (t : Fin cfg0.N) (p : Fin 64) (B : Fin 32) (hB : B.val = win0_16.index t (0 : Fin 4)) :
    iblk m c 5 t (ix3 (0 : Fin 1) p (0 : Fin 1)) = (m ((c : Thread nD τ).loc main_arg2)) (ix2 B p) := by
  show V m c main_v3 (((cfg0.win 5).blk t).view.emb (ix3 (0 : Fin 1) p (0 : Fin 1))) = _
  rw [emb5 t p (0 : Fin 1) B hB, V_main_v3_apply]
theorem blk6_at (c : Dev nD) (t : Fin cfg0.N) (k h : Fin 256) : iblk m c 6 t (ix2 k h) = Cert.Spec.Wa (m ((c : Thread nD τ).loc main_arg3)) k h := by
  show V m c main_v0 (((cfg0.win 6).blk t).view.emb (ix2 k h)) = _
  rw [emb6 t k h, V_main_v0_apply]; rfl
theorem blk7_at (c : Dev nD) (t : Fin cfg0.N) (k h : Fin 256) : iblk m c 7 t (ix2 k h) = Cert.Spec.Wb (m ((c : Thread nD τ).loc main_arg3)) k h := by
  show V m c main_v1 (((cfg0.win 7).blk t).view.emb (ix2 k h)) = _
  rw [emb7 t k h, V_main_v1_apply]; rfl
theorem blk8_at (c : Dev nD) (t : Fin cfg0.N) (k : Fin 4) (h : Fin 256) : iblk m c 8 t (ix2 k h) = Cert.Spec.Wc (m ((c : Thread nD τ).loc main_arg3)) k h := by
  show V m c main_v2 (((cfg0.win 8).blk t).view.emb (ix2 k h)) = _
  rw [emb8 t k h, V_main_v2_apply]; rfl
theorem blk9_at (c : Dev nD) (t : Fin cfg0.N) (h : Fin 256) : iblk m c 9 t (ix1 h) = (m ((c : Thread nD τ).loc main_arg4)) (ix1 h) := by
  show V m c main_arg4 (((cfg0.win 9).blk t).view.emb (ix1 h)) = _
  rw [emb9 t h, V_main_arg4]
theorem blk10_at (c : Dev nD) (t : Fin cfg0.N) (h : Fin 256) (d : Fin 128) : iblk m c 10 t (ix2 h d) = (m ((c : Thread nD τ).loc main_arg5)) (ix2 h d) := by
  show V m c main_arg5 (((cfg0.win 10).blk t).view.emb (ix2 h d)) = _
  rw [emb10 t h d, V_main_arg5]
theorem blk11_at (c : Dev nD) (t : Fin cfg0.N) (d : Fin 128) : iblk m c 11 t (ix1 d) = (m ((c : Thread nD τ).loc main_arg6)) (ix1 d) := by
  show V m c main_arg6 (((cfg0.win 11).blk t).view.emb (ix1 d)) = _
  rw [emb11 t d, V_main_arg6]
theorem blk12_at (c : Dev nD) (t : Fin cfg0.N) (d : Fin 128) (k : Fin 8) : iblk m c 12 t (ix2 d k) = (m ((c : Thread nD τ).loc main_arg7)) (ix2 d k) := by
  show V m c main_arg7 (((cfg0.win 12).blk t).view.emb (ix2 d k)) = _
  rw [emb12 t d k, V_main_arg7]
theorem blk13_at (c : Dev nD) (t : Fin cfg0.N) (k : Fin 8) : iblk m c 13 t (ix1 k) = (m ((c : Thread nD τ).loc main_arg8)) (ix1 k) := by
  show V m c main_arg8 (((cfg0.win 13).blk t).view.emb (ix1 k)) = _
  rw [emb13 t k, V_main_arg8]
theorem blk14_at (c : Dev nD) (t : Fin cfg0.N) (d : Fin 128) (k : Fin 1) : iblk m c 14 t (ix2 d k) = (m ((c : Thread nD τ).loc main_arg9)) (ix2 d k) := by
  show V m c main_arg9 (((cfg0.win 14).blk t).view.emb (ix2 d k)) = _
  rw [emb14 t d k, V_main_arg9]
theorem blk15_at (c : Dev nD) (t : Fin cfg0.N) (k : Fin 1) : iblk m c 15 t (ix1 k) = (m ((c : Thread nD τ).loc main_arg10)) (ix1 k) := by
  show V m c main_arg10 (((cfg0.win 15).blk t).view.emb (ix1 k)) = _
  rw [emb15 t k, V_main_arg10]

/-- The feature row the body computes at rows (p, q) of a point's blocks is the specification's feature row of the pair
    (32·s + p, q) of batch element b. -/
theorem featRow_eq (c : Dev nD) (t : Fin cfg0.N) (p : Fin 32) (q : Fin 64) (B : Fin 32) (R : Fin 64) (hB : B.val = win0_16.index t (0 : Fin 4)) (hR : R.val = win0_16.index t (1 : Fin 4) * 32 + p.val) :
    Cert.KerSide.featRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q = Cert.Spec.featAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) B R q := by
  unfold Cert.KerSide.featRow Cert.Spec.featAt Cert.Spec.hidAt
  simp only [blk0_at m c t p _ B R hB hR, blk1_at m c t q _ B hB, blk2_at m c t p _ B R hB hR, blk3_at m c t q _ B hB,
    blk4_at m c t p B R hB hR, blk5_at m c t q B hB, blk6_at m c t, blk7_at m c t, blk8_at m c t, blk9_at m c t, blk10_at m c t, blk11_at m c t]

/-! ## What each point writes back, and the tiling -/

theorem flushed16_eq (c : Dev nD) (t : Fin cfg0.N) :
    (dats m 0 c).flushed 16 t = ((cfg0.win 16).blk t).view.read (Elt Ideal) (G16 m c) := by
  show (cfg0.win 16).cut (grid0.coords t) ((dats m 0 c).after 16 t) = _
  rw [after0_16]
  unfold out16
  rw [View.canon_unit_zero hz4]
  simp only [View.ld_unit_zero (S := S1x32x256) hz3, View.ld_unit_zero (S := S1x64x256) hz3, View.ld_unit_zero (S := S1x32x4) hz3, View.ld_unit_zero (S := S1x64x4) hz3, View.ld_unit_zero (S := S1x32x1) hz3, View.ld_unit_zero (S := S1x64x1) hz3, View.ld_unit_zero (S := S256x256) hz2, View.ld_unit_zero (S := S4x256) hz2, View.ld_unit_zero (S := S256x128) hz2, View.ld_unit_zero (S := S128x8) hz2, View.ld_unit_zero (S := S128x1) hz2, View.ld_unit_zero (S := S256) hz1, View.ld_unit_zero (S := S128) hz1, View.ld_unit_zero (S := S8) hz1, View.ld_unit_zero (S := S1) hz1]
  funext y
  obtain ⟨z, p, q, d, rfl⟩ : ∃ (z : Fin 1) (p : Fin 32) (q : Fin 64) (d : Fin 128), y = ix4 z p q d := ⟨y 0, y 1, y 2, y 3, eq_ix4 y⟩
  obtain rfl : z = 0 := Subsingleton.elim _ _
  have ho := idx_out t
  have hR : win0_16.index t (1 : Fin 4) * 32 + p.val < 64 := by have := p.isLt; omega
  refine (Cert.KerSide.stored_feat (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q d).trans ?_
  rw [featRow_eq m c t p q ⟨win0_16.index t (0 : Fin 4), ho.1⟩ ⟨win0_16.index t (1 : Fin 4) * 32 + p.val, hR⟩ rfl rfl]
  show _ = G16 m c (((cfg0.win 16).blk t).view.emb (ix4 (0 : Fin 1) p q d))
  rw [emb16 t p q d ⟨win0_16.index t (0 : Fin 4), ho.1⟩ ⟨win0_16.index t (1 : Fin 4) * 32 + p.val, hR⟩ rfl rfl]
  rfl

theorem flushed17_eq (c : Dev nD) (t : Fin cfg0.N) :
    (dats m 0 c).flushed 17 t = ((cfg0.win 17).blk t).view.read (Elt Ideal) (G17 m c) := by
  show (cfg0.win 17).cut (grid0.coords t) ((dats m 0 c).after 17 t) = _
  rw [after0_17]
  unfold out17
  rw [View.canon_unit_zero hz4]
  simp only [View.ld_unit_zero (S := S1x32x256) hz3, View.ld_unit_zero (S := S1x64x256) hz3, View.ld_unit_zero (S := S1x32x4) hz3, View.ld_unit_zero (S := S1x64x4) hz3, View.ld_unit_zero (S := S1x32x1) hz3, View.ld_unit_zero (S := S1x64x1) hz3, View.ld_unit_zero (S := S256x256) hz2, View.ld_unit_zero (S := S4x256) hz2, View.ld_unit_zero (S := S256x128) hz2, View.ld_unit_zero (S := S128x8) hz2, View.ld_unit_zero (S := S128x1) hz2, View.ld_unit_zero (S := S256) hz1, View.ld_unit_zero (S := S128) hz1, View.ld_unit_zero (S := S8) hz1, View.ld_unit_zero (S := S1) hz1]
  funext y
  obtain ⟨z, p, q, k, rfl⟩ : ∃ (z : Fin 1) (p : Fin 32) (q : Fin 64) (k : Fin 8), y = ix4 z p q k := ⟨y 0, y 1, y 2, y 3, eq_ix4 y⟩
  obtain rfl : z = 0 := Subsingleton.elim _ _
  have ho := idx_out t
  have hR : win0_16.index t (1 : Fin 4) * 32 + p.val < 64 := by have := p.isLt; omega
  refine (Cert.KerSide.stored_itype (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q k).trans ?_
  rw [featRow_eq m c t p q ⟨win0_16.index t (0 : Fin 4), ho.1⟩ ⟨win0_16.index t (1 : Fin 4) * 32 + p.val, hR⟩ rfl rfl]
  simp only [blk12_at m c t, blk13_at m c t]
  show _ = G17 m c (((cfg0.win 17).blk t).view.emb (ix4 (0 : Fin 1) p q k))
  rw [emb17 t p q k ⟨win0_16.index t (0 : Fin 4), ho.1⟩ ⟨win0_16.index t (1 : Fin 4) * 32 + p.val, hR⟩ rfl rfl]
  rfl

theorem flushed18_eq (c : Dev nD) (t : Fin cfg0.N) :
    (dats m 0 c).flushed 18 t = ((cfg0.win 18).blk t).view.read (Elt Ideal) (G18 m c) := by
  show (cfg0.win 18).cut (grid0.coords t) ((dats m 0 c).after 18 t) = _
  rw [after0_18]
  unfold out18
  rw [View.canon_unit_zero hz3]
  simp only [View.ld_unit_zero (S := S1x32x256) hz3, View.ld_unit_zero (S := S1x64x256) hz3, View.ld_unit_zero (S := S1x32x4) hz3, View.ld_unit_zero (S := S1x64x4) hz3, View.ld_unit_zero (S := S1x32x1) hz3, View.ld_unit_zero (S := S1x64x1) hz3, View.ld_unit_zero (S := S256x256) hz2, View.ld_unit_zero (S := S4x256) hz2, View.ld_unit_zero (S := S256x128) hz2, View.ld_unit_zero (S := S128x8) hz2, View.ld_unit_zero (S := S128x1) hz2, View.ld_unit_zero (S := S256) hz1, View.ld_unit_zero (S := S128) hz1, View.ld_unit_zero (S := S8) hz1, View.ld_unit_zero (S := S1) hz1]
  funext y
  obtain ⟨z, p, q, rfl⟩ : ∃ (z : Fin 1) (p : Fin 32) (q : Fin 64), y = ix3 z p q := ⟨y 0, y 1, y 2, eq_ix3 y⟩
  obtain rfl : z = 0 := Subsingleton.elim _ _
  have ho := idx_out t
  have hR : win0_16.index t (1 : Fin 4) * 32 + p.val < 64 := by have := p.isLt; omega
  refine (Cert.KerSide.stored_causal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 14 t) (iblk m c 15 t) p q).trans ?_
  rw [featRow_eq m c t p q ⟨win0_16.index t (0 : Fin 4), ho.1⟩ ⟨win0_16.index t (1 : Fin 4) * 32 + p.val, hR⟩ rfl rfl,
    blk4_at m c t p ⟨win0_16.index t (0 : Fin 4), ho.1⟩ ⟨win0_16.index t (1 : Fin 4) * 32 + p.val, hR⟩ rfl rfl,
    blk5_at m c t q ⟨win0_16.index t (0 : Fin 4), ho.1⟩ rfl]
  simp only [blk14_at m c t, blk15_at m c t]
  show _ = G18 m c (((cfg0.win 18).blk t).view.emb (ix3 (0 : Fin 1) p q))
  rw [emb18 t p q ⟨win0_16.index t (0 : Fin 4), ho.1⟩ ⟨win0_16.index t (1 : Fin 4) * 32 + p.val, hR⟩ rfl rfl]
  rfl

end Cert.KernelIdeal.Vals

end
-- ==== Proof.KIFinal.lean ====
/-
  The 64 blocks the points write back tile each result array (the point (b, s) covers rows 32·s … 32·s + 31 of batch
  element b), so after the run each result array is the specification's array, and the argument arrays are unchanged.
-/
import proofs.«103889_j65412351918170_1_alg».proof.Proof.KIValue

set_option maxRecDepth 16384

noncomputable section

namespace Cert.KernelIdeal.Vals

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem mem_blk16 (t : Fin cfg0.N) (i : S32x64x64x128.Idx) :
    i ∈ ((cfg0.win 16).blk t).view.set ↔ ∀ a : Fin 4, win0_16.index t a * S1x32x64x128.size a ≤ (i a).val ∧ (i a).val < win0_16.index t a * S1x32x64x128.size a + S1x32x64x128.size a := by
  show i ∈ ((View.whole main_v4_0).slice (win0_16.rect t)).set ↔ _
  rw [View.set_slice_whole, Rect.mem_set_unit]
  exact Iff.rfl

/-- Every entry of the array is in some point's block: the point of its batch element and row half. -/
theorem covered16 (i : S32x64x64x128.Idx) : ∃ t : Fin cfg0.N, (cfg0.win 16).flush t = true ∧ i ∈ ((cfg0.win 16).blk t).view.set := by
  have hi0 : (i 0).val < 32 := (i 0).isLt
  have hi1 : (i 1).val < 64 := (i 1).isLt
  have hi2 : (i 2).val < 64 := (i 2).isLt
  have hi3 : (i 3).val < 128 := (i 3).isLt
  obtain ⟨t, ht0, ht1⟩ := idx_onto ⟨(i 0).val, hi0⟩ ⟨(i 1).val / 32, by omega⟩
  have ht0' : win0_16.index t (0 : Fin 4) = (i 0).val := ht0
  have ht1' : win0_16.index t (1 : Fin 4) = (i 1).val / 32 := ht1
  have ho := idx_out t
  refine ⟨t, flush0_16 t, ?_⟩
  rw [mem_blk16]
  intro a
  match a with
  | ⟨0, _⟩ => show win0_16.index t (0 : Fin 4) * 1 ≤ (i 0).val ∧ (i 0).val < win0_16.index t (0 : Fin 4) * 1 + 1; omega
  | ⟨1, _⟩ => show win0_16.index t (1 : Fin 4) * 32 ≤ (i 1).val ∧ (i 1).val < win0_16.index t (1 : Fin 4) * 32 + 32; omega
  | ⟨2, _⟩ => show win0_16.index t (2 : Fin 4) * 64 ≤ (i 2).val ∧ (i 2).val < win0_16.index t (2 : Fin 4) * 64 + 64; omega
  | ⟨3, _⟩ => show win0_16.index t (3 : Fin 4) * 128 ≤ (i 3).val ∧ (i 3).val < win0_16.index t (3 : Fin 4) * 128 + 128; omega

theorem final16 (c : Dev nD) : (dats m 0 c).arrAt 16 cfg0.N = G16 m c :=
  (dats m 0 c).arrAt_eq_of_cover 16 (G16 m c) (fun t _ => flushed16_eq m c t) (fun i => covered16 i)

theorem mem_blk17 (t : Fin cfg0.N) (i : S32x64x64x8.Idx) :
    i ∈ ((cfg0.win 17).blk t).view.set ↔ ∀ a : Fin 4, win0_17.index t a * S1x32x64x8.size a ≤ (i a).val ∧ (i a).val < win0_17.index t a * S1x32x64x8.size a + S1x32x64x8.size a := by
  show i ∈ ((View.whole main_v4_1).slice (win0_17.rect t)).set ↔ _
  rw [View.set_slice_whole, Rect.mem_set_unit]
  exact Iff.rfl

/-- Every entry of the array is in some point's block: the point of its batch element and row half. -/
theorem covered17 (i : S32x64x64x8.Idx) : ∃ t : Fin cfg0.N, (cfg0.win 17).flush t = true ∧ i ∈ ((cfg0.win 17).blk t).view.set := by
  have hi0 : (i 0).val < 32 := (i 0).isLt
  have hi1 : (i 1).val < 64 := (i 1).isLt
  have hi2 : (i 2).val < 64 := (i 2).isLt
  have hi3 : (i 3).val < 8 := (i 3).isLt
  obtain ⟨t, ht0, ht1⟩ := idx_onto ⟨(i 0).val, hi0⟩ ⟨(i 1).val / 32, by omega⟩
  have ht0' : win0_16.index t (0 : Fin 4) = (i 0).val := ht0
  have ht1' : win0_16.index t (1 : Fin 4) = (i 1).val / 32 := ht1
  have ho := idx_out t
  refine ⟨t, flush0_17 t, ?_⟩
  rw [mem_blk17]
  intro a
  match a with
  | ⟨0, _⟩ => show win0_17.index t (0 : Fin 4) * 1 ≤ (i 0).val ∧ (i 0).val < win0_17.index t (0 : Fin 4) * 1 + 1; omega
  | ⟨1, _⟩ => show win0_17.index t (1 : Fin 4) * 32 ≤ (i 1).val ∧ (i 1).val < win0_17.index t (1 : Fin 4) * 32 + 32; omega
  | ⟨2, _⟩ => show win0_17.index t (2 : Fin 4) * 64 ≤ (i 2).val ∧ (i 2).val < win0_17.index t (2 : Fin 4) * 64 + 64; omega
  | ⟨3, _⟩ => show win0_17.index t (3 : Fin 4) * 8 ≤ (i 3).val ∧ (i 3).val < win0_17.index t (3 : Fin 4) * 8 + 8; omega

theorem final17 (c : Dev nD) : (dats m 0 c).arrAt 17 cfg0.N = G17 m c :=
  (dats m 0 c).arrAt_eq_of_cover 17 (G17 m c) (fun t _ => flushed17_eq m c t) (fun i => covered17 i)

theorem mem_blk18 (t : Fin cfg0.N) (i : S32x64x64.Idx) :
    i ∈ ((cfg0.win 18).blk t).view.set ↔ ∀ a : Fin 3, win0_18.index t a * S1x32x64.size a ≤ (i a).val ∧ (i a).val < win0_18.index t a * S1x32x64.size a + S1x32x64.size a := by
  show i ∈ ((View.whole main_v4_2).slice (win0_18.rect t)).set ↔ _
  rw [View.set_slice_whole, Rect.mem_set_unit]
  exact Iff.rfl

/-- Every entry of the array is in some point's block: the point of its batch element and row half. -/
theorem covered18 (i : S32x64x64.Idx) : ∃ t : Fin cfg0.N, (cfg0.win 18).flush t = true ∧ i ∈ ((cfg0.win 18).blk t).view.set := by
  have hi0 : (i 0).val < 32 := (i 0).isLt
  have hi1 : (i 1).val < 64 := (i 1).isLt
  have hi2 : (i 2).val < 64 := (i 2).isLt
  obtain ⟨t, ht0, ht1⟩ := idx_onto ⟨(i 0).val, hi0⟩ ⟨(i 1).val / 32, by omega⟩
  have ht0' : win0_16.index t (0 : Fin 4) = (i 0).val := ht0
  have ht1' : win0_16.index t (1 : Fin 4) = (i 1).val / 32 := ht1
  have ho := idx_out t
  refine ⟨t, flush0_18 t, ?_⟩
  rw [mem_blk18]
  intro a
  match a with
  | ⟨0, _⟩ => show win0_18.index t (0 : Fin 3) * 1 ≤ (i 0).val ∧ (i 0).val < win0_18.index t (0 : Fin 3) * 1 + 1; omega
  | ⟨1, _⟩ => show win0_18.index t (1 : Fin 3) * 32 ≤ (i 1).val ∧ (i 1).val < win0_18.index t (1 : Fin 3) * 32 + 32; omega
  | ⟨2, _⟩ => show win0_18.index t (2 : Fin 3) * 64 ≤ (i 2).val ∧ (i 2).val < win0_18.index t (2 : Fin 3) * 64 + 64; omega

theorem final18 (c : Dev nD) : (dats m 0 c).arrAt 18 cfg0.N = G18 m c :=
  (dats m 0 c).arrAt_eq_of_cover 18 (G18 m c) (fun t _ => flushed18_eq m c t) (fun i => covered18 i)

/-- The run of the idealized kernel: the three results at the specification's arrays, the arguments unchanged. -/
theorem run : θ_run defs (onTc (τ := τ) (main (F := Ideal))) ⟨m, fun _ => 0, ρ⟩ fun r => ∀ c : Dev nD,
      r.2.mem ((c.tc : Thread nD τ).loc main_v4_0) = G16 m c
      ∧ r.2.mem ((c.tc : Thread nD τ).loc main_v4_1) = G17 m c
      ∧ r.2.mem ((c.tc : Thread nD τ).loc main_v4_2) = G18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1 16).trans (final16 m c), ((h c).1 17).trans (final17 m c), ((h c).1 18).trans (final18 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 9).trans (((dats m 0 c).arrAt_in 9 rfl _).trans ((A_eq m c 9).trans (V_main_arg4 m c))),
      ((h c).1 10).trans (((dats m 0 c).arrAt_in 10 rfl _).trans ((A_eq m c 10).trans (V_main_arg5 m c))),
      ((h c).1 11).trans (((dats m 0 c).arrAt_in 11 rfl _).trans ((A_eq m c 11).trans (V_main_arg6 m c))),
      ((h c).1 12).trans (((dats m 0 c).arrAt_in 12 rfl _).trans ((A_eq m c 12).trans (V_main_arg7 m c))),
      ((h c).1 13).trans (((dats m 0 c).arrAt_in 13 rfl _).trans ((A_eq m c 13).trans (V_main_arg8 m c))),
      ((h c).1 14).trans (((dats m 0 c).arrAt_in 14 rfl _).trans ((A_eq m c 14).trans (V_main_arg9 m c))),
      ((h c).1 15).trans (((dats m 0 c).arrAt_in 15 rfl _).trans ((A_eq m c 15).trans (V_main_arg10 m c)))⟩) (run_main m ρ)

end Cert.KernelIdeal.Vals

end
-- ==== Proof.RefDist.lean ====
/-
  The reference's distance features at a pair (i, j) of slots of batch element b.

  The reference slices the first two coordinates of the position rows, broadcasts them over the pairs, subtracts
  (the planar offset), squares and sums over the two coordinates from the initial value 0 (the squared distance),
  replaces a zero squared distance by 1 before the root and the root by 0 after it (the zero-safe distance),
  divides by 50 and clips at 1. Each stage is read here at the index (b, i, j, ·) and identified with the
  specification's dsq, dist, dn and dnc of the two position rows.
-/
import proofs.«103889_j65412351918170_1_alg».proof.Proof.Gen.ReferenceIdeal.Read
import proofs.«103889_j65412351918170_1_alg».proof.Proof.Spec
import Idealize.ShloMosaic.Lib.IdealHost

noncomputable section

open scoped BigOperators

namespace Cert.RefSide

open Cert.ReferenceIdeal Cert.ReferenceIdeal.Gen Cert.ReferenceIdeal.Read Idealize.ShloMosaic Idealize.ShloMosaic.ValueIdx

/-- The position array as the specification types it. -/
abbrev PosArr := (⟨S32x64x4, .f32⟩ : BufTy).Contents (Elt Ideal)

/-- The position row of slot i of batch element b. -/
abbrev posRow (x1 : PosArr) (b : Fin 32) (i : Fin 64) : Fin 4 → EReal := fun k => x1 (ix3 b i k)

/-- The first operand of the offset: the row-slot's position, coordinate k < 2. -/
theorem v8_at (x1 : PosArr) (b : Fin 32) (i j : Fin 64) (k : Fin 2) :
    val_main_v8 (F := Ideal) x1 (ix4 b i j k) = x1 (ix3 b i (Fin.castLE (by decide) k)) := by
  rw [val_main_v8_apply, val_main_v5_apply, val_main_v4_apply]
  exact congrArg x1 (funext fun a => match a with | ⟨0, _⟩ => rfl | ⟨1, _⟩ => rfl | ⟨2, _⟩ => rfl)

/-- The second operand of the offset: the column-slot's position, coordinate k < 2. -/
theorem v9_at (x1 : PosArr) (b : Fin 32) (i j : Fin 64) (k : Fin 2) :
    val_main_v9 (F := Ideal) x1 (ix4 b i j k) = x1 (ix3 b j (Fin.castLE (by decide) k)) := by
  rw [val_main_v9_apply, val_main_v7_apply, val_main_v6_apply]
  exact congrArg x1 (funext fun a => match a with | ⟨0, _⟩ => rfl | ⟨1, _⟩ => rfl | ⟨2, _⟩ => rfl)

/-- The planar offset of the pair, coordinate k < 2. -/
theorem relpos_at (x1 : PosArr) (b : Fin 32) (i j : Fin 64) (k : Fin 2) :
    val_main_v10 (F := Ideal) x1 (ix4 b i j k)
      = x1 (ix3 b i (Fin.castLE (by decide) k)) - x1 (ix3 b j (Fin.castLE (by decide) k)) := by
  rw [val_main_v10_apply, v8_at, v9_at]; rfl

/-- The squared distance: the reduce's initial word is 0, and what is left is the sum over the two coordinates. -/
theorem dsq_at (x1 : PosArr) (b : Fin 32) (i j : Fin 64) :
    val_main_v12 (F := Ideal) x1 (ix3 b i j) = Cert.Spec.dsq (posRow x1 b i) (posRow x1 b j) := by
  rw [val_main_v12_apply, val_main_cst_apply, Ideal.ofBits_def, Ideal.ofBits_zero_f32, zero_add]
  unfold Cert.Spec.dsq
  refine Finset.sum_congr rfl fun k _ => ?_
  have e : idx_main_v12 (ix3 b i j) k = ix4 b i j k :=
    funext fun a => match a with | ⟨0, _⟩ => rfl | ⟨1, _⟩ => rfl | ⟨2, _⟩ => rfl | ⟨3, _⟩ => rfl
  rw [e, val_main_v11_apply, relpos_at]; rfl

/-- The squared distance with its kept unit axis. -/
theorem d13_at (x1 : PosArr) (b : Fin 32) (i j : Fin 64) (z : Fin 1) :
    val_main_v13 (F := Ideal) x1 (ix4 b i j z) = Cert.Spec.dsq (posRow x1 b i) (posRow x1 b j) := by
  rw [val_main_v13_apply]
  have e : idx_main_v13 (ix4 b i j z) = ix3 b i j :=
    funext fun a => match a with | ⟨0, _⟩ => rfl | ⟨1, _⟩ => rfl | ⟨2, _⟩ => rfl
  rw [e, dsq_at]

/-- The zero-safe distance of the pair. -/
theorem dist_at (x1 : PosArr) (b : Fin 32) (i j : Fin 64) (z : Fin 1) :
    val_main_v20 (F := Ideal) x1 (ix4 b i j z) = Cert.Spec.dist (Cert.Spec.dsq (posRow x1 b i) (posRow x1 b j)) := by
  rw [val_main_v20_apply, val_main_v18_apply, val_main_v19_apply, val_main_v16_apply, val_main_v15_apply, d13_at,
    val_main_v17_apply, val_main_cst_2_apply, val_main_v14_apply, val_main_cst_0_apply,
    val_main_call1_v1_apply, val_main_call1_v0_apply, val_main_cst_3_apply,
    val_main_call0_v1_apply, val_main_call0_v0_apply, val_main_cst_1_apply]
  rfl

/-- The distance over 50. -/
theorem dn_at (x1 : PosArr) (b : Fin 32) (i j : Fin 64) (z : Fin 1) :
    val_main_v22 (F := Ideal) x1 (ix4 b i j z) = Cert.Spec.dn (Cert.Spec.dsq (posRow x1 b i) (posRow x1 b j)) := by
  rw [val_main_v22_apply, dist_at, val_main_v21_apply, val_main_cst_4_apply]
  rfl

/-- The distance over 50, clipped at 1. -/
theorem dnc_at (x1 : PosArr) (b : Fin 32) (i j : Fin 64) (z : Fin 1) :
    val_main_v24 (F := Ideal) x1 (ix4 b i j z) = Cert.Spec.dnc (Cert.Spec.dsq (posRow x1 b i) (posRow x1 b j)) := by
  rw [val_main_v24_apply, dn_at, val_main_v23_apply, val_main_cst_5_apply]
  rfl

end Cert.RefSide

end
-- ==== Proof.RefConcat.lean ====
/-
  The reference's concatenated row [slots_i | slots_j | offset | dn | min(dn, 1)] read at a position.

  The reference joins five arrays along the last axis: the row-slot's 256 features broadcast over the columns, the
  column-slot's 256 features broadcast over the rows, the planar offset (2), the scaled distance (1) and its clip (1).
  Position c of the 516 falls in exactly one piece, found by its bounds: c < 256, 256 ≤ c < 512, and the last four
  positions 512 + k, which are the specification's four extra features of the pair.
-/
import proofs.«103889_j65412351918170_1_alg».proof.Proof.RefDist

noncomputable section

open scoped BigOperators

namespace Cert.RefSide

open Cert.ReferenceIdeal Cert.ReferenceIdeal.Gen Cert.ReferenceIdeal.Read Idealize.ShloMosaic Idealize.ShloMosaic.ValueIdx

/-- The slot array as the reference types it. -/
abbrev SlotArr := (⟨S32x64x256, .f32⟩ : BufTy).Contents (Elt Ideal)

/-- The row-slot's feature k, broadcast over the columns. -/
theorem v1_at (x0 : SlotArr) (b : Fin 32) (i j : Fin 64) (k : Fin 256) :
    val_main_v1 (F := Ideal) x0 (ix4 b i j k) = x0 (ix3 b i k) := by
  rw [val_main_v1_apply, val_main_v0_apply]
  exact congrArg x0 (funext fun a => match a with | ⟨0, _⟩ => rfl | ⟨1, _⟩ => rfl | ⟨2, _⟩ => rfl)

/-- The column-slot's feature k, broadcast over the rows. -/
theorem v3_at (x0 : SlotArr) (b : Fin 32) (i j : Fin 64) (k : Fin 256) :
    val_main_v3 (F := Ideal) x0 (ix4 b i j k) = x0 (ix3 b j k) := by
  rw [val_main_v3_apply, val_main_v2_apply]
  exact congrArg x0 (funext fun a => match a with | ⟨0, _⟩ => rfl | ⟨1, _⟩ => rfl | ⟨2, _⟩ => rfl)

/-- The five pieces of the concatenation. -/
abbrev catPieces (x0 : SlotArr) (x1 : PosArr) : List ((s : Shape) × (s.Idx → EReal)) :=
  [⟨S32x64x64x256, (val_main_v1 (F := Ideal) x0)⟩, ⟨S32x64x64x256, (val_main_v3 (F := Ideal) x0)⟩,
   ⟨S32x64x64x2, (val_main_v10 (F := Ideal) x1)⟩, ⟨S32x64x64x1, (val_main_v22 (F := Ideal) x1)⟩,
   ⟨S32x64x64x1, (val_main_v24 (F := Ideal) x1)⟩]

/-- A position below 256 reads the row-slot's feature. -/
theorem cat_slotI (x0 : SlotArr) (x1 : PosArr) (b : Fin 32) (i j : Fin 64) (c : Fin 516) (k : Fin 256)
    (hc : c.val = k.val) : val_main_v25 (F := Ideal) x0 x1 (ix4 b i j c) = x0 (ix3 b i k) := by
  unfold val_main_v25
  refine (concatenate_apply_piece (3 : Fin 4) (catPieces x0 x1) _ (ix4 b i j c) 0 (by show 0 < 5; omega) S32x64x64x256
    (val_main_v1 (F := Ideal) x0) rfl rfl 0 rfl (ix4 b i j k) ?_ ?_).trans (v1_at x0 b i j k)
  · intro a ha
    match a, ha with
    | ⟨0, _⟩, _ => rfl
    | ⟨1, _⟩, _ => rfl
    | ⟨2, _⟩, _ => rfl
    | ⟨3, _⟩, ha => exact absurd rfl ha
  · show 0 + k.val = c.val
    omega

/-- A position 256 + k, k < 256, reads the column-slot's feature k. -/
theorem cat_slotJ (x0 : SlotArr) (x1 : PosArr) (b : Fin 32) (i j : Fin 64) (c : Fin 516) (k : Fin 256)
    (hc : c.val = 256 + k.val) : val_main_v25 (F := Ideal) x0 x1 (ix4 b i j c) = x0 (ix3 b j k) := by
  unfold val_main_v25
  refine (concatenate_apply_piece (3 : Fin 4) (catPieces x0 x1) _ (ix4 b i j c) 1 (by show 1 < 5; omega) S32x64x64x256
    (val_main_v3 (F := Ideal) x0) rfl rfl 256 rfl (ix4 b i j k) ?_ ?_).trans (v3_at x0 b i j k)
  · intro a ha
    match a, ha with
    | ⟨0, _⟩, _ => rfl
    | ⟨1, _⟩, _ => rfl
    | ⟨2, _⟩, _ => rfl
    | ⟨3, _⟩, ha => exact absurd rfl ha
  · show 256 + k.val = c.val
    omega

/-- A position 512 + k, k < 2, reads the planar offset's coordinate k. -/
theorem cat_off (x0 : SlotArr) (x1 : PosArr) (b : Fin 32) (i j : Fin 64) (c : Fin 516) (k : Fin 2)
    (hc : c.val = 512 + k.val) : val_main_v25 (F := Ideal) x0 x1 (ix4 b i j c)
      = x1 (ix3 b i (Fin.castLE (by decide) k)) - x1 (ix3 b j (Fin.castLE (by decide) k)) := by
  unfold val_main_v25
  refine (concatenate_apply_piece (3 : Fin 4) (catPieces x0 x1) _ (ix4 b i j c) 2 (by show 2 < 5; omega) S32x64x64x2
    (val_main_v10 (F := Ideal) x1) rfl rfl 512 rfl (ix4 b i j k) ?_ ?_).trans (relpos_at x1 b i j k)
  · intro a ha
    match a, ha with
    | ⟨0, _⟩, _ => rfl
    | ⟨1, _⟩, _ => rfl
    | ⟨2, _⟩, _ => rfl
    | ⟨3, _⟩, ha => exact absurd rfl ha
  · show 512 + k.val = c.val
    omega

/-- Position 514 reads the scaled distance. -/
theorem cat_dn (x0 : SlotArr) (x1 : PosArr) (b : Fin 32) (i j : Fin 64) (c : Fin 516)
    (hc : c.val = 514) : val_main_v25 (F := Ideal) x0 x1 (ix4 b i j c)
      = Cert.Spec.dn (Cert.Spec.dsq (posRow x1 b i) (posRow x1 b j)) := by
  unfold val_main_v25
  refine (concatenate_apply_piece (3 : Fin 4) (catPieces x0 x1) _ (ix4 b i j c) 3 (by show 3 < 5; omega) S32x64x64x1
    (val_main_v22 (F := Ideal) x1) rfl rfl 514 rfl (ix4 b i j (0 : Fin 1)) ?_ ?_).trans (dn_at x1 b i j 0)
  · intro a ha
    match a, ha with
    | ⟨0, _⟩, _ => rfl
    | ⟨1, _⟩, _ => rfl
    | ⟨2, _⟩, _ => rfl
    | ⟨3, _⟩, ha => exact absurd rfl ha
  · show 514 + 0 = c.val
    omega

/-- Position 515 reads the clipped scaled distance. -/
theorem cat_dnc (x0 : SlotArr) (x1 : PosArr) (b : Fin 32) (i j : Fin 64) (c : Fin 516)
    (hc : c.val = 515) : val_main_v25 (F := Ideal) x0 x1 (ix4 b i j c)
      = Cert.Spec.dnc (Cert.Spec.dsq (posRow x1 b i) (posRow x1 b j)) := by
  unfold val_main_v25
  refine (concatenate_apply_piece (3 : Fin 4) (catPieces x0 x1) _ (ix4 b i j c) 4 (by show 4 < 5; omega) S32x64x64x1
    (val_main_v24 (F := Ideal) x1) rfl rfl 515 rfl (ix4 b i j (0 : Fin 1)) ?_ ?_).trans (dnc_at x1 b i j 0)
  · intro a ha
    match a, ha with
    | ⟨0, _⟩, _ => rfl
    | ⟨1, _⟩, _ => rfl
    | ⟨2, _⟩, _ => rfl
    | ⟨3, _⟩, ha => exact absurd rfl ha
  · show 515 + 0 = c.val
    omega

/-- The last four positions are the specification's four extra features of the pair. -/
theorem cat_extra (x0 : SlotArr) (x1 : PosArr) (b : Fin 32) (i j : Fin 64) (c : Fin 516) (k : Fin 4)
    (hc : c.val = 512 + k.val) : val_main_v25 (F := Ideal) x0 x1 (ix4 b i j c)
      = Cert.Spec.extra (posRow x1 b i) (posRow x1 b j) k := by
  match k, hc with
  | ⟨0, _⟩, hc => exact cat_off x0 x1 b i j c 0 hc
  | ⟨1, _⟩, hc => exact cat_off x0 x1 b i j c 1 hc
  | ⟨2, _⟩, hc => exact cat_dn x0 x1 b i j c hc
  | ⟨3, _⟩, hc => exact cat_dnc x0 x1 b i j c hc

end Cert.RefSide

end
-- ==== Proof.RefLayer1.lean ====
/-
  The reference's first layer at a pair: one product over the 516 concatenated positions, split in three.

  The reference multiplies the concatenated row [slots_i | slots_j | extra] by W1 in ONE contraction over 516
  positions. A sum over 516 = (256 + 256) + 4 positions is the sum of the three partial sums (associativity only),
  and on each stretch the concatenated row is one of its pieces: so the product is the specification's
  (Σ slots_i · Wa + Σ slots_j · Wb) + Σ extra · Wc. Adding the bias and taking the maximum with the word 0
  gives the specification's hidden row.
-/
import proofs.«103889_j65412351918170_1_alg».proof.Proof.RefConcat

noncomputable section

open scoped BigOperators

namespace Cert.RefSide

open Cert.ReferenceIdeal Cert.ReferenceIdeal.Gen Cert.ReferenceIdeal.Read Idealize.ShloMosaic Idealize.ShloMosaic.ValueIdx

/-- A sum over 516 positions is the sum over the first 256, the next 256 and the last 4. -/
theorem sum516 {M : Type*} [AddCommMonoid M] (f : Fin 516 → M) :
    ∑ c : Fin 516, f c = (∑ k : Fin 256, f ⟨k.val, by omega⟩ + ∑ k : Fin 256, f ⟨256 + k.val, by omega⟩)
      + ∑ k : Fin 4, f ⟨512 + k.val, by omega⟩ := by
  have h1 : ∑ c : Fin 516, f c = ∑ k : Fin 512, f (Fin.castAdd 4 k) + ∑ k : Fin 4, f (Fin.natAdd 512 k) :=
    Fin.sum_univ_add (a := 512) (b := 4) f
  have h2 : ∑ k : Fin 512, f (Fin.castAdd 4 k)
      = ∑ k : Fin 256, f (Fin.castAdd 4 (Fin.castAdd 256 k)) + ∑ k : Fin 256, f (Fin.castAdd 4 (Fin.natAdd 256 k)) :=
    Fin.sum_univ_add (a := 256) (b := 256) fun k => f (Fin.castAdd 4 k)
  rw [h1, h2]; rfl

/-- The first-layer weights and bias as the reference types them. -/
abbrev W1Arr := (⟨S516x256, .f32⟩ : BufTy).Contents (Elt Ideal)
abbrev B1Arr := (⟨S256, .f32⟩ : BufTy).Contents (Elt Ideal)

/-- The first layer's product at hidden unit h of the pair (i, j): the three partial products. -/
theorem layer1_at (x0 : SlotArr) (x1 : PosArr) (x3 : W1Arr) (b : Fin 32) (i j : Fin 64) (h : Fin 256) :
    val_main_v26 (F := Ideal) x0 x1 x3 (ix4 b i j h)
      = (∑ k : Fin 256, x0 (ix3 b i k) * Cert.Spec.Wa x3 k h + ∑ k : Fin 256, x0 (ix3 b j k) * Cert.Spec.Wb x3 k h)
        + ∑ k : Fin 4, Cert.Spec.extra (posRow x1 b i) (posRow x1 b j) k * Cert.Spec.Wc x3 k h := by
  have el : ∀ c, lidx_main_v26 (ix4 b i j h) c = ix4 b i j c := fun c =>
    funext fun a => match a with | ⟨0, _⟩ => rfl | ⟨1, _⟩ => rfl | ⟨2, _⟩ => rfl | ⟨3, _⟩ => rfl
  have er : ∀ c, ridx_main_v26 (ix4 b i j h) c = ix2 c h := fun c =>
    funext fun a => match a with | ⟨0, _⟩ => rfl | ⟨1, _⟩ => rfl
  rw [val_main_v26_apply]
  simp only [el, er]
  refine (sum516 _).trans ?_
  refine congrArg₂ (· + ·) (congrArg₂ (· + ·) (Finset.sum_congr rfl fun k _ => ?_) (Finset.sum_congr rfl fun k _ => ?_))
    (Finset.sum_congr rfl fun k _ => ?_)
  · beta_reduce
    rw [cat_slotI x0 x1 b i j _ k rfl]; rfl
  · beta_reduce
    rw [cat_slotJ x0 x1 b i j _ k rfl]; rfl
  · beta_reduce
    rw [cat_extra x0 x1 b i j _ k rfl]; rfl

/-- The hidden row of the pair: the product plus the bias, then the maximum with the word 0. -/
theorem hid_at (x0 : SlotArr) (x1 : PosArr) (x3 : W1Arr) (x4 : B1Arr) (b : Fin 32) (i j : Fin 64) (h : Fin 256) :
    val_main_v30 (F := Ideal) x0 x1 x3 x4 (ix4 b i j h) = Cert.Spec.hidAt x0 x1 x3 x4 b i j h := by
  have e : idx_main_v27 (idx_main_v28 (ix4 b i j h)) = ix1 h := funext fun a => match a with | ⟨0, _⟩ => rfl
  rw [val_main_v30_apply, val_main_v29_apply, layer1_at, val_main_v28_apply, val_main_v27_apply, e,
    val_main_call2_v0_apply, val_main_call2_cst_apply]
  rfl

end Cert.RefSide

end
-- ==== Proof.RefFeats.lean ====
/-
  The reference's second layer and mask product at a pair: the first result, the pair features.

  The second layer is one contraction of the hidden row with W2 over its 256 units, plus the bias broadcast over the
  pairs; the mask of a pair is the product of the two slots' mask entries, broadcast over the 128 features. Read at the
  index (b, i, j, d) this is the specification's feature d of the pair, so the reference's first result is the
  specification's array of pair features.
-/
import proofs.«103889_j65412351918170_1_alg».proof.Proof.RefLayer1

noncomputable section

open scoped BigOperators

namespace Cert.RefSide

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The mask, second-layer weights and bias as the reference types them. -/
abbrev MaskArr := (⟨S32x64, .f32⟩ : BufTy).Contents (Elt Ideal)
abbrev W2Arr := (⟨S256x128, .f32⟩ : BufTy).Contents (Elt Ideal)
abbrev B2Arr := (⟨S128, .f32⟩ : BufTy).Contents (Elt Ideal)

/-- The pair's mask: the product of the two slots' mask entries. -/
theorem mask_at (x2 : MaskArr) (b : Fin 32) (i j : Fin 64) :
    val_main_v39 (F := Ideal) x2 (ix3 b i j) = x2 (ix2 b i) * x2 (ix2 b j) := by
  have e1 : idx_main_v35 (idx_main_v37 (ix3 b i j)) = ix2 b i :=
    funext fun a => match a with | ⟨0, _⟩ => rfl | ⟨1, _⟩ => rfl
  have e2 : idx_main_v36 (idx_main_v38 (ix3 b i j)) = ix2 b j :=
    funext fun a => match a with | ⟨0, _⟩ => rfl | ⟨1, _⟩ => rfl
  rw [val_main_v39_apply, val_main_v37_apply, val_main_v35_apply, val_main_v38_apply, val_main_v36_apply, e1, e2]
  rfl

/-- Feature d of the pair (i, j) of batch element b. -/
theorem feat_at (x0 : SlotArr) (x1 : PosArr) (x2 : MaskArr) (x3 : W1Arr) (x4 : B1Arr) (x5 : W2Arr) (x6 : B2Arr)
    (b : Fin 32) (i j : Fin 64) (d : Fin 128) :
    val_main_v42 (F := Ideal) x0 x1 x2 x3 x4 x5 x6 (ix4 b i j d) = Cert.Spec.featAt x0 x1 x2 x3 x4 x5 x6 b i j d := by
  have e1 : idx_main_v32 (idx_main_v33 (ix4 b i j d)) = ix1 d := funext fun a => match a with | ⟨0, _⟩ => rfl
  have e2 : idx_main_v40 (idx_main_v41 (ix4 b i j d)) = ix3 b i j :=
    funext fun a => match a with | ⟨0, _⟩ => rfl | ⟨1, _⟩ => rfl | ⟨2, _⟩ => rfl
  have el : ∀ k, lidx_main_v31 (ix4 b i j d) k = ix4 b i j k := fun k =>
    funext fun a => match a with | ⟨0, _⟩ => rfl | ⟨1, _⟩ => rfl | ⟨2, _⟩ => rfl | ⟨3, _⟩ => rfl
  have er : ∀ k, ridx_main_v31 (ix4 b i j d) k = ix2 k d := fun k =>
    funext fun a => match a with | ⟨0, _⟩ => rfl | ⟨1, _⟩ => rfl
  rw [val_main_v42_apply, val_main_v34_apply, val_main_v31_apply, val_main_v33_apply, val_main_v32_apply, e1,
    val_main_v41_apply, val_main_v40_apply, e2, mask_at]
  simp only [el, er, hid_at]
  rfl

/-- FIRST RESULT, as a function of the argument arrays: the reference's pair features are the specification's. -/
theorem feats_val (x0 : SlotArr) (x1 : PosArr) (x2 : MaskArr) (x3 : W1Arr) (x4 : B1Arr) (x5 : W2Arr) (x6 : B2Arr) :
    val_main_v42 (F := Ideal) x0 x1 x2 x3 x4 x5 x6 = Cert.Spec.featsArr x0 x1 x2 x3 x4 x5 x6 := by
  funext x
  obtain ⟨b, i, j, d, rfl⟩ : ∃ (b : Fin 32) (i j : Fin 64) (d : Fin 128), x = ix4 b i j d :=
    ⟨x 0, x 1, x 2, x 3, eq_ix4 x⟩
  exact feat_at x0 x1 x2 x3 x4 x5 x6 b i j d

/-- FIRST RESULT, on the run's term: what the reference's run leaves in its first result buffer is the
    specification's array of pair features of the argument arrays. -/
theorem feats_res (m : (ℓ : Loc nD τ sig) → Buf (Elt Ideal) ℓ) (c : Dev nD) :
    Cert.ReferenceIdeal.Value.res_main_v42 (F := Ideal) m c
      = Cert.Spec.featsArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v42_eq (F := Ideal) m c).trans (feats_val _ _ _ _ _ _ _)

end Cert.RefSide

end
-- ==== Proof.RefHeads.lean ====
/-
  The reference's two heads at a pair: the second and third results.

  The interaction-type logits are one contraction of the pair's feature row with Wt over its 128 features, plus the
  bias. The causal score contracts the same row with the one column of Wc, adds the one bias entry, drops the unit
  axis (a reshape: the row-major position of (b, i, j) is that of (b, i, j, 0)), and applies 1 / (1 + exp(−x)) spelled
  out in four operations with the word 1 — the logistic function by its definition — before the pair's mask product.
-/
import proofs.«103889_j65412351918170_1_alg».proof.Proof.RefFeats

noncomputable section

open scoped BigOperators

namespace Cert.RefSide

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The heads' weights and biases as the reference types them. -/
abbrev WtArr := (⟨S128x8, .f32⟩ : BufTy).Contents (Elt Ideal)
abbrev BtArr := (⟨S8, .f32⟩ : BufTy).Contents (Elt Ideal)
abbrev WcArr := (⟨S128x1, .f32⟩ : BufTy).Contents (Elt Ideal)
abbrev BcArr := (⟨S1, .f32⟩ : BufTy).Contents (Elt Ideal)

/-- Interaction-type logit k of the pair (i, j) of batch element b. -/
theorem itype_at (x0 : SlotArr) (x1 : PosArr) (x2 : MaskArr) (x3 : W1Arr) (x4 : B1Arr) (x5 : W2Arr) (x6 : B2Arr) (x7 : WtArr) (x8 : BtArr) (b : Fin 32) (i j : Fin 64) (k : Fin 8) :
    val_main_v46 (F := Ideal) x0 x1 x2 x3 x4 x5 x6 x7 x8 (ix4 b i j k)
      = Cert.Spec.itype (Cert.Spec.featAt x0 x1 x2 x3 x4 x5 x6 b i j) (fun d k => x7 (ix2 d k)) (fun k => x8 (ix1 k)) k := by
  have e1 : idx_main_v44 (idx_main_v45 (ix4 b i j k)) = ix1 k := funext fun a => match a with | ⟨0, _⟩ => rfl
  have el : ∀ d, lidx_main_v43 (ix4 b i j k) d = ix4 b i j d := fun d =>
    funext fun a => match a with | ⟨0, _⟩ => rfl | ⟨1, _⟩ => rfl | ⟨2, _⟩ => rfl | ⟨3, _⟩ => rfl
  have er : ∀ d, ridx_main_v43 (ix4 b i j k) d = ix2 d k := fun d =>
    funext fun a => match a with | ⟨0, _⟩ => rfl | ⟨1, _⟩ => rfl
  rw [val_main_v46_apply, val_main_v43_apply, val_main_v45_apply, val_main_v44_apply, e1]
  simp only [el, er, feat_at]
  rfl

/-- SECOND RESULT, as a function of the argument arrays. -/
theorem itypes_val (x0 : SlotArr) (x1 : PosArr) (x2 : MaskArr) (x3 : W1Arr) (x4 : B1Arr) (x5 : W2Arr) (x6 : B2Arr) (x7 : WtArr) (x8 : BtArr) :
    val_main_v46 (F := Ideal) x0 x1 x2 x3 x4 x5 x6 x7 x8 = Cert.Spec.itypesArr x0 x1 x2 x3 x4 x5 x6 x7 x8 := by
  funext x
  obtain ⟨b, i, j, k, rfl⟩ : ∃ (b : Fin 32) (i j : Fin 64) (k : Fin 8), x = ix4 b i j k :=
    ⟨x 0, x 1, x 2, x 3, eq_ix4 x⟩
  exact itype_at x0 x1 x2 x3 x4 x5 x6 x7 x8 b i j k

/-- SECOND RESULT, on the run's term. -/
theorem itypes_res (m : (ℓ : Loc nD τ sig) → Buf (Elt Ideal) ℓ) (c : Dev nD) :
    Cert.ReferenceIdeal.Value.res_main_v46 (F := Ideal) m c
      = Cert.Spec.itypesArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v46_eq (F := Ideal) m c).trans (itypes_val _ _ _ _ _ _ _ _ _)

/-- The causal logit of the pair: the row-major position of (b, i, j) among [32, 64, 64] is that of (b, i, j, 0)
    among [32, 64, 64, 1]. -/
theorem logit_at (x0 : SlotArr) (x1 : PosArr) (x2 : MaskArr) (x3 : W1Arr) (x4 : B1Arr) (x5 : W2Arr) (x6 : B2Arr) (x9 : WcArr) (x10 : BcArr) (b : Fin 32) (i j : Fin 64) :
    val_main_v51 (F := Ideal) x0 x1 x2 x3 x4 x5 x6 x9 x10 (ix3 b i j)
      = (∑ d : Fin 128, Cert.Spec.featAt x0 x1 x2 x3 x4 x5 x6 b i j d * x9 (ix2 d (0 : Fin 1))) + x10 (ix1 (0 : Fin 1)) := by
  have hb := b.isLt
  have hi := i.isLt
  have hj := j.isLt
  have e0 : idx_main_v51 (ix3 b i j) = ix4 b i j (0 : Fin 1) := by
    funext a
    apply Fin.ext
    match a with
    | ⟨0, _⟩ => show ((b.val * 64 + i.val) * 64 + j.val) / 4096 = b.val; omega
    | ⟨1, _⟩ => show ((b.val * 64 + i.val) * 64 + j.val) / 64 % 64 = i.val; omega
    | ⟨2, _⟩ => show ((b.val * 64 + i.val) * 64 + j.val) / 1 % 64 = j.val; omega
    | ⟨3, _⟩ => rfl
  have e1 : idx_main_v48 (idx_main_v49 (ix4 b i j (0 : Fin 1))) = ix1 (0 : Fin 1) :=
    funext fun a => match a with | ⟨0, _⟩ => rfl
  have el : ∀ d, lidx_main_v47 (ix4 b i j (0 : Fin 1)) d = ix4 b i j d := fun d =>
    funext fun a => match a with | ⟨0, _⟩ => rfl | ⟨1, _⟩ => rfl | ⟨2, _⟩ => rfl | ⟨3, _⟩ => rfl
  have er : ∀ d, ridx_main_v47 (ix4 b i j (0 : Fin 1)) d = ix2 d (0 : Fin 1) := fun d =>
    funext fun a => match a with | ⟨0, _⟩ => rfl | ⟨1, _⟩ => rfl
  rw [val_main_v51_apply, e0, val_main_v50_apply, val_main_v47_apply, val_main_v49_apply, val_main_v48_apply, e1]
  simp only [el, er, feat_at]
  rfl

/-- The causal score of the pair: 1 / (1 + exp(−x)) with the word 1 read as the number 1 is the logistic function. -/
theorem causal_at (x0 : SlotArr) (x1 : PosArr) (x2 : MaskArr) (x3 : W1Arr) (x4 : B1Arr) (x5 : W2Arr) (x6 : B2Arr) (x9 : WcArr) (x10 : BcArr) (b : Fin 32) (i j : Fin 64) :
    val_main_v58 (F := Ideal) x0 x1 x2 x3 x4 x5 x6 x9 x10 (ix3 b i j)
      = Cert.Spec.causal (Cert.Spec.featAt x0 x1 x2 x3 x4 x5 x6 b i j) (fun d => x9 (ix2 d (0 : Fin 1)))
          (x10 (ix1 (0 : Fin 1))) (x2 (ix2 b i)) (x2 (ix2 b j)) := by
  rw [val_main_v58_apply, val_main_v57_apply, val_main_v56_apply, val_main_cst_7_apply, val_main_v55_apply,
    val_main_v54_apply, val_main_cst_6_apply, val_main_v53_apply, val_main_v52_apply, logit_at, mask_at]
  simp only [Ideal.ofBits_def, Ideal.ofBits_one_f32]
  rfl

/-- THIRD RESULT, as a function of the argument arrays. -/
theorem causal_val (x0 : SlotArr) (x1 : PosArr) (x2 : MaskArr) (x3 : W1Arr) (x4 : B1Arr) (x5 : W2Arr) (x6 : B2Arr) (x9 : WcArr) (x10 : BcArr) :
    val_main_v58 (F := Ideal) x0 x1 x2 x3 x4 x5 x6 x9 x10 = Cert.Spec.causalArr x0 x1 x2 x3 x4 x5 x6 x9 x10 := by
  funext x
  obtain ⟨b, i, j, rfl⟩ : ∃ (b : Fin 32) (i j : Fin 64), x = ix3 b i j := ⟨x 0, x 1, x 2, eq_ix3 x⟩
  exact causal_at x0 x1 x2 x3 x4 x5 x6 x9 x10 b i j

/-- THIRD RESULT, on the run's term. -/
theorem causal_res (m : (ℓ : Loc nD τ sig) → Buf (Elt Ideal) ℓ) (c : Dev nD) :
    Cert.ReferenceIdeal.Value.res_main_v58 (F := Ideal) m c
      = Cert.Spec.causalArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg9))
          (m ((c.tc : Thread nD τ).loc main_arg10)) :=
  (val_main_v58_eq (F := Ideal) m c).trans (causal_val _ _ _ _ _ _ _ _ _)

end Cert.RefSide

end
-- ==== Proof.lean ====
/-
  The certificate of the pairwise interaction encoder: the Pallas kernel against its jnp reference.

  The kernel's grid has one point per (batch element b, half s of the 64 query rows); at each point it reads rows
  32·s … 32·s + 31 of b's slots, positions and mask, all 64 rows of the same three arrays through a second window each,
  and the weights, and writes one block of each of the three results. Its first layer is computed as the sum of three
  products — the query rows against rows 0–255 of W1, the key rows against rows 256–511, the four distance features
  against rows 512–515 — where the reference multiplies the 516-wide concatenation by W1 at once: the two are the same
  sum over 256 + 256 + 4 positions, regrouped, which holds on the extended reals with no finiteness assumption. Every
  other operation is the same in both programs (the logistic written out on the host as 1 / (1 + exp (−x)) is the
  kernel's logistic by definition), so the results are equal entry by entry.

  The three frames: both kernel programs run to the end without a fault and leave their arguments unchanged (the slots,
  positions and mask, each read through two windows, are held in two half shares); the reference is a straight line of
  host operations. The idealization rewrote nothing, so there is nothing to preserve.
-/
import proofs.«103889_j65412351918170_1_alg».proof.Defs
import proofs.«103889_j65412351918170_1_alg».proof.Proof.Gen.Kernel
import proofs.«103889_j65412351918170_1_alg».proof.Proof.Gen.KernelIdeal
import proofs.«103889_j65412351918170_1_alg».proof.Proof.Gen.ReferenceIdeal
import proofs.«103889_j65412351918170_1_alg».proof.Proof.Gen.Pre_finite_inputs
import proofs.«103889_j65412351918170_1_alg».proof.Proof.KBLaunch
import proofs.«103889_j65412351918170_1_alg».proof.Proof.KIFinal
import proofs.«103889_j65412351918170_1_alg».proof.Proof.RefHeads
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs end with the specification's three arrays of arguments that agree. -/
theorem algebraic : Cert.algebraic_KernelIdeal_ReferenceIdeal := by
  intro m ρ m' ρ' _ hagree
  refine ⟨fun c => Cert.KernelIdeal.Vals.G16 m c, fun c => Cert.KernelIdeal.Vals.G17 m c, fun c => Cert.KernelIdeal.Vals.G18 m c,
    Cert.KernelIdeal.Vals.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10⟩ := hagree c
  refine ⟨(h c).1.trans ((Cert.RefSide.feats_res m' c).trans ?_), (h c).2.1.trans ((Cert.RefSide.itypes_res m' c).trans ?_),
    (h c).2.2.1.trans ((Cert.RefSide.causal_res m' c).trans ?_), (h c).2.2.2⟩
  · unfold Cert.KernelIdeal.Vals.G16; rw [e0, e1, e2, e3, e4, e5, e6]
  · unfold Cert.KernelIdeal.Vals.G17; rw [e0, e1, e2, e3, e4, e5, e6, e7, e8]
  · unfold Cert.KernelIdeal.Vals.G18; rw [e0, e1, e2, e3, e4, e5, e6, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
